-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x1024 : Shape := ⟨3, ![8, 2048, 1024]⟩
abbrev S1024x1024 : Shape := ⟨2, ![1024, 1024]⟩
abbrev S1024 : Shape := ⟨1, ![1024]⟩
abbrev S_ : Shape := ⟨0, ![]⟩

class Facts : Prop where
  bcast_S_S8x2048x1024 : S_.BroadcastsInDim S8x2048x1024 (![] : Fin 0 → Fin S8x2048x1024.rank)
  reducesTo_S8x2048x1024_S_d0_1_2 : S8x2048x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn {F : FTy → Type} [FloatOps F] (main_arg0 : FVec F S8x2048x1024 .f32) (main_arg1 : FVec F S1024x1024 .f32) (main_arg2 : FVec F S1024 .f32) : IVec S_ 1 :=
  let main_v0 : FVec F S8x2048x1024 .f32 := Host.absf main_arg0
  let main_cst : FVec F S_ .f32 := constant S_ .f32 0x7F800000#32
  let main_v1 : FVec F S8x2048x1024 .f32 := broadcastInDim S8x2048x1024 ![] bcast_S_S8x2048x1024 main_cst
  let main_v2 : IVec S8x2048x1024 1 := cmpf .olt main_v0 main_v1
  let main_c : IVec S_ 1 := constantI S_ 1 1#1
  let main_v3 : IVec S_ 1 := (fun x v => Host.reduce IntOp.andi x v reducesTo_S8x2048x1024_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  main_v13
-- ==== Kernel.lean ====
abbrev S8x2048x1024 : Shape := ⟨3, ![8, 2048, 1024]⟩
abbrev S1024x1024 : Shape := ⟨2, ![1024, 1024]⟩
abbrev S1024 : Shape := ⟨1, ![1024]⟩
abbrev S1x1024x1024 : Shape := ⟨3, ![1, 1024, 1024]⟩
abbrev S1024x1 : Shape := ⟨2, ![1024, 1]⟩
abbrev S1x1024 : Shape := ⟨2, ![1, 1024]⟩

abbrev nBuf : Space → Nat
  | .hbm => 7
  | .vmem => 12
  | .smem => 0
  | _ => 0

abbrev bufTy : (tb : Table) → Fin (tcTables nBuf tb) → BufTy
  | .hbm, ⟨0, _⟩ => ⟨S8x2048x1024, .f32⟩
  | .hbm, ⟨1, _⟩ => ⟨S1024x1024, .f32⟩
  | .hbm, ⟨2, _⟩ => ⟨S1024, .f32⟩
  | .hbm, ⟨3, _⟩ => ⟨S8x2048x1024, .bf16⟩
  | .hbm, ⟨4, _⟩ => ⟨S1024x1024, .f32⟩
  | .hbm, ⟨5, _⟩ => ⟨S1024x1024, .bf16⟩
  | .hbm, ⟨6, _⟩ => ⟨S8x2048x1024, .f32⟩
  | .local _ .vmem, ⟨0, _⟩ => ⟨S1x1024x1024, .bf16⟩
  | .local _ .vmem, ⟨1, _⟩ => ⟨S1x1024x1024, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S1024x1024, .bf16⟩
  | .local _ .vmem, ⟨5, _⟩ => ⟨S1024, .f32⟩
  | .local _ .vmem, ⟨6, _⟩ => ⟨S1x1024x1024, .f32⟩
  | .local _ .vmem, ⟨7, _⟩ => ⟨S1x1024x1024, .f32⟩
  | .local _ .vmem, ⟨8, _⟩ => ⟨S1024x1, .f32⟩
  | .local _ .vmem, ⟨9, _⟩ => ⟨S1024x1, .f32⟩
  | .local _ .vmem, ⟨10, _⟩ => ⟨S1024x1024, .f32⟩
  | .local _ .vmem, ⟨11, _⟩ => ⟨S1024x1024, .bf16⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨3, ![8, 2, 2], ![false, false, false]⟩

def k0_cond2 (i : grid0.Coords) : BitVec 1 :=
  let arg2 : BitVec 32 := BitVec.ofNat 32 (i 2).val
  let c1_i32 : BitVec 32 := 1#32
  let v38 : BitVec 1 := Scalar.cmpi .eq arg2 c1_i32
  let v39 : BitVec 32 := Scalar.extui v38
  let c0_i32_22 : BitVec 32 := 0#32
  let v40 : BitVec 1 := Scalar.cmpi .ne v39 c0_i32_22
  v40

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 1 → Memref sig .tc .vmem S1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S1x1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

class Facts₀ : Prop where
  bitsLt_bf16_f32 : FTy.bits .bf16 < FTy.bits .f32
  transposes_S1024x1024_S1024x1024_1_0 : S1024x1024.Transposes [1, 0] S1024x1024
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  inb_S1024_S1024_0 : ∀ a, (![0] : Fin 1 → Nat) a + S1024.size a ≤ S1024.size a
  h_S1024 : 0 < S1024.numel
  shapeCasts_S1024_S1x1024 : S1024.ShapeCasts S1x1024
  broadcasts_S1x1024_S1024x1024 : S1x1024.Broadcasts S1024x1024
  packedbf16_S1024x1024_S1024x1024_0_0 : (Rect.unit (s := S1024x1024) ![0, 0] S1024x1024.size inb_S1024x1024_S1024x1024_0_0).PackedRows (EltTy.packing .bf16)
  transposes_S1024x1024_p1_0_S1024x1024 : S1024x1024.Transposes [1, 0] S1024x1024
  reduces_S1024x1024_S1024 : S1024x1024.Reduces [1] S1024
  shapeCasts_S1024_S1024x1 : S1024.ShapeCasts S1024x1
  broadcasts_S1024x1_S1024x1024 : S1024x1.Broadcasts S1024x1024
  shapeCasts_S1024x1024_S1x1024x1024 : S1024x1024.ShapeCasts S1x1024x1024
  dot_S1024x1024_S1024x1024_S1024x1024_1_0_0_1_n_n_wf : DotDims.WF S1024x1024 S1024x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x1024.size a ≤ S8x2048x1024.size a
  hwx0_0 : ∀ i : grid0.Coords, EltTy.bits .bf16 = 32 ∨ (Rect.block (s := S8x2048x1024) S1x1024x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x1024.size a ≤ S8x2048x1024.size a
  hwx0_1 : ∀ i : grid0.Coords, EltTy.bits .bf16 = 32 ∨ (Rect.block (s := S8x2048x1024) S1x1024x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S1024x1024.size a
  hwx0_2 : ∀ i : grid0.Coords, EltTy.bits .bf16 = 32 ∨ (Rect.block (s := S1024x1024) S1024x1024.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024.size a ≤ S1024.size a
  hwx0_3 : ∀ i : grid0.Coords, EltTy.bits .f32 = 32 ∨ (Rect.block (s := S1024) S1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1024x1024.size a ≤ S8x2048x1024.size a
  hwx0_4 : ∀ i : grid0.Coords, EltTy.bits .f32 = 32 ∨ (Rect.block (s := S8x2048x1024) S1x1024x1024.size (cc0_transform_4 i) (hinb0_4 i)).WholeWords (EltTy.packing .f32)

variable [Facts₀]

def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf

abbrev win0_0 : Pipeline.Window sig grid0 :=
  Pipeline.Window.ofSpec (Memref.whole main_v0) S1x1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1024x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S1x1024x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S8x2048x1024 : Shape := ⟨3, ![8, 2048, 1024]⟩
abbrev S1024x1024 : Shape := ⟨2, ![1024, 1024]⟩
abbrev S1024 : Shape := ⟨1, ![1024]⟩
abbrev S1x1x1024 : Shape := ⟨3, ![1, 1, 1024]⟩
abbrev S8x2048x2048 : Shape := ⟨3, ![8, 2048, 2048]⟩
abbrev S_ : Shape := ⟨0, ![]⟩
abbrev S8x2048 : Shape := ⟨2, ![8, 2048]⟩
abbrev S8x2048x1 : Shape := ⟨3, ![8, 2048, 1]⟩

abbrev nBuf : Space → Nat
  | .hbm => 23
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S1024x1024, .f32⟩
  | .hbm, ⟨2, _⟩ => ⟨S1024, .f32⟩
  | .hbm, ⟨3, _⟩ => ⟨S8x2048x1024, .f32⟩
  | .hbm, ⟨4, _⟩ => ⟨S1x1x1024, .f32⟩
  | .hbm, ⟨5, _⟩ => ⟨S8x2048x1024, .f32⟩
  | .hbm, ⟨6, _⟩ => ⟨S8x2048x1024, .f32⟩
  | .hbm, ⟨7, _⟩ => ⟨S8x2048x2048, .f32⟩
  | .hbm, ⟨8, _⟩ => ⟨S_, .f32⟩
  | .hbm, ⟨9, _⟩ => ⟨S8x2048, .f32⟩
  | .hbm, ⟨10, _⟩ => ⟨S_, .f32⟩
  | .hbm, ⟨11, _⟩ => ⟨S8x2048, .f32⟩
  | .hbm, ⟨12, _⟩ => ⟨S8x2048, .f32⟩
  | .hbm, ⟨13, _⟩ => ⟨S8x2048x1, .f32⟩
  | .hbm, ⟨14, _⟩ => ⟨S8x2048x2048, .f32⟩
  | .hbm, ⟨15, _⟩ => ⟨S8x2048x2048, .f32⟩
  | .hbm, ⟨16, _⟩ => ⟨S8x2048x2048, .f32⟩
  | .hbm, ⟨17, _⟩ => ⟨S_, .f32⟩
  | .hbm, ⟨18, _⟩ => ⟨S8x2048, .f32⟩
  | .hbm, ⟨19, _⟩ => ⟨S8x2048x1, .f32⟩
  | .hbm, ⟨20, _⟩ => ⟨S8x2048x2048, .f32⟩
  | .hbm, ⟨21, _⟩ => ⟨S8x2048x2048, .f32⟩
  | .hbm, ⟨22, _⟩ => ⟨S8x2048x1024, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_1 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩

abbrev nD : Nat := 1
abbrev τ : Topo := Topo.v7x

variable {F : FTy → Type} [FloatOps F]

class Facts₀ : Prop where
  bcast_S1024_S1x1x1024_2 : S1024.BroadcastsInDim S1x1x1024 (![2] : Fin 1 → Fin S1x1x1024.rank)
  bcast_S1x1x1024_S8x2048x1024_0_1_2 : S1x1x1024.BroadcastsInDim S8x2048x1024 (![0, 1, 2] : Fin 3 → Fin S8x2048x1024.rank)
  reducesTo_S8x2048x2048_S8x2048_d2 : S8x2048x2048.ReducesTo [2] S8x2048
  h_S_ : 0 < S_.numel
  bcast_S_S8x2048 : S_.BroadcastsInDim S8x2048 (![] : Fin 0 → Fin S8x2048.rank)
  bcast_S8x2048_S8x2048x1_0_1 : S8x2048.BroadcastsInDim S8x2048x1 (![0, 1] : Fin 2 → Fin S8x2048x1.rank)
  bcast_S8x2048x1_S8x2048x2048_0_1_2 : S8x2048x1.BroadcastsInDim S8x2048x2048 (![0, 1, 2] : Fin 3 → Fin S8x2048x2048.rank)
  dot_S8x2048x1024_S1024x1024_S8x2048x1024_2_1_01_0_n_n_wf : DotDims.WF S8x2048x1024 S1024x1024 S8x2048x1024 [2] [1] [0, 1] [0] [] []
  dot_S8x2048x1024_S8x2048x1024_S8x2048x2048_2_2_1_1_0_0_wf : DotDims.WF S8x2048x1024 S8x2048x1024 S8x2048x2048 [2] [2] [1] [1] [0] [0]
  dot_S8x2048x2048_S8x2048x1024_S8x2048x1024_2_1_1_2_0_0_wf : DotDims.WF S8x2048x2048 S8x2048x1024 S8x2048x1024 [2] [1] [1] [2] [0] [0]

variable [Facts₀]

def dot_S8x2048x1024_S1024x1024_S8x2048x1024_2_1_01_0_n_n : DotDims S8x2048x1024 S1024x1024 S8x2048x1024 where
  lhsContracting := [2]
  rhsContracting := [1]
  lhsNonContracting := [0, 1]
  rhsNonContracting := [0]
  lhsBatch := []
  rhsBatch := []
  wf := dot_S8x2048x1024_S1024x1024_S8x2048x1024_2_1_01_0_n_n_wf
def dot_S8x2048x1024_S8x2048x1024_S8x2048x2048_2_2_1_1_0_0 : DotDims S8x2048x1024 S8x2048x1024 S8x2048x2048 where
  lhsContracting := [2]
  rhsContracting := [2]
  lhsNonContracting := [1]
  rhsNonContracting := [1]
  lhsBatch := [0]
  rhsBatch := [0]
  wf := dot_S8x2048x1024_S8x2048x1024_S8x2048x2048_2_2_1_1_0_0_wf
def dot_S8x2048x2048_S8x2048x1024_S8x2048x1024_2_1_1_2_0_0 : DotDims S8x2048x2048 S8x2048x1024 S8x2048x1024 where
  lhsContracting := [2]
  rhsContracting := [1]
  lhsNonContracting := [1]
  rhsNonContracting := [2]
  lhsBatch := [0]
  rhsBatch := [0]
  wf := dot_S8x2048x2048_S8x2048x1024_S8x2048x1024_2_1_1_2_0_0_wf

class Facts : Prop extends Facts₀ where

variable [Facts]
-- ==== Proof.BitsLaunch.lean ====
/-
  The launch of the fused attention kernel's one region, for ANY proof data of it.

  The region is handed ONE array twice: the bf16 copy of the inputs is both the query tile's source (window 0) and the
  key/value tile's source (window 1). Both windows only read it, so the array's ownership is split in halves between
  them at entry and each half comes back with the array unchanged. The weight matrix, the bias and the result each
  belong to one window and are held whole. Everything else the region needs of the memory — the four scratch buffers
  (running maximum, running denominator, running numerator, projected queries) — is the body's own invariant, stated
  point by point by the proof data; the buffers that bypass the region are read back as the host lines before it left them.
-/
import proofs.«152128_j19920058319181_2_alg».proof.Proof.Gen.Kernel.Launch
import proofs.«152128_j19920058319181_2_alg».proof.Proof.Gen.Kernel.Points
import Idealize.ShloMosaic.Lib.Pipeline.Frame

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The buffers as the region finds them: the memory at launch after the three host lines before the region
    (the inputs narrowed to bf16, the weights transposed, the transpose narrowed to bf16). -/
abbrev V (c : Dev nD) (b : Ref sig .tc) : Buf (Elt F) ((c : Thread nD τ).loc b) :=
  StableHlo.after (hostOps0 (F := F)) (fun b => m (c, b)) b

theorem hostOps0_fresh : (hostOps0 : List (HloOp τ sig (Elt F))).Forall fun op => op.fresh = ∅ := by
  simp only [List.Forall]; repeat' constructor

/-- @main is the three host lines and then the region. -/
theorem hmain (𝒱₀ : Variants) :
    Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- The distinct buffers behind the five windows' arrays: four, the bf16 inputs standing behind two windows. -/
theorem arrRefs_eq : Finset.univ.image (Pipeline.arrRef spec0) = ({main_v0, main_v2, main_arg2, main_v3} : Finset (Ref sig .tc)) := by
  decide

variable (dats : (p : Fin 1) → (c : Dev nD) → Dat τ (Elt F) Unit ℕ (UR sig nD τ) ℕ (cfgs p) c)

/-- The windows' arrays as the proof data holds them, each a whole buffer at its window's share. -/
theorem arrays_whole (c : Dev nD) (G : (w : Fin (cfgs 0).W) → Buf (Elt F) (((cfgs 0).spec w).arr.view.loc (c.tc : Thread nD τ))) :
    (dats 0 c).arrays G = bigSep Finset.univ fun w => (((c.tc : Thread nD τ).loc (Pipeline.arrRef (cfgs 0).spec w)) ↦{(dats 0 c).share w} G w : sProp 𝕄) := by
  unfold Dat.arrays
  exact bigSep_congr fun w _ => by rw [(arr_whole0 w).set_eq_univ]

/-- At entry the four buffers behind the windows, each whole, make the windows' arrays: the bf16 inputs split in
    halves between the query window and the key/value window, the others whole. -/
theorem split_arrays (c : Dev nD)
    (hq0 : (dats 0 c).q 0 = fullShare.left) (hq1 : (dats 0 c).q 1 = fullShare.right)
    (hq2 : (dats 0 c).q 2 = fullShare) (hq3 : (dats 0 c).q 3 = fullShare)
    (hA : ∀ w, (dats 0 c).A w = V m c (Pipeline.arrRef spec0 w)) :
    (Pipeline.arrBufs (cfgs 0).spec c (V m c) : sProp 𝕄) ⊢ (dats 0 c).arrays ((dats 0 c).arrAt · 0) := by
  rw [arrays_whole]
  unfold Pipeline.arrBufs
  rw [arrRefs_eq, bigSep_W0]
  have s0 : (dats 0 c).share 0 = fullShare.left := by unfold Dat.share; rw [if_neg (by decide), hq0]
  have s1 : (dats 0 c).share 1 = fullShare.right := by unfold Dat.share; rw [if_neg (by decide), hq1]
  have s2 : (dats 0 c).share 2 = fullShare := by unfold Dat.share; rw [if_neg (by decide), hq2]
  have s3 : (dats 0 c).share 3 = fullShare := by unfold Dat.share; rw [if_neg (by decide), hq3]
  have s4 : (dats 0 c).share 4 = fullShare := by unfold Dat.share; rw [if_pos (by decide)]
  have a0 : ∀ w, (dats 0 c).arrAt w 0 = V m c (Pipeline.arrRef spec0 w) := fun w => hA w
  rw [s0, s1, s2, s3, s4, a0, a0, a0, a0, a0]
  rw [BI.bigSep_insert (by decide), BI.bigSep_insert (by decide), BI.bigSep_insert (by decide), BI.bigSep_singleton]
  show iprop((c.tc.loc main_v0 ↦{fullShare} V m c main_v0) ∗ (c.tc.loc main_v2 ↦{fullShare} V m c main_v2)
        ∗ (c.tc.loc main_arg2 ↦{fullShare} V m c main_arg2) ∗ (c.tc.loc main_v3 ↦{fullShare} V m c main_v3))
      ⊢ (iprop((c.tc.loc main_v0 ↦{fullShare.left} V m c main_v0) ∗ (c.tc.loc main_v0 ↦{fullShare.right} V m c main_v0)
        ∗ (c.tc.loc main_v2 ↦{fullShare} V m c main_v2) ∗ (c.tc.loc main_arg2 ↦{fullShare} V m c main_arg2)
        ∗ (c.tc.loc main_v3 ↦{fullShare} V m c main_v3)) : sProp 𝕄)
  iintro ⟨H0, H2, H3, H4⟩
  ihave H0' := (pointsTo_share (PosShare.mem_left_op_right fullShare)).1 $$ H0
  icases H0' with ⟨Hl, Hr⟩
  isplitl [Hl]; · iexact Hl
  isplitl [Hr]; · iexact Hr
  isplitl [H2]; · iexact H2
  isplitl [H3]; · iexact H3
  iexact H4

/-- THE RUN, for any proof data of the region that holds the bf16 inputs in halves (windows 0 and 1) and the
    weights and the bias whole, owes nothing, starts from the arrays as the host lines left them, and whose invariant
    begins and ends as the four scratch buffers at any contents: every weakly fair execution of @main terminates without
    a fault, every window's array ends at what the library computes from the proof data, and every buffer that
    bypasses the region ends as the host lines left it. -/
theorem run_of_body (𝒱₀ : Variants)
    (hbody : ∀ c, BodyObligationLoose (dats 0 c) defs₀ 𝒱₀ () Set.univ)
    (howed : ∀ c t, (dats 0 c).owed t = 0)
    (hq0 : ∀ c, (dats 0 c).q 0 = fullShare.left) (hq1 : ∀ c, (dats 0 c).q 1 = fullShare.right)
    (hq2 : ∀ c, (dats 0 c).q 2 = fullShare) (hq3 : ∀ c, (dats 0 c).q 3 = fullShare)
    (hA : ∀ c w, (dats 0 c).A w = V m c (Pipeline.arrRef spec0 w))
    (hin : ∀ c, (Pipeline.scopedRest (Ix := Unit) (Name := ℕ) (U := UR sig nD τ) (Lvl := ℕ) (Val := Elt F) spec0 c : sProp 𝕄) ⊢ (dats 0 c).Φ 0)
    (hout : ∀ c, (dats 0 c).Φ (Fin.last cfg0.N) ⊢ (Pipeline.scopedRest (Ix := Unit) (Name := ℕ) (U := UR sig nD τ) (Lvl := ℕ) (Val := Elt F) spec0 c : sProp 𝕄)) :
    θ_run defs (onTc (τ := τ) (main (F := F))) (s₀ m ρ) (Pipeline.FramePost cfgs dats 0 (V m)) := by
  classical
  exact Pipeline.θ_run_region_noSem_shared cfgs dats () cellOf_inj 0 winFacts₀0 emb₁ defs₀ 𝒱₀ m ρ main
    hbody block_pos0 arr_whole0 stage_whole0 howed
    (u₀ := initOf (Pipeline.cells cfgs cellOf_inj) (Pipeline.launchToks cfgs cellOf_inj))
    (hu₀ := .rfl)
    (V := V m) (hmain := hmain m 𝒱₀)
    (hsplit := fun c => split_arrays m dats c (hq0 c) (hq1 c) (hq2 c) (hq3 c) (hA c))
    (X := fun _ => iprop(emp)) (Y := fun _ => iprop(emp))
    (Z := fun c => Pipeline.unscopedRest (Ix := Unit) (Name := ℕ) (U := UR sig nD τ) (Lvl := ℕ) spec0 c (V m c))
    (hX := fun c => by
      iintro H
      isplitr
      · iempintro
      · iexact H)
    (hin := fun c => (show iprop(emp ∗ Pipeline.scopedRest spec0 c) ⊢ (Pipeline.scopedRest spec0 c : sProp 𝕄) from by
      iintro ⟨-, H⟩; iexact H).trans (hin c))
    (hout := fun c => (hout c).trans (by
      iintro H
      isplitr
      · iempintro
      · iexact H))
    (QY := fun c s => ∀ b ∈ Pipeline.restRefs sig spec0, s.mem ((c.tc : Thread nD τ).loc b) = V m c b)
    (hY := fun c s' => by
      iintro ⟨-, HU, HSI⟩
      unfold Pipeline.unscopedRest
      imodintro
      iapply (pointsTo_read_all (Pipeline.restRefs sig spec0) (fun b => (c.tc : Thread nD τ).loc b) (V m c) s')
      isplitl [HU] <;> iassumption)
    (hQ := fun s h c => ⟨fun w => (h c).1 w, (h c).2⟩)

end Cert.Kernel.Hand

end
-- ==== Proof.BitsRuns.lean ====
/-
  What the two runs of the fused attention kernel's body share: the body's two branch conditions in closed form
  over the grid, and where the result window is idle.

  The grid is (batch, query tile, key tile) = 8 × 2 × 2, walked in order, so the key-tile coordinate is the point's
  parity. At an even point (first key tile) the body resets the running maximum, denominator and numerator, projects the
  query tile and caches it, and folds the first key tile in; it stores nothing into the result window, which is idle
  there. At an odd point (last key tile) it folds the second key tile in and writes the quotient into the result window.
-/
import proofs.«152128_j19920058319181_2_alg».proof.Proof.BitsLaunch
import proofs.«152128_j19920058319181_2_alg».proof.Proof.Gen.Kernel.Skeleton
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- The body's first branch condition (reset and project): the key-tile coordinate is 0. -/
abbrev condFirst (i : grid0.Coords) : Prop := (Scalar.cmpi .ne (Scalar.extui (Scalar.cmpi .eq (BitVec.ofNat 32 (i 2).val) 0#32)) 0#32) = 1#1
/-- It holds at the even points. -/
theorem hcondFirst : ∀ t : Fin cfg0.N, condFirst (grid0.coords t) ↔ t.val % 2 = 0 :=
  (by decide +kernel : ∀ t : Fin grid0.N, condFirst (grid0.coords t) ↔ t.val % 2 = 0)

/-- The body's second branch condition (divide and write the result): the key-tile coordinate is the last, 1. -/
abbrev condLast (i : grid0.Coords) : Prop := k0_cond2 i = 1#1
/-- It holds at the odd points. -/
theorem hcondLast : ∀ t : Fin cfg0.N, condLast (grid0.coords t) ↔ t.val % 2 = 1 :=
  (by decide +kernel : ∀ t : Fin grid0.N, condLast (grid0.coords t) ↔ t.val % 2 = 1)

/-- The four input windows are never idle. -/
theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem live3 : ∀ t : Fin cfg0.N, cfg0.idle 3 (grid0.coords t) = false := by decide +kernel
/-- At an even point the result window is idle and is not written back. -/
theorem idle4_even : ∀ t : Fin cfg0.N, t.val % 2 = 0 → cfg0.idle 4 (grid0.coords t) = true := by decide +kernel
theorem noFlush4_even : ∀ t : Fin cfg0.N, t.val % 2 = 0 → (cfg0.win 4).flush t = false := by decide +kernel
/-- At an odd point it is live. -/
theorem live4_odd : ∀ t : Fin cfg0.N, t.val % 2 = 1 → cfg0.idle 4 (grid0.coords t) = false := by decide +kernel

/-- Each window's current staging memref at point `t`, as the pipeline passes it to the body. -/
abbrev ms0 (t : Fin cfg0.N) : Memref sig .tc .vmem S1x1024x1024 .bf16 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x1024x1024 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S1024x1024 .bf16 := win0_2.stage (cfg0.slots t 2)
abbrev hs2 (t : Fin cfg0.N) : (ms2 t).IsWhole := hstage0_2 ((cfg0.slots t 2).cast nbuf0_2)
abbrev ms3 (t : Fin cfg0.N) : Memref sig .tc .vmem S1024 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x1024x1024 .f32 := win0_4.stage (cfg0.slots t 4)
abbrev hs4 (t : Fin cfg0.N) : (ms4 t).IsWhole := hstage0_4 ((cfg0.slots t 4).cast nbuf0_4)
/-- The four scratch operands: running maximum, running denominator, running numerator, projected query tile. -/
abbrev scMax : Memref sig .tc .vmem S1024x1 .f32 := Memref.whole cc0_scratch0
abbrev scDen : Memref sig .tc .vmem S1024x1 .f32 := Memref.whole cc0_scratch1
abbrev scNum : Memref sig .tc .vmem S1024x1024 .f32 := Memref.whole cc0_scratch2
abbrev scQ : Memref sig .tc .vmem S1024x1024 .bf16 := Memref.whole cc0_scratch3

end Cert.Kernel.Hand

end
-- ==== Proof.BitsRunA.lean ====
/-
  The body's run at a point of the FIRST key tile: from the four input staging buffers at their contents, the result
  window's buffer at anything (handed back untouched) and the four scratch buffers at anything, the body runs without a
  fault and leaves each scratch buffer with the pieces it stored, last first: the running maximum and denominator and the
  numerator each reset and then folded with this key tile, the projected query tile cached.
-/
import proofs.«152128_j19920058319181_2_alg».proof.Proof.BitsRuns

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

set_option maxHeartbeats 2000000 in
noncomputable def kernelRunA (c : Dev nD) (i : grid0.Coords) (arg3 : Memref sig .tc .vmem S1x1024x1024 .bf16) (harg3 : arg3.IsWhole) (arg4 : Memref sig .tc .vmem S1x1024x1024 .bf16) (harg4 : arg4.IsWhole) (arg5 : Memref sig .tc .vmem S1024x1024 .bf16) (harg5 : arg5.IsWhole) (arg6 : Memref sig .tc .vmem S1024 .f32) (harg6 : arg6.IsWhole) (arg7 : Memref sig .tc .vmem S1x1024x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1024 .f32) (harg10 : arg10.IsWhole) (arg11 : Memref sig .tc .vmem S1024x1024 .bf16) (harg11 : arg11.IsWhole) (hc0 : condFirst i) (hc1 : ¬condLast i)
    (x0 : Vec F S1x1024x1024 .bf16) (x1 : Vec F S1x1024x1024 .bf16) (x2 : Vec F S1024x1024 .bf16) (x3 : Vec F S1024 .f32) :
    Σ' (LS0 : List (View.Piece (Elt F) S1024x1 .f32)) (LS1 : List (View.Piece (Elt F) S1024x1 .f32)) (LS2 : List (View.Piece (Elt F) S1024x1024 .f32)),
      { LS3 : List (View.Piece (Elt F) S1024x1024 .bf16) //
      ∀ (xi4 : Vec F S1x1024x1024 .f32) (E : Set ℕ) (K : PUnit → sProp 𝕄),
        iprop(owns (c : Thread nD τ) arg3 fullShare x0 ∗ owns (c : Thread nD τ) arg4 fullShare x1 ∗ owns (c : Thread nD τ) arg5 fullShare x2
            ∗ owns (c : Thread nD τ) arg6 fullShare x3 ∗ owns (c : Thread nD τ) arg7 fullShare xi4
            ∗ (∃ d, owns (c : Thread nD τ) arg8 fullShare d) ∗ (∃ d, owns (c : Thread nD τ) arg9 fullShare d)
            ∗ (∃ d, owns (c : Thread nD τ) arg10 fullShare d) ∗ (∃ d, owns (c : Thread nD τ) arg11 fullShare d)
            ∗ (iprop(owns (c : Thread nD τ) arg3 fullShare x0 ∗ owns (c : Thread nD τ) arg4 fullShare x1 ∗ owns (c : Thread nD τ) arg5 fullShare x2
                ∗ owns (c : Thread nD τ) arg6 fullShare x3 ∗ owns (c : Thread nD τ) arg7 fullShare xi4
                ∗ (∃ f, arg8.view.loc (c : Thread nD τ) ↦[arg8.view.set]{fullShare} arg8.view.writes (Elt F) f LS0)
                ∗ (∃ f, arg9.view.loc (c : Thread nD τ) ↦[arg9.view.set]{fullShare} arg9.view.writes (Elt F) f LS1)
                ∗ (∃ f, arg10.view.loc (c : Thread nD τ) ↦[arg10.view.set]{fullShare} arg10.view.writes (Elt F) f LS2)
                ∗ (∃ f, arg11.view.loc (c : Thread nD τ) ↦[arg11.view.set]{fullShare} arg11.view.writes (Elt F) f LS3)) -∗ K ⟨⟩))
          ⊢ wp frame (wpE (defs₀ (F := F)) Variants.none c none) E (cc0__fused_kernel i arg3 harg3 arg4 harg4 arg5 harg5 arg6 harg6 arg7 harg7 arg8 harg8 arg9 harg9 arg10 harg10 arg11 harg11) K } := by
  refine ⟨?_, ?_, ?_, ?_, fun xi4 E K => ?run⟩
  case run =>
    simp only [cc0__fused_kernel_eq_skeleton]; unfold cc0__fused_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, ⟨%ds1, %fs1, -, HS1⟩, ⟨%ds2, %fs2, -, HS2⟩, ⟨%ds3, %fs3, -, HS3⟩, Hk⟩
    obtain rfl := harg3.eq_unread hf0; obtain rfl := harg4.eq_unread hf1; obtain rfl := harg5.eq_unread hf2
    obtain rfl := harg6.eq_unread hf3; obtain rfl := harg7.eq_unread hf4
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [HS0]; · iexists _; iexact HS0
    isplitl [HS1]; · iexists _; iexact HS1
    isplitl [HS2]; · iexists _; iexact HS2
    iexists _; iexact HS3

end Cert.Kernel.Hand

end
-- ==== Proof.BitsRunB.lean ====
/-
  The body's run at a point of the LAST key tile: from the four input staging buffers at their contents, the result
  window's buffer at anything and the four scratch buffers at what the first key tile's point left, the body runs without
  a fault and leaves the running maximum, denominator and numerator with the pieces it stored (this key tile folded in),
  the cached query projection as it was, and the result window's buffer with the quotient stored.
-/
import proofs.«152128_j19920058319181_2_alg».proof.Proof.BitsRunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

set_option maxHeartbeats 2000000 in
noncomputable def kernelRunB (c : Dev nD) (i : grid0.Coords) (arg3 : Memref sig .tc .vmem S1x1024x1024 .bf16) (harg3 : arg3.IsWhole) (arg4 : Memref sig .tc .vmem S1x1024x1024 .bf16) (harg4 : arg4.IsWhole) (arg5 : Memref sig .tc .vmem S1024x1024 .bf16) (harg5 : arg5.IsWhole) (arg6 : Memref sig .tc .vmem S1024 .f32) (harg6 : arg6.IsWhole) (arg7 : Memref sig .tc .vmem S1x1024x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1024 .f32) (harg10 : arg10.IsWhole) (arg11 : Memref sig .tc .vmem S1024x1024 .bf16) (harg11 : arg11.IsWhole) (hc0 : ¬condFirst i) (hc1 : condLast i)
    (x0 : Vec F S1x1024x1024 .bf16) (x1 : Vec F S1x1024x1024 .bf16) (x2 : Vec F S1024x1024 .bf16) (x3 : Vec F S1024 .f32)
    (xs0 : Vec F S1024x1 .f32) (xs1 : Vec F S1024x1 .f32) (xs2 : Vec F S1024x1024 .f32) (xs3 : Vec F S1024x1024 .bf16) :
    Σ' (L4 : List (View.Piece (Elt F) S1x1024x1024 .f32)) (LS0 : List (View.Piece (Elt F) S1024x1 .f32)) (LS1 : List (View.Piece (Elt F) S1024x1 .f32)),
      { LS2 : List (View.Piece (Elt F) S1024x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2
            ∗ owns (c : Thread nD τ) arg6 fullShare x3 ∗ (∃ d, owns (c : Thread nD τ) arg7 fullShare d)
            ∗ owns (c : Thread nD τ) arg8 fullShare xs0 ∗ owns (c : Thread nD τ) arg9 fullShare xs1
            ∗ owns (c : Thread nD τ) arg10 fullShare xs2 ∗ owns (c : Thread nD τ) arg11 fullShare xs3
            ∗ (iprop(owns (c : Thread nD τ) arg3 fullShare x0 ∗ owns (c : Thread nD τ) arg4 fullShare x1 ∗ owns (c : Thread nD τ) arg5 fullShare x2
                ∗ owns (c : Thread nD τ) arg6 fullShare x3
                ∗ (∃ f, arg7.view.loc (c : Thread nD τ) ↦[arg7.view.set]{fullShare} arg7.view.writes (Elt F) f L4)
                ∗ (∃ f, arg8.view.loc (c : Thread nD τ) ↦[arg8.view.set]{fullShare} arg8.view.writes (Elt F) f LS0)
                ∗ (∃ f, arg9.view.loc (c : Thread nD τ) ↦[arg9.view.set]{fullShare} arg9.view.writes (Elt F) f LS1)
                ∗ (∃ f, arg10.view.loc (c : Thread nD τ) ↦[arg10.view.set]{fullShare} arg10.view.writes (Elt F) f LS2)
                ∗ owns (c : Thread nD τ) arg11 fullShare xs3) -∗ K ⟨⟩))
          ⊢ wp frame (wpE (defs₀ (F := F)) Variants.none c none) E (cc0__fused_kernel i arg3 harg3 arg4 harg4 arg5 harg5 arg6 harg6 arg7 harg7 arg8 harg8 arg9 harg9 arg10 harg10 arg11 harg11) K } := by
  refine ⟨?_, ?_, ?_, ?_, fun E K => ?run⟩
  case run =>
    simp only [cc0__fused_kernel_eq_skeleton]; unfold cc0__fused_kernel_skel
    simp only [k0_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, ⟨%fs1, %hfs1, HS1⟩, ⟨%fs2, %hfs2, HS2⟩, ⟨%fs3, %hfs3, HS3⟩, Hk⟩
    obtain rfl := harg3.eq_unread hf0; obtain rfl := harg4.eq_unread hf1; obtain rfl := harg5.eq_unread hf2
    obtain rfl := harg6.eq_unread hf3
    obtain rfl := harg8.eq_unread hfs0; obtain rfl := harg9.eq_unread hfs1; obtain rfl := harg10.eq_unread hfs2
    obtain rfl := harg11.eq_unread hfs3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]; · iexists _; iexact H4
    isplitl [HS0]; · iexists _; iexact HS0
    isplitl [HS1]; · iexists _; iexact HS1
    isplitl [HS2]; · iexists _; iexact HS2
    iexists _; isplitr; · ipureintro; exact harg11.read_unread _
    iexact HS3

end Cert.Kernel.Hand

end
-- ==== Proof.BitsFrame.lean ====
/-
  The frame of the fused attention kernel's region: the proof data, the body obligation at every grid point, the run.

  A point is (batch, query tile, key tile); the key tile is the point's parity. What the four scratch buffers hold
  between points is the body's invariant: before an even point anything (the body overwrites all four there), before an
  odd point what the even point before it left — the running maximum, denominator and numerator after the first key tile
  and the projected query tile. The four input windows' staging buffers hold their blocks at every point and the body
  leaves them in place; the result window's buffer is untouched at an even point (idle, not written back) and holds the
  quotient after an odd point, where it is written back.
-/
import proofs.«152128_j19920058319181_2_alg».proof.Proof.BitsRunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Blocks and views -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The views through which the scratch buffers' and the result buffer's contents are stated. -/
abbrev VMax : View sig .tc .vmem S1024x1 .f32 := (scMax : Memref sig .tc .vmem S1024x1 .f32).view
abbrev VDen : View sig .tc .vmem S1024x1 .f32 := (scDen : Memref sig .tc .vmem S1024x1 .f32).view
abbrev VNum : View sig .tc .vmem S1024x1024 .f32 := (scNum : Memref sig .tc .vmem S1024x1024 .f32).view
abbrev VQ : View sig .tc .vmem S1024x1024 .bf16 := (scQ : Memref sig .tc .vmem S1024x1024 .bf16).view
abbrev VOut : View sig .tc .vmem S1x1024x1024 .f32 := (Memref.whole cc0_stg4_0 : Memref sig .tc .vmem S1x1024x1024 .f32).view

/-! ## What the body leaves at an even point (first key tile) -/

theorem firstOf {n : ℕ} (hn : n < cfg0.N) (h0 : n % 2 = 0) : condFirst (grid0.coords ⟨n, hn⟩) := (hcondFirst ⟨n, hn⟩).mpr h0
theorem notLastOf {n : ℕ} (hn : n < cfg0.N) (h0 : n % 2 = 0) : ¬condLast (grid0.coords ⟨n, hn⟩) := fun h => by
  have := (hcondLast ⟨n, hn⟩).mp h; simp only at this; omega
theorem notFirstOf {n : ℕ} (hn : n < cfg0.N) (h1 : n % 2 = 1) : ¬condFirst (grid0.coords ⟨n, hn⟩) := fun h => by
  have := (hcondFirst ⟨n, hn⟩).mp h; simp only at this; omega
theorem lastOf {n : ℕ} (hn : n < cfg0.N) (h1 : n % 2 = 1) : condLast (grid0.coords ⟨n, hn⟩) := (hcondLast ⟨n, hn⟩).mpr h1

/-- The first key tile's run at the even point `n`, on the staging memrefs the pipeline passes there and the
    inputs' blocks there. -/
def runEven (c : Dev nD) (n : ℕ) (hn : n < cfg0.N) (h0 : n % 2 = 0) :=
  let t : Fin cfg0.N := ⟨n, hn⟩
  kernelRunA (F := F) c (grid0.coords t) (ms0 t) (hs0 t) (ms1 t) (hs1 t) (ms2 t) (hs2 t) (ms3 t) (hs3 t) (ms4 t) (hs4 t) scMax (Memref.isWhole_whole _) scDen (Memref.isWhole_whole _) scNum (Memref.isWhole_whole _) scQ (Memref.isWhole_whole _) (firstOf hn h0) (notLastOf hn h0)
    (iblk m c 0 t) (iblk m c 1 t) (iblk m c 2 t) (iblk m c 3 t)

/-- What it leaves in the four scratch buffers: its pieces read back. -/
def maxEven (c : Dev nD) (n : ℕ) (hn : n < cfg0.N) (h0 : n % 2 = 0) : Vec F S1024x1 .f32 :=
  VMax.read (Elt F) (VMax.writes (Elt F) VMax.junk (runEven m c n hn h0).1)
def denEven (c : Dev nD) (n : ℕ) (hn : n < cfg0.N) (h0 : n % 2 = 0) : Vec F S1024x1 .f32 :=
  VDen.read (Elt F) (VDen.writes (Elt F) VDen.junk (runEven m c n hn h0).2.1)
def numEven (c : Dev nD) (n : ℕ) (hn : n < cfg0.N) (h0 : n % 2 = 0) : Vec F S1024x1024 .f32 :=
  VNum.read (Elt F) (VNum.writes (Elt F) VNum.junk (runEven m c n hn h0).2.2.1)
def qEven (c : Dev nD) (n : ℕ) (hn : n < cfg0.N) (h0 : n % 2 = 0) : Vec F S1024x1024 .bf16 :=
  VQ.read (Elt F) (VQ.writes (Elt F) VQ.junk (runEven m c n hn h0).2.2.2.1)

/-- Each scratch buffer's pieces cover it: every store of the body is of the whole buffer. -/
theorem coverMaxEven (c : Dev nD) (n : ℕ) (hn : n < cfg0.N) (h0 : n % 2 = 0) (y : S1024x1.Idx) :
    ∃ pc ∈ (runEven m c n hn h0).1, y ∈ pc.1.set :=
  View.cover_of_tiledL (runEven m c n hn h0).1 S1024x1.size (by sl_kernel_rfl) y
theorem coverDenEven (c : Dev nD) (n : ℕ) (hn : n < cfg0.N) (h0 : n % 2 = 0) (y : S1024x1.Idx) :
    ∃ pc ∈ (runEven m c n hn h0).2.1, y ∈ pc.1.set :=
  View.cover_of_tiledL (runEven m c n hn h0).2.1 S1024x1.size (by sl_kernel_rfl) y
theorem coverNumEven (c : Dev nD) (n : ℕ) (hn : n < cfg0.N) (h0 : n % 2 = 0) (y : S1024x1024.Idx) :
    ∃ pc ∈ (runEven m c n hn h0).2.2.1, y ∈ pc.1.set :=
  View.cover_of_tiledL (runEven m c n hn h0).2.2.1 S1024x1024.size (by sl_kernel_rfl) y
theorem coverQEven (c : Dev nD) (n : ℕ) (hn : n < cfg0.N) (h0 : n % 2 = 0) (y : S1024x1024.Idx) :
    ∃ pc ∈ (runEven m c n hn h0).2.2.2.1, y ∈ pc.1.set :=
  View.cover_of_tiledL (runEven m c n hn h0).2.2.2.1 S1024x1024.size (by sl_kernel_rfl) y

/-! ## What the body leaves at an odd point (last key tile) -/

/-- The last key tile's run at the odd point `n`, the scratch buffers at what the point before left. -/
def runOdd (c : Dev nD) (n : ℕ) (hn : n < cfg0.N) (h1 : n % 2 = 1) :=
  let t : Fin cfg0.N := ⟨n, hn⟩
  kernelRunB (F := F) c (grid0.coords t) (ms0 t) (hs0 t) (ms1 t) (hs1 t) (ms2 t) (hs2 t) (ms3 t) (hs3 t) (ms4 t) (hs4 t) scMax (Memref.isWhole_whole _) scDen (Memref.isWhole_whole _) scNum (Memref.isWhole_whole _) scQ (Memref.isWhole_whole _) (notFirstOf hn h1) (lastOf hn h1)
    (iblk m c 0 t) (iblk m c 1 t) (iblk m c 2 t) (iblk m c 3 t)
    (maxEven m c (n - 1) (by omega) (by omega)) (denEven m c (n - 1) (by omega) (by omega))
    (numEven m c (n - 1) (by omega) (by omega)) (qEven m c (n - 1) (by omega) (by omega))

/-- What it leaves in the result window's staging buffer. -/
def outOdd (c : Dev nD) (n : ℕ) (hn : n < cfg0.N) (h1 : n % 2 = 1) : Vec F S1x1024x1024 .f32 :=
  VOut.read (Elt F) (VOut.writes (Elt F) VOut.junk (runOdd m c n hn h1).1)

theorem coverOutOdd (c : Dev nD) (n : ℕ) (hn : n < cfg0.N) (h1 : n % 2 = 1) (y : S1x1024x1024.Idx) :
    ∃ pc ∈ (runOdd m c n hn h1).1, y ∈ pc.1.set :=
  View.cover_of_tiledL (runOdd m c n hn h1).1 S1x1024x1024.size (by sl_kernel_rfl) y

/-! ## The invariant: the four scratch buffers between points -/

/-- The scratch buffers at anything. -/
def scrAny (c : Dev nD) : sProp 𝕄 :=
  iprop((∃ d, owns (c : Thread nD τ) scMax fullShare d) ∗ (∃ d, owns (c : Thread nD τ) scDen fullShare d)
    ∗ (∃ d, owns (c : Thread nD τ) scNum fullShare d) ∗ (∃ d, owns (c : Thread nD τ) scQ fullShare d))

/-- The scratch buffers at what the even point `n` left. -/
def scrAfterEven (c : Dev nD) (n : ℕ) (hn : n < cfg0.N) (h0 : n % 2 = 0) : sProp 𝕄 :=
  iprop(owns (c : Thread nD τ) scMax fullShare (maxEven m c n hn h0) ∗ owns (c : Thread nD τ) scDen fullShare (denEven m c n hn h0)
    ∗ owns (c : Thread nD τ) scNum fullShare (numEven m c n hn h0) ∗ owns (c : Thread nD τ) scQ fullShare (qEven m c n hn h0))

/-- Before point `n`: anything before the first point and after an odd point, what it left after an even one. -/
def PhiS (c : Dev nD) (n : ℕ) (hn : n ≤ cfg0.N) : sProp 𝕄 :=
  if h1 : n % 2 = 1 then scrAfterEven m c (n - 1) (by omega) (by omega) else scrAny c

theorem PhiS_even (c : Dev nD) (n : ℕ) (hn : n ≤ cfg0.N) (h0 : n % 2 = 0) : PhiS m c n hn = scrAny (F := F) c := by
  unfold PhiS; rw [dif_neg (by omega)]

theorem PhiS_odd (c : Dev nD) (n : ℕ) (hn : n ≤ cfg0.N) (h1 : n % 2 = 1) :
    PhiS m c n hn = scrAfterEven m c (n - 1) (by omega) (by omega) := by
  unfold PhiS; rw [dif_pos h1]

theorem scrAny_eq (c : Dev nD) :
    (Pipeline.scopedRest (Ix := Unit) (Name := ℕ) (U := UR sig nD τ) (Lvl := ℕ) (Val := Elt F) spec0 c : sProp 𝕄) = scrAny c := by
  unfold scrAny; rw [scopedRest0_eq]; simp only [scMax, scDen, scNum, scQ, owns_whole]; try rfl

/-! ## The proof data -/

/-- The proof data of the region on core `c`: the arrays as the region finds them; after the body each input's
    buffer at its block, the result's at the quotient after an odd point (at an even point the field is not consulted:
    the window is idle there); the invariant the scratch buffers'; the bf16 inputs held in halves by their two windows;
    nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => if h1 : t.val % 2 = 1 then outOdd m c t.val t.isLt h1 else VOut.read (Elt F) VOut.junk
  Φ t := PhiS m c t.val (Nat.le_of_lt_succ t.isLt)
  q w := match w with
    | ⟨0, _⟩ => fullShare.left
    | ⟨1, _⟩ => fullShare.right
    | ⟨2, _⟩ => fullShare
    | ⟨3, _⟩ => fullShare
    | ⟨4, _⟩ => fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4_odd (c : Dev nD) (t : Fin cfg0.N) (h1 : t.val % 2 = 1) : (dats m 0 c).after 4 t = outOdd m c t.val t.isLt h1 := by
  dsimp only [dats]; rw [dif_pos h1]

/-- Each input's current staging buffer holds its block at every point, fetched there or not: unfetched, the block
    index has not moved and the body left the block in place. -/
theorem before0 (c : Dev nD) (t : Fin cfg0.N) (d) : (dats m 0 c).before 0 t d = iblk m c 0 t :=
  ((dats m 0 c).before_in_eq_fetched 0 rfl (fun _ => rfl) (fun _ _ _ => rfl)
    (fun t => by rw [after0]; unfold Dat.blockOf iblk; rw [A_eq]; try rfl) t d).trans
    (by unfold Dat.fetched Dat.blockOf iblk; rw [A_eq]; try rfl)
theorem before1 (c : Dev nD) (t : Fin cfg0.N) (d) : (dats m 0 c).before 1 t d = iblk m c 1 t :=
  ((dats m 0 c).before_in_eq_fetched 1 rfl (fun _ => rfl) (fun _ _ _ => rfl)
    (fun t => by rw [after1]; unfold Dat.blockOf iblk; rw [A_eq]; try rfl) t d).trans
    (by unfold Dat.fetched Dat.blockOf iblk; rw [A_eq]; try rfl)
theorem before2 (c : Dev nD) (t : Fin cfg0.N) (d) : (dats m 0 c).before 2 t d = iblk m c 2 t :=
  ((dats m 0 c).before_in_eq_fetched 2 rfl (fun _ => rfl) (fun _ _ _ => rfl)
    (fun t => by rw [after2]; unfold Dat.blockOf iblk; rw [A_eq]; try rfl) t d).trans
    (by unfold Dat.fetched Dat.blockOf iblk; rw [A_eq]; try rfl)
theorem before3 (c : Dev nD) (t : Fin cfg0.N) (d) : (dats m 0 c).before 3 t d = iblk m c 3 t :=
  ((dats m 0 c).before_in_eq_fetched 3 rfl (fun _ => rfl) (fun _ _ _ => rfl)
    (fun t => by rw [after3]; unfold Dat.blockOf iblk; rw [A_eq]; try rfl) t d).trans
    (by unfold Dat.fetched Dat.blockOf iblk; rw [A_eq]; try rfl)

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t
    ∗ (dats m 0 c).leavesExact 3 t ∗ (dats m 0 c).leavesExact 4 t)

theorem PhiS_castSucc (c : Dev nD) (t : Fin cfg0.N) :
    (dats m 0 c).Φ t.castSucc = PhiS m c t.val (Nat.le_of_lt t.isLt) := by
  dsimp only [dats]; simp only [Fin.coe_castSucc]

set_option maxHeartbeats 4800000 in
/-- The body at any point. The inputs' staging buffers hold their blocks. At an even point the invariant hands the body
    the scratch buffers at anything, the first key tile's run applies, the result window's buffer goes back as it came,
    and the invariant takes the scratch buffers back at what the run left (its pieces cover each buffer). At an odd
    point the invariant hands them at what the even point before left, the last key tile's run applies, the result
    window's buffer comes back with the quotient stored (its piece covers it), and the scratch contents are forgotten.
    The core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3]
  rw [show (dats m 0 c).owesAt () t.succ = (dats m 0 c).owesAt () t.castSucc from rfl]
  rw [show (dats m 0 c).Φ t.succ = PhiS m c (t.val + 1) t.isLt from rfl, PhiS_castSucc]
  rw [show (dats m 0 c).leavesExact 0 t = owns (c : Thread nD τ) (ms0 t) fullShare ((dats m 0 c).after 0 t) from by
    unfold Dat.leavesExact; rw [live0 t], after0]
  rw [show (dats m 0 c).leavesExact 1 t = owns (c : Thread nD τ) (ms1 t) fullShare ((dats m 0 c).after 1 t) from by
    unfold Dat.leavesExact; rw [live1 t], after1]
  rw [show (dats m 0 c).leavesExact 2 t = owns (c : Thread nD τ) (ms2 t) fullShare ((dats m 0 c).after 2 t) from by
    unfold Dat.leavesExact; rw [live2 t], after2]
  rw [show (dats m 0 c).leavesExact 3 t = owns (c : Thread nD τ) (ms3 t) fullShare ((dats m 0 c).after 3 t) from by
    unfold Dat.leavesExact; rw [live3 t], after3]
  by_cases h0 : t.val % 2 = 0
  · rw [Dat.leavesExact_idle (dats m 0 c) 4 t (idle4_even t h0) (noFlush4_even t h0)]
    rw [PhiS_even m c _ _ h0]
    rw [show PhiS m c (t.val + 1) t.isLt = scrAfterEven m c t.val t.isLt h0 from by unfold PhiS; rw [dif_pos (by omega)]; rfl]
    unfold scrAny scrAfterEven maxEven denEven numEven qEven
    iintro ⟨⟨HS0, HS1, HS2, HS3⟩, Ho, ⟨%d0, H0⟩, ⟨%d1, H1⟩, ⟨%d2, H2⟩, ⟨%d3, H3⟩, ⟨%d4, H4⟩⟩
    iapply ((runEven m c t.val t.isLt h0).2.2.2.2 _ Set.univ _)
    isplitl [H0]; · iexact H0
    isplitl [H1]; · iexact H1
    isplitl [H2]; · iexact H2
    isplitl [H3]; · iexact H3
    isplitl [H4]; · iexact H4
    isplitl [HS0]; · iexact HS0
    isplitl [HS1]; · iexact HS1
    isplitl [HS2]; · iexact HS2
    isplitl [HS3]; · iexact HS3
    iintro ⟨H0, H1, H2, H3, H4, ⟨%e0, HS0⟩, ⟨%e1, HS1⟩, ⟨%e2, HS2⟩, ⟨%e3, HS3⟩⟩
    isplitl [HS0 HS1 HS2 HS3]
    · isplitl [HS0]
      · unfold owns; iexists _; isplitr
        swap; · iexact HS0
        ipureintro; exact View.read_writes_of_cover _ _ _ _ _ (coverMaxEven m c _ _ _)
      isplitl [HS1]
      · unfold owns; iexists _; isplitr
        swap; · iexact HS1
        ipureintro; exact View.read_writes_of_cover _ _ _ _ _ (coverDenEven m c _ _ _)
      isplitl [HS2]
      · unfold owns; iexists _; isplitr
        swap; · iexact HS2
        ipureintro; exact View.read_writes_of_cover _ _ _ _ _ (coverNumEven m c _ _ _)
      · unfold owns; iexists _; isplitr
        swap; · iexact HS3
        ipureintro; exact View.read_writes_of_cover _ _ _ _ _ (coverQEven m c _ _ _)
    isplitl [Ho]; · iexact Ho
    isplitl [H0]; · iexact H0
    isplitl [H1]; · iexact H1
    isplitl [H2]; · iexact H2
    isplitl [H3]; · iexact H3
    iexists _; iexact H4
  · have h1 : t.val % 2 = 1 := by omega
    rw [show (dats m 0 c).leavesExact 4 t = owns (c : Thread nD τ) (ms4 t) fullShare ((dats m 0 c).after 4 t) from by
      unfold Dat.leavesExact; rw [live4_odd t h1], after4_odd m c t h1]
    rw [PhiS_odd m c _ _ h1]
    rw [PhiS_even m c (t.val + 1) t.isLt (by omega)]
    unfold scrAny scrAfterEven outOdd
    iintro ⟨⟨HS0, HS1, HS2, HS3⟩, Ho, ⟨%d0, H0⟩, ⟨%d1, H1⟩, ⟨%d2, H2⟩, ⟨%d3, H3⟩, ⟨%d4, H4⟩⟩
    iapply ((runOdd m c t.val t.isLt h1).2.2.2.2 Set.univ _)
    isplitl [H0]; · iexact H0
    isplitl [H1]; · iexact H1
    isplitl [H2]; · iexact H2
    isplitl [H3]; · iexact H3
    isplitl [H4]; · iexists _; iexact H4
    isplitl [HS0]; · iexact HS0
    isplitl [HS1]; · iexact HS1
    isplitl [HS2]; · iexact HS2
    isplitl [HS3]; · iexact HS3
    iintro ⟨H0, H1, H2, H3, ⟨%e4, H4⟩, ⟨%e0, HS0⟩, ⟨%e1, HS1⟩, ⟨%e2, HS2⟩, HS3⟩
    isplitl [HS0 HS1 HS2 HS3]
    · isplitl [HS0]
      · iexists _; unfold owns; iexists _; isplitr
        swap; · iexact HS0
        ipureintro; rfl
      isplitl [HS1]
      · iexists _; unfold owns; iexists _; isplitr
        swap; · iexact HS1
        ipureintro; rfl
      isplitl [HS2]
      · iexists _; unfold owns; iexists _; isplitr
        swap; · iexact HS2
        ipureintro; rfl
      · iexists _; iexact HS3
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (coverOutOdd m c _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

/-- Before the first point the invariant is the scoped buffers the launch hands the region; -/
theorem hin (c : Dev nD) :
    (Pipeline.scopedRest (Ix := Unit) (Name := ℕ) (U := UR sig nD τ) (Lvl := ℕ) (Val := Elt F) spec0 c : sProp 𝕄) ⊢ (dats m 0 c).Φ 0 := by
  rw [show (dats m 0 c).Φ 0 = PhiS m c 0 (Nat.zero_le _) from rfl, PhiS_even m c 0 _ rfl, scrAny_eq]
  try exact Idealize.SL.BI.Entails.refl _

/-- and after the last point (the grid has an even number of points) it gives them back. -/
theorem hout (c : Dev nD) :
    (dats m 0 c).Φ (Fin.last cfg0.N) ⊢ (Pipeline.scopedRest (Ix := Unit) (Name := ℕ) (U := UR sig nD τ) (Lvl := ℕ) (Val := Elt F) spec0 c : sProp 𝕄) := by
  rw [show (dats m 0 c).Φ (Fin.last cfg0.N) = PhiS m c cfg0.N (le_refl _) from rfl,
    PhiS_even m c _ _ (by rw [show cfg0.N = 32 from N_0]), scrAny_eq]
  try exact Idealize.SL.BI.Entails.refl _

/-! ## The run -/

/-- THE RUN: every weakly fair execution of @main terminates without a fault; every window's array ends at what the
    library computes from the proof data, every buffer that bypasses the region as the host lines left it. -/
theorem run_main : θ_run defs (onTc (τ := τ) (main (F := F))) (s₀ m ρ) (Pipeline.FramePost cfgs (dats m) 0 (V m)) :=
  run_of_body m ρ (dats m) Variants.none (fun c => (body_obligation m c).loose) (fun _ _ => rfl)
    (fun _ => rfl) (fun _ => rfl) (fun _ => rfl) (fun _ => rfl) (A_eq m) (hin m) (hout m)

end Cert.Kernel.Hand

end
-- ==== Proof.BitsFrameClaim.lean ====
/-
  The frame of the fused attention kernel at any float instance: the run terminates without a fault and the three
  argument arrays end as they began. The inputs and the weights bypass the region (the region reads host copies of them)
  and are read back as the host lines left them, which is untouched; the bias is an input window's array, never written.
-/
import proofs.«152128_j19920058319181_2_alg».proof.Proof.BitsFrame
import Idealize.ShloMosaic.Lib.StableHlo.Run

set_option maxRecDepth 16384

noncomputable section

namespace Cert.Kernel.Hand

open Cert.Kernel Cert.Kernel.Gen
open Idealize.ShloMosaic Idealize.ShloMosaic.TcCoe Idealize.ShloMosaic.Tactic Idealize.ShloMosaic.StableHlo
open Idealize.SL Idealize.SL.Sem
open Idealize.ShloMosaic.Pipeline (Dat Cfg Window)

variable {F : FTy → Type} [FloatOps F]
variable (m : (ℓ : Loc nD τ sig) → Buf (Elt F) ℓ) (ρ : Dev nD → PrngReg)

/-- The host lines before the region leave the three arguments as they were. -/
theorem Vf_arg0 (c : Dev nD) : V m c main_arg0 = m ((c.tc : Thread nD τ).loc main_arg0) := by
  dsimp only [V, hostOps0]; after_results; try rfl
theorem Vf_arg1 (c : Dev nD) : V m c main_arg1 = m ((c.tc : Thread nD τ).loc main_arg1) := by
  dsimp only [V, hostOps0]; after_results; try rfl
theorem Vf_arg2 (c : Dev nD) : V m c main_arg2 = m ((c.tc : Thread nD τ).loc main_arg2) := by
  dsimp only [V, hostOps0]; after_results; try rfl

/-- THE FRAME. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨((h c).2 main_arg0 (Pipeline.mem_restRefs_of main_arg0 rfl (by decide))).trans (Vf_arg0 m c),
      ((h c).2 main_arg1 (Pipeline.mem_restRefs_of main_arg1 rfl (by decide))).trans (Vf_arg1 m c),
      ((h c).1 3).trans (((dats m 0 c).arrAt_in 3 rfl _).trans ((A_eq m c 3).trans (Vf_arg2 m c)))⟩)
    (run_main m ρ)

end Cert.Kernel.Hand

end
-- ==== Proof.IdealLaunch.lean ====
/-
  The launch of the fused attention kernel's one region, for ANY proof data of it.

  The region is handed ONE array twice: the bf16 copy of the inputs is both the query tile's source (window 0) and the
  key/value tile's source (window 1). Both windows only read it, so the array's ownership is split in halves between
  them at entry and each half comes back with the array unchanged. The weight matrix, the bias and the result each
  belong to one window and are held whole. Everything else the region needs of the memory — the four scratch buffers
  (running maximum, running denominator, running numerator, projected queries) — is the body's own invariant, stated
  point by point by the proof data; the buffers that bypass the region are read back as the host lines before it left them.
-/
import proofs.«152128_j19920058319181_2_alg».proof.Proof.Gen.KernelIdeal.Launch
import proofs.«152128_j19920058319181_2_alg».proof.Proof.Gen.KernelIdeal.Points
import Idealize.ShloMosaic.Lib.Pipeline.Frame

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The buffers as the region finds them: the memory at launch after the three host lines before the region
    (the inputs narrowed to bf16, the weights transposed, the transpose narrowed to bf16). -/
abbrev V (c : Dev nD) (b : Ref sig .tc) : Buf (Elt F) ((c : Thread nD τ).loc b) :=
  StableHlo.after (hostOps0 (F := F)) (fun b => m (c, b)) b

theorem hostOps0_fresh : (hostOps0 : List (HloOp τ sig (Elt F))).Forall fun op => op.fresh = ∅ := by
  simp only [List.Forall]; repeat' constructor

/-- @main is the three host lines and then the region. -/
theorem hmain (𝒱₀ : Variants) :
    Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- The distinct buffers behind the five windows' arrays: four, the bf16 inputs standing behind two windows. -/
theorem arrRefs_eq : Finset.univ.image (Pipeline.arrRef spec0) = ({main_v0, main_v2, main_arg2, main_v3} : Finset (Ref sig .tc)) := by
  decide

variable (dats : (p : Fin 1) → (c : Dev nD) → Dat τ (Elt F) Unit ℕ (UR sig nD τ) ℕ (cfgs p) c)

/-- The windows' arrays as the proof data holds them, each a whole buffer at its window's share. -/
theorem arrays_whole (c : Dev nD) (G : (w : Fin (cfgs 0).W) → Buf (Elt F) (((cfgs 0).spec w).arr.view.loc (c.tc : Thread nD τ))) :
    (dats 0 c).arrays G = bigSep Finset.univ fun w => (((c.tc : Thread nD τ).loc (Pipeline.arrRef (cfgs 0).spec w)) ↦{(dats 0 c).share w} G w : sProp 𝕄) := by
  unfold Dat.arrays
  exact bigSep_congr fun w _ => by rw [(arr_whole0 w).set_eq_univ]

/-- At entry the four buffers behind the windows, each whole, make the windows' arrays: the bf16 inputs split in
    halves between the query window and the key/value window, the others whole. -/
theorem split_arrays (c : Dev nD)
    (hq0 : (dats 0 c).q 0 = fullShare.left) (hq1 : (dats 0 c).q 1 = fullShare.right)
    (hq2 : (dats 0 c).q 2 = fullShare) (hq3 : (dats 0 c).q 3 = fullShare)
    (hA : ∀ w, (dats 0 c).A w = V m c (Pipeline.arrRef spec0 w)) :
    (Pipeline.arrBufs (cfgs 0).spec c (V m c) : sProp 𝕄) ⊢ (dats 0 c).arrays ((dats 0 c).arrAt · 0) := by
  rw [arrays_whole]
  unfold Pipeline.arrBufs
  rw [arrRefs_eq, bigSep_W0]
  have s0 : (dats 0 c).share 0 = fullShare.left := by unfold Dat.share; rw [if_neg (by decide), hq0]
  have s1 : (dats 0 c).share 1 = fullShare.right := by unfold Dat.share; rw [if_neg (by decide), hq1]
  have s2 : (dats 0 c).share 2 = fullShare := by unfold Dat.share; rw [if_neg (by decide), hq2]
  have s3 : (dats 0 c).share 3 = fullShare := by unfold Dat.share; rw [if_neg (by decide), hq3]
  have s4 : (dats 0 c).share 4 = fullShare := by unfold Dat.share; rw [if_pos (by decide)]
  have a0 : ∀ w, (dats 0 c).arrAt w 0 = V m c (Pipeline.arrRef spec0 w) := fun w => hA w
  rw [s0, s1, s2, s3, s4, a0, a0, a0, a0, a0]
  rw [BI.bigSep_insert (by decide), BI.bigSep_insert (by decide), BI.bigSep_insert (by decide), BI.bigSep_singleton]
  show iprop((c.tc.loc main_v0 ↦{fullShare} V m c main_v0) ∗ (c.tc.loc main_v2 ↦{fullShare} V m c main_v2)
        ∗ (c.tc.loc main_arg2 ↦{fullShare} V m c main_arg2) ∗ (c.tc.loc main_v3 ↦{fullShare} V m c main_v3))
      ⊢ (iprop((c.tc.loc main_v0 ↦{fullShare.left} V m c main_v0) ∗ (c.tc.loc main_v0 ↦{fullShare.right} V m c main_v0)
        ∗ (c.tc.loc main_v2 ↦{fullShare} V m c main_v2) ∗ (c.tc.loc main_arg2 ↦{fullShare} V m c main_arg2)
        ∗ (c.tc.loc main_v3 ↦{fullShare} V m c main_v3)) : sProp 𝕄)
  iintro ⟨H0, H2, H3, H4⟩
  ihave H0' := (pointsTo_share (PosShare.mem_left_op_right fullShare)).1 $$ H0
  icases H0' with ⟨Hl, Hr⟩
  isplitl [Hl]; · iexact Hl
  isplitl [Hr]; · iexact Hr
  isplitl [H2]; · iexact H2
  isplitl [H3]; · iexact H3
  iexact H4

/-- THE RUN, for any proof data of the region that holds the bf16 inputs in halves (windows 0 and 1) and the
    weights and the bias whole, owes nothing, starts from the arrays as the host lines left them, and whose invariant
    begins and ends as the four scratch buffers at any contents: every weakly fair execution of @main terminates without
    a fault, every window's array ends at what the library computes from the proof data, and every buffer that
    bypasses the region ends as the host lines left it. -/
theorem run_of_body (𝒱₀ : Variants)
    (hbody : ∀ c, BodyObligationLoose (dats 0 c) defs₀ 𝒱₀ () Set.univ)
    (howed : ∀ c t, (dats 0 c).owed t = 0)
    (hq0 : ∀ c, (dats 0 c).q 0 = fullShare.left) (hq1 : ∀ c, (dats 0 c).q 1 = fullShare.right)
    (hq2 : ∀ c, (dats 0 c).q 2 = fullShare) (hq3 : ∀ c, (dats 0 c).q 3 = fullShare)
    (hA : ∀ c w, (dats 0 c).A w = V m c (Pipeline.arrRef spec0 w))
    (hin : ∀ c, (Pipeline.scopedRest (Ix := Unit) (Name := ℕ) (U := UR sig nD τ) (Lvl := ℕ) (Val := Elt F) spec0 c : sProp 𝕄) ⊢ (dats 0 c).Φ 0)
    (hout : ∀ c, (dats 0 c).Φ (Fin.last cfg0.N) ⊢ (Pipeline.scopedRest (Ix := Unit) (Name := ℕ) (U := UR sig nD τ) (Lvl := ℕ) (Val := Elt F) spec0 c : sProp 𝕄)) :
    θ_run defs (onTc (τ := τ) (main (F := F))) (s₀ m ρ) (Pipeline.FramePost cfgs dats 0 (V m)) := by
  classical
  exact Pipeline.θ_run_region_noSem_shared cfgs dats () cellOf_inj 0 winFacts₀0 emb₁ defs₀ 𝒱₀ m ρ main
    hbody block_pos0 arr_whole0 stage_whole0 howed
    (u₀ := initOf (Pipeline.cells cfgs cellOf_inj) (Pipeline.launchToks cfgs cellOf_inj))
    (hu₀ := .rfl)
    (V := V m) (hmain := hmain m 𝒱₀)
    (hsplit := fun c => split_arrays m dats c (hq0 c) (hq1 c) (hq2 c) (hq3 c) (hA c))
    (X := fun _ => iprop(emp)) (Y := fun _ => iprop(emp))
    (Z := fun c => Pipeline.unscopedRest (Ix := Unit) (Name := ℕ) (U := UR sig nD τ) (Lvl := ℕ) spec0 c (V m c))
    (hX := fun c => by
      iintro H
      isplitr
      · iempintro
      · iexact H)
    (hin := fun c => (show iprop(emp ∗ Pipeline.scopedRest spec0 c) ⊢ (Pipeline.scopedRest spec0 c : sProp 𝕄) from by
      iintro ⟨-, H⟩; iexact H).trans (hin c))
    (hout := fun c => (hout c).trans (by
      iintro H
      isplitr
      · iempintro
      · iexact H))
    (QY := fun c s => ∀ b ∈ Pipeline.restRefs sig spec0, s.mem ((c.tc : Thread nD τ).loc b) = V m c b)
    (hY := fun c s' => by
      iintro ⟨-, HU, HSI⟩
      unfold Pipeline.unscopedRest
      imodintro
      iapply (pointsTo_read_all (Pipeline.restRefs sig spec0) (fun b => (c.tc : Thread nD τ).loc b) (V m c) s')
      isplitl [HU] <;> iassumption)
    (hQ := fun s h c => ⟨fun w => (h c).1 w, (h c).2⟩)

end Cert.KernelIdeal.Hand

end
-- ==== Proof.IdealRuns.lean ====
/-
  What the two runs of the fused attention kernel's body share: the body's two branch conditions in closed form
  over the grid, and where the result window is idle.

  The grid is (batch, query tile, key tile) = 8 × 2 × 2, walked in order, so the key-tile coordinate is the point's
  parity. At an even point (first key tile) the body resets the running maximum, denominator and numerator, projects the
  query tile and caches it, and folds the first key tile in; it stores nothing into the result window, which is idle
  there. At an odd point (last key tile) it folds the second key tile in and writes the quotient into the result window.
-/
import proofs.«152128_j19920058319181_2_alg».proof.Proof.IdealLaunch
import proofs.«152128_j19920058319181_2_alg».proof.Proof.Gen.KernelIdeal.Skeleton
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- The body's first branch condition (reset and project): the key-tile coordinate is 0. -/
abbrev condFirst (i : grid0.Coords) : Prop := (Scalar.cmpi .ne (Scalar.extui (Scalar.cmpi .eq (BitVec.ofNat 32 (i 2).val) 0#32)) 0#32) = 1#1
/-- It holds at the even points. -/
theorem hcondFirst : ∀ t : Fin cfg0.N, condFirst (grid0.coords t) ↔ t.val % 2 = 0 :=
  (by decide +kernel : ∀ t : Fin grid0.N, condFirst (grid0.coords t) ↔ t.val % 2 = 0)

/-- The body's second branch condition (divide and write the result): the key-tile coordinate is the last, 1. -/
abbrev condLast (i : grid0.Coords) : Prop := k0_cond2 i = 1#1
/-- It holds at the odd points. -/
theorem hcondLast : ∀ t : Fin cfg0.N, condLast (grid0.coords t) ↔ t.val % 2 = 1 :=
  (by decide +kernel : ∀ t : Fin grid0.N, condLast (grid0.coords t) ↔ t.val % 2 = 1)

/-- The four input windows are never idle. -/
theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem live3 : ∀ t : Fin cfg0.N, cfg0.idle 3 (grid0.coords t) = false := by decide +kernel
/-- At an even point the result window is idle and is not written back. -/
theorem idle4_even : ∀ t : Fin cfg0.N, t.val % 2 = 0 → cfg0.idle 4 (grid0.coords t) = true := by decide +kernel
theorem noFlush4_even : ∀ t : Fin cfg0.N, t.val % 2 = 0 → (cfg0.win 4).flush t = false := by decide +kernel
/-- At an odd point it is live. -/
theorem live4_odd : ∀ t : Fin cfg0.N, t.val % 2 = 1 → cfg0.idle 4 (grid0.coords t) = false := by decide +kernel

/-- Each window's current staging memref at point `t`, as the pipeline passes it to the body. -/
abbrev ms0 (t : Fin cfg0.N) : Memref sig .tc .vmem S1x1024x1024 .bf16 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x1024x1024 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S1024x1024 .bf16 := win0_2.stage (cfg0.slots t 2)
abbrev hs2 (t : Fin cfg0.N) : (ms2 t).IsWhole := hstage0_2 ((cfg0.slots t 2).cast nbuf0_2)
abbrev ms3 (t : Fin cfg0.N) : Memref sig .tc .vmem S1024 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x1024x1024 .f32 := win0_4.stage (cfg0.slots t 4)
abbrev hs4 (t : Fin cfg0.N) : (ms4 t).IsWhole := hstage0_4 ((cfg0.slots t 4).cast nbuf0_4)
/-- The four scratch operands: running maximum, running denominator, running numerator, projected query tile. -/
abbrev scMax : Memref sig .tc .vmem S1024x1 .f32 := Memref.whole cc0_scratch0
abbrev scDen : Memref sig .tc .vmem S1024x1 .f32 := Memref.whole cc0_scratch1
abbrev scNum : Memref sig .tc .vmem S1024x1024 .f32 := Memref.whole cc0_scratch2
abbrev scQ : Memref sig .tc .vmem S1024x1024 .bf16 := Memref.whole cc0_scratch3

end Cert.KernelIdeal.Hand

end
-- ==== Proof.IdealRunA.lean ====
/-
  The body's run at a point of the FIRST key tile: from the four input staging buffers at their contents, the result
  window's buffer at anything (handed back untouched) and the four scratch buffers at anything, the body runs without a
  fault and leaves each scratch buffer with the pieces it stored, last first: the running maximum and denominator and the
  numerator each reset and then folded with this key tile, the projected query tile cached.
-/
import proofs.«152128_j19920058319181_2_alg».proof.Proof.IdealRuns

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

set_option maxHeartbeats 2000000 in
noncomputable def kernelRunA (c : Dev nD) (i : grid0.Coords) (arg3 : Memref sig .tc .vmem S1x1024x1024 .bf16) (harg3 : arg3.IsWhole) (arg4 : Memref sig .tc .vmem S1x1024x1024 .bf16) (harg4 : arg4.IsWhole) (arg5 : Memref sig .tc .vmem S1024x1024 .bf16) (harg5 : arg5.IsWhole) (arg6 : Memref sig .tc .vmem S1024 .f32) (harg6 : arg6.IsWhole) (arg7 : Memref sig .tc .vmem S1x1024x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1024 .f32) (harg10 : arg10.IsWhole) (arg11 : Memref sig .tc .vmem S1024x1024 .bf16) (harg11 : arg11.IsWhole) (hc0 : condFirst i) (hc1 : ¬condLast i)
    (x0 : Vec F S1x1024x1024 .bf16) (x1 : Vec F S1x1024x1024 .bf16) (x2 : Vec F S1024x1024 .bf16) (x3 : Vec F S1024 .f32) :
    Σ' (LS0 : List (View.Piece (Elt F) S1024x1 .f32)) (LS1 : List (View.Piece (Elt F) S1024x1 .f32)) (LS2 : List (View.Piece (Elt F) S1024x1024 .f32)),
      { LS3 : List (View.Piece (Elt F) S1024x1024 .bf16) //
      ∀ (xi4 : Vec F S1x1024x1024 .f32) (E : Set ℕ) (K : PUnit → sProp 𝕄),
        iprop(owns (c : Thread nD τ) arg3 fullShare x0 ∗ owns (c : Thread nD τ) arg4 fullShare x1 ∗ owns (c : Thread nD τ) arg5 fullShare x2
            ∗ owns (c : Thread nD τ) arg6 fullShare x3 ∗ owns (c : Thread nD τ) arg7 fullShare xi4
            ∗ (∃ d, owns (c : Thread nD τ) arg8 fullShare d) ∗ (∃ d, owns (c : Thread nD τ) arg9 fullShare d)
            ∗ (∃ d, owns (c : Thread nD τ) arg10 fullShare d) ∗ (∃ d, owns (c : Thread nD τ) arg11 fullShare d)
            ∗ (iprop(owns (c : Thread nD τ) arg3 fullShare x0 ∗ owns (c : Thread nD τ) arg4 fullShare x1 ∗ owns (c : Thread nD τ) arg5 fullShare x2
                ∗ owns (c : Thread nD τ) arg6 fullShare x3 ∗ owns (c : Thread nD τ) arg7 fullShare xi4
                ∗ (∃ f, arg8.view.loc (c : Thread nD τ) ↦[arg8.view.set]{fullShare} arg8.view.writes (Elt F) f LS0)
                ∗ (∃ f, arg9.view.loc (c : Thread nD τ) ↦[arg9.view.set]{fullShare} arg9.view.writes (Elt F) f LS1)
                ∗ (∃ f, arg10.view.loc (c : Thread nD τ) ↦[arg10.view.set]{fullShare} arg10.view.writes (Elt F) f LS2)
                ∗ (∃ f, arg11.view.loc (c : Thread nD τ) ↦[arg11.view.set]{fullShare} arg11.view.writes (Elt F) f LS3)) -∗ K ⟨⟩))
          ⊢ wp frame (wpE (defs₀ (F := F)) Variants.none c none) E (cc0__fused_kernel i arg3 harg3 arg4 harg4 arg5 harg5 arg6 harg6 arg7 harg7 arg8 harg8 arg9 harg9 arg10 harg10 arg11 harg11) K } := by
  refine ⟨?_, ?_, ?_, ?_, fun xi4 E K => ?run⟩
  case run =>
    simp only [cc0__fused_kernel_eq_skeleton]; unfold cc0__fused_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, ⟨%ds1, %fs1, -, HS1⟩, ⟨%ds2, %fs2, -, HS2⟩, ⟨%ds3, %fs3, -, HS3⟩, Hk⟩
    obtain rfl := harg3.eq_unread hf0; obtain rfl := harg4.eq_unread hf1; obtain rfl := harg5.eq_unread hf2
    obtain rfl := harg6.eq_unread hf3; obtain rfl := harg7.eq_unread hf4
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [HS0]; · iexists _; iexact HS0
    isplitl [HS1]; · iexists _; iexact HS1
    isplitl [HS2]; · iexists _; iexact HS2
    iexists _; iexact HS3

end Cert.KernelIdeal.Hand

end
-- ==== Proof.IdealRunB.lean ====
/-
  The body's run at a point of the LAST key tile: from the four input staging buffers at their contents, the result
  window's buffer at anything and the four scratch buffers at what the first key tile's point left, the body runs without
  a fault and leaves the running maximum, denominator and numerator with the pieces it stored (this key tile folded in),
  the cached query projection as it was, and the result window's buffer with the quotient stored.
-/
import proofs.«152128_j19920058319181_2_alg».proof.Proof.IdealRunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

set_option maxHeartbeats 2000000 in
noncomputable def kernelRunB (c : Dev nD) (i : grid0.Coords) (arg3 : Memref sig .tc .vmem S1x1024x1024 .bf16) (harg3 : arg3.IsWhole) (arg4 : Memref sig .tc .vmem S1x1024x1024 .bf16) (harg4 : arg4.IsWhole) (arg5 : Memref sig .tc .vmem S1024x1024 .bf16) (harg5 : arg5.IsWhole) (arg6 : Memref sig .tc .vmem S1024 .f32) (harg6 : arg6.IsWhole) (arg7 : Memref sig .tc .vmem S1x1024x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1024 .f32) (harg10 : arg10.IsWhole) (arg11 : Memref sig .tc .vmem S1024x1024 .bf16) (harg11 : arg11.IsWhole) (hc0 : ¬condFirst i) (hc1 : condLast i)
    (x0 : Vec F S1x1024x1024 .bf16) (x1 : Vec F S1x1024x1024 .bf16) (x2 : Vec F S1024x1024 .bf16) (x3 : Vec F S1024 .f32)
    (xs0 : Vec F S1024x1 .f32) (xs1 : Vec F S1024x1 .f32) (xs2 : Vec F S1024x1024 .f32) (xs3 : Vec F S1024x1024 .bf16) :
    Σ' (L4 : List (View.Piece (Elt F) S1x1024x1024 .f32)) (LS0 : List (View.Piece (Elt F) S1024x1 .f32)) (LS1 : List (View.Piece (Elt F) S1024x1 .f32)),
      { LS2 : List (View.Piece (Elt F) S1024x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2
            ∗ owns (c : Thread nD τ) arg6 fullShare x3 ∗ (∃ d, owns (c : Thread nD τ) arg7 fullShare d)
            ∗ owns (c : Thread nD τ) arg8 fullShare xs0 ∗ owns (c : Thread nD τ) arg9 fullShare xs1
            ∗ owns (c : Thread nD τ) arg10 fullShare xs2 ∗ owns (c : Thread nD τ) arg11 fullShare xs3
            ∗ (iprop(owns (c : Thread nD τ) arg3 fullShare x0 ∗ owns (c : Thread nD τ) arg4 fullShare x1 ∗ owns (c : Thread nD τ) arg5 fullShare x2
                ∗ owns (c : Thread nD τ) arg6 fullShare x3
                ∗ (∃ f, arg7.view.loc (c : Thread nD τ) ↦[arg7.view.set]{fullShare} arg7.view.writes (Elt F) f L4)
                ∗ (∃ f, arg8.view.loc (c : Thread nD τ) ↦[arg8.view.set]{fullShare} arg8.view.writes (Elt F) f LS0)
                ∗ (∃ f, arg9.view.loc (c : Thread nD τ) ↦[arg9.view.set]{fullShare} arg9.view.writes (Elt F) f LS1)
                ∗ (∃ f, arg10.view.loc (c : Thread nD τ) ↦[arg10.view.set]{fullShare} arg10.view.writes (Elt F) f LS2)
                ∗ owns (c : Thread nD τ) arg11 fullShare xs3) -∗ K ⟨⟩))
          ⊢ wp frame (wpE (defs₀ (F := F)) Variants.none c none) E (cc0__fused_kernel i arg3 harg3 arg4 harg4 arg5 harg5 arg6 harg6 arg7 harg7 arg8 harg8 arg9 harg9 arg10 harg10 arg11 harg11) K } := by
  refine ⟨?_, ?_, ?_, ?_, fun E K => ?run⟩
  case run =>
    simp only [cc0__fused_kernel_eq_skeleton]; unfold cc0__fused_kernel_skel
    simp only [k0_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, ⟨%fs1, %hfs1, HS1⟩, ⟨%fs2, %hfs2, HS2⟩, ⟨%fs3, %hfs3, HS3⟩, Hk⟩
    obtain rfl := harg3.eq_unread hf0; obtain rfl := harg4.eq_unread hf1; obtain rfl := harg5.eq_unread hf2
    obtain rfl := harg6.eq_unread hf3
    obtain rfl := harg8.eq_unread hfs0; obtain rfl := harg9.eq_unread hfs1; obtain rfl := harg10.eq_unread hfs2
    obtain rfl := harg11.eq_unread hfs3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]; · iexists _; iexact H4
    isplitl [HS0]; · iexists _; iexact HS0
    isplitl [HS1]; · iexists _; iexact HS1
    isplitl [HS2]; · iexists _; iexact HS2
    iexists _; isplitr; · ipureintro; exact harg11.read_unread _
    iexact HS3

end Cert.KernelIdeal.Hand

end
-- ==== Proof.IdealFrame.lean ====
/-
  The frame of the fused attention kernel's region: the proof data, the body obligation at every grid point, the run.

  A point is (batch, query tile, key tile); the key tile is the point's parity. What the four scratch buffers hold
  between points is the body's invariant: before an even point anything (the body overwrites all four there), before an
  odd point what the even point before it left — the running maximum, denominator and numerator after the first key tile
  and the projected query tile. The four input windows' staging buffers hold their blocks at every point and the body
  leaves them in place; the result window's buffer is untouched at an even point (idle, not written back) and holds the
  quotient after an odd point, where it is written back.
-/
import proofs.«152128_j19920058319181_2_alg».proof.Proof.IdealRunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Blocks and views -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The views through which the scratch buffers' and the result buffer's contents are stated. -/
abbrev VMax : View sig .tc .vmem S1024x1 .f32 := (scMax : Memref sig .tc .vmem S1024x1 .f32).view
abbrev VDen : View sig .tc .vmem S1024x1 .f32 := (scDen : Memref sig .tc .vmem S1024x1 .f32).view
abbrev VNum : View sig .tc .vmem S1024x1024 .f32 := (scNum : Memref sig .tc .vmem S1024x1024 .f32).view
abbrev VQ : View sig .tc .vmem S1024x1024 .bf16 := (scQ : Memref sig .tc .vmem S1024x1024 .bf16).view
abbrev VOut : View sig .tc .vmem S1x1024x1024 .f32 := (Memref.whole cc0_stg4_0 : Memref sig .tc .vmem S1x1024x1024 .f32).view

/-! ## What the body leaves at an even point (first key tile) -/

theorem firstOf {n : ℕ} (hn : n < cfg0.N) (h0 : n % 2 = 0) : condFirst (grid0.coords ⟨n, hn⟩) := (hcondFirst ⟨n, hn⟩).mpr h0
theorem notLastOf {n : ℕ} (hn : n < cfg0.N) (h0 : n % 2 = 0) : ¬condLast (grid0.coords ⟨n, hn⟩) := fun h => by
  have := (hcondLast ⟨n, hn⟩).mp h; simp only at this; omega
theorem notFirstOf {n : ℕ} (hn : n < cfg0.N) (h1 : n % 2 = 1) : ¬condFirst (grid0.coords ⟨n, hn⟩) := fun h => by
  have := (hcondFirst ⟨n, hn⟩).mp h; simp only at this; omega
theorem lastOf {n : ℕ} (hn : n < cfg0.N) (h1 : n % 2 = 1) : condLast (grid0.coords ⟨n, hn⟩) := (hcondLast ⟨n, hn⟩).mpr h1

/-- The first key tile's run at the even point `n`, on the staging memrefs the pipeline passes there and the
    inputs' blocks there. -/
def runEven (c : Dev nD) (n : ℕ) (hn : n < cfg0.N) (h0 : n % 2 = 0) :=
  let t : Fin cfg0.N := ⟨n, hn⟩
  kernelRunA (F := F) c (grid0.coords t) (ms0 t) (hs0 t) (ms1 t) (hs1 t) (ms2 t) (hs2 t) (ms3 t) (hs3 t) (ms4 t) (hs4 t) scMax (Memref.isWhole_whole _) scDen (Memref.isWhole_whole _) scNum (Memref.isWhole_whole _) scQ (Memref.isWhole_whole _) (firstOf hn h0) (notLastOf hn h0)
    (iblk m c 0 t) (iblk m c 1 t) (iblk m c 2 t) (iblk m c 3 t)

/-- What it leaves in the four scratch buffers: its pieces read back. -/
def maxEven (c : Dev nD) (n : ℕ) (hn : n < cfg0.N) (h0 : n % 2 = 0) : Vec F S1024x1 .f32 :=
  VMax.read (Elt F) (VMax.writes (Elt F) VMax.junk (runEven m c n hn h0).1)
def denEven (c : Dev nD) (n : ℕ) (hn : n < cfg0.N) (h0 : n % 2 = 0) : Vec F S1024x1 .f32 :=
  VDen.read (Elt F) (VDen.writes (Elt F) VDen.junk (runEven m c n hn h0).2.1)
def numEven (c : Dev nD) (n : ℕ) (hn : n < cfg0.N) (h0 : n % 2 = 0) : Vec F S1024x1024 .f32 :=
  VNum.read (Elt F) (VNum.writes (Elt F) VNum.junk (runEven m c n hn h0).2.2.1)
def qEven (c : Dev nD) (n : ℕ) (hn : n < cfg0.N) (h0 : n % 2 = 0) : Vec F S1024x1024 .bf16 :=
  VQ.read (Elt F) (VQ.writes (Elt F) VQ.junk (runEven m c n hn h0).2.2.2.1)

/-- Each scratch buffer's pieces cover it: every store of the body is of the whole buffer. -/
theorem coverMaxEven (c : Dev nD) (n : ℕ) (hn : n < cfg0.N) (h0 : n % 2 = 0) (y : S1024x1.Idx) :
    ∃ pc ∈ (runEven m c n hn h0).1, y ∈ pc.1.set :=
  View.cover_of_tiledL (runEven m c n hn h0).1 S1024x1.size (by sl_kernel_rfl) y
theorem coverDenEven (c : Dev nD) (n : ℕ) (hn : n < cfg0.N) (h0 : n % 2 = 0) (y : S1024x1.Idx) :
    ∃ pc ∈ (runEven m c n hn h0).2.1, y ∈ pc.1.set :=
  View.cover_of_tiledL (runEven m c n hn h0).2.1 S1024x1.size (by sl_kernel_rfl) y
theorem coverNumEven (c : Dev nD) (n : ℕ) (hn : n < cfg0.N) (h0 : n % 2 = 0) (y : S1024x1024.Idx) :
    ∃ pc ∈ (runEven m c n hn h0).2.2.1, y ∈ pc.1.set :=
  View.cover_of_tiledL (runEven m c n hn h0).2.2.1 S1024x1024.size (by sl_kernel_rfl) y
theorem coverQEven (c : Dev nD) (n : ℕ) (hn : n < cfg0.N) (h0 : n % 2 = 0) (y : S1024x1024.Idx) :
    ∃ pc ∈ (runEven m c n hn h0).2.2.2.1, y ∈ pc.1.set :=
  View.cover_of_tiledL (runEven m c n hn h0).2.2.2.1 S1024x1024.size (by sl_kernel_rfl) y

/-! ## What the body leaves at an odd point (last key tile) -/

/-- The last key tile's run at the odd point `n`, the scratch buffers at what the point before left. -/
def runOdd (c : Dev nD) (n : ℕ) (hn : n < cfg0.N) (h1 : n % 2 = 1) :=
  let t : Fin cfg0.N := ⟨n, hn⟩
  kernelRunB (F := F) c (grid0.coords t) (ms0 t) (hs0 t) (ms1 t) (hs1 t) (ms2 t) (hs2 t) (ms3 t) (hs3 t) (ms4 t) (hs4 t) scMax (Memref.isWhole_whole _) scDen (Memref.isWhole_whole _) scNum (Memref.isWhole_whole _) scQ (Memref.isWhole_whole _) (notFirstOf hn h1) (lastOf hn h1)
    (iblk m c 0 t) (iblk m c 1 t) (iblk m c 2 t) (iblk m c 3 t)
    (maxEven m c (n - 1) (by omega) (by omega)) (denEven m c (n - 1) (by omega) (by omega))
    (numEven m c (n - 1) (by omega) (by omega)) (qEven m c (n - 1) (by omega) (by omega))

/-- What it leaves in the result window's staging buffer. -/
def outOdd (c : Dev nD) (n : ℕ) (hn : n < cfg0.N) (h1 : n % 2 = 1) : Vec F S1x1024x1024 .f32 :=
  VOut.read (Elt F) (VOut.writes (Elt F) VOut.junk (runOdd m c n hn h1).1)

theorem coverOutOdd (c : Dev nD) (n : ℕ) (hn : n < cfg0.N) (h1 : n % 2 = 1) (y : S1x1024x1024.Idx) :
    ∃ pc ∈ (runOdd m c n hn h1).1, y ∈ pc.1.set :=
  View.cover_of_tiledL (runOdd m c n hn h1).1 S1x1024x1024.size (by sl_kernel_rfl) y

/-! ## The invariant: the four scratch buffers between points -/

/-- The scratch buffers at anything. -/
def scrAny (c : Dev nD) : sProp 𝕄 :=
  iprop((∃ d, owns (c : Thread nD τ) scMax fullShare d) ∗ (∃ d, owns (c : Thread nD τ) scDen fullShare d)
    ∗ (∃ d, owns (c : Thread nD τ) scNum fullShare d) ∗ (∃ d, owns (c : Thread nD τ) scQ fullShare d))

/-- The scratch buffers at what the even point `n` left. -/
def scrAfterEven (c : Dev nD) (n : ℕ) (hn : n < cfg0.N) (h0 : n % 2 = 0) : sProp 𝕄 :=
  iprop(owns (c : Thread nD τ) scMax fullShare (maxEven m c n hn h0) ∗ owns (c : Thread nD τ) scDen fullShare (denEven m c n hn h0)
    ∗ owns (c : Thread nD τ) scNum fullShare (numEven m c n hn h0) ∗ owns (c : Thread nD τ) scQ fullShare (qEven m c n hn h0))

/-- Before point `n`: anything before the first point and after an odd point, what it left after an even one. -/
def PhiS (c : Dev nD) (n : ℕ) (hn : n ≤ cfg0.N) : sProp 𝕄 :=
  if h1 : n % 2 = 1 then scrAfterEven m c (n - 1) (by omega) (by omega) else scrAny c

theorem PhiS_even (c : Dev nD) (n : ℕ) (hn : n ≤ cfg0.N) (h0 : n % 2 = 0) : PhiS m c n hn = scrAny (F := F) c := by
  unfold PhiS; rw [dif_neg (by omega)]

theorem PhiS_odd (c : Dev nD) (n : ℕ) (hn : n ≤ cfg0.N) (h1 : n % 2 = 1) :
    PhiS m c n hn = scrAfterEven m c (n - 1) (by omega) (by omega) := by
  unfold PhiS; rw [dif_pos h1]

theorem scrAny_eq (c : Dev nD) :
    (Pipeline.scopedRest (Ix := Unit) (Name := ℕ) (U := UR sig nD τ) (Lvl := ℕ) (Val := Elt F) spec0 c : sProp 𝕄) = scrAny c := by
  unfold scrAny; rw [scopedRest0_eq]; simp only [scMax, scDen, scNum, scQ, owns_whole]; try rfl

/-! ## The proof data -/

/-- The proof data of the region on core `c`: the arrays as the region finds them; after the body each input's
    buffer at its block, the result's at the quotient after an odd point (at an even point the field is not consulted:
    the window is idle there); the invariant the scratch buffers'; the bf16 inputs held in halves by their two windows;
    nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => if h1 : t.val % 2 = 1 then outOdd m c t.val t.isLt h1 else VOut.read (Elt F) VOut.junk
  Φ t := PhiS m c t.val (Nat.le_of_lt_succ t.isLt)
  q w := match w with
    | ⟨0, _⟩ => fullShare.left
    | ⟨1, _⟩ => fullShare.right
    | ⟨2, _⟩ => fullShare
    | ⟨3, _⟩ => fullShare
    | ⟨4, _⟩ => fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4_odd (c : Dev nD) (t : Fin cfg0.N) (h1 : t.val % 2 = 1) : (dats m 0 c).after 4 t = outOdd m c t.val t.isLt h1 := by
  dsimp only [dats]; rw [dif_pos h1]

/-- Each input's current staging buffer holds its block at every point, fetched there or not: unfetched, the block
    index has not moved and the body left the block in place. -/
theorem before0 (c : Dev nD) (t : Fin cfg0.N) (d) : (dats m 0 c).before 0 t d = iblk m c 0 t :=
  ((dats m 0 c).before_in_eq_fetched 0 rfl (fun _ => rfl) (fun _ _ _ => rfl)
    (fun t => by rw [after0]; unfold Dat.blockOf iblk; rw [A_eq]; try rfl) t d).trans
    (by unfold Dat.fetched Dat.blockOf iblk; rw [A_eq]; try rfl)
theorem before1 (c : Dev nD) (t : Fin cfg0.N) (d) : (dats m 0 c).before 1 t d = iblk m c 1 t :=
  ((dats m 0 c).before_in_eq_fetched 1 rfl (fun _ => rfl) (fun _ _ _ => rfl)
    (fun t => by rw [after1]; unfold Dat.blockOf iblk; rw [A_eq]; try rfl) t d).trans
    (by unfold Dat.fetched Dat.blockOf iblk; rw [A_eq]; try rfl)
theorem before2 (c : Dev nD) (t : Fin cfg0.N) (d) : (dats m 0 c).before 2 t d = iblk m c 2 t :=
  ((dats m 0 c).before_in_eq_fetched 2 rfl (fun _ => rfl) (fun _ _ _ => rfl)
    (fun t => by rw [after2]; unfold Dat.blockOf iblk; rw [A_eq]; try rfl) t d).trans
    (by unfold Dat.fetched Dat.blockOf iblk; rw [A_eq]; try rfl)
theorem before3 (c : Dev nD) (t : Fin cfg0.N) (d) : (dats m 0 c).before 3 t d = iblk m c 3 t :=
  ((dats m 0 c).before_in_eq_fetched 3 rfl (fun _ => rfl) (fun _ _ _ => rfl)
    (fun t => by rw [after3]; unfold Dat.blockOf iblk; rw [A_eq]; try rfl) t d).trans
    (by unfold Dat.fetched Dat.blockOf iblk; rw [A_eq]; try rfl)

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t
    ∗ (dats m 0 c).leavesExact 3 t ∗ (dats m 0 c).leavesExact 4 t)

theorem PhiS_castSucc (c : Dev nD) (t : Fin cfg0.N) :
    (dats m 0 c).Φ t.castSucc = PhiS m c t.val (Nat.le_of_lt t.isLt) := by
  dsimp only [dats]; simp only [Fin.coe_castSucc]

set_option maxHeartbeats 4800000 in
/-- The body at any point. The inputs' staging buffers hold their blocks. At an even point the invariant hands the body
    the scratch buffers at anything, the first key tile's run applies, the result window's buffer goes back as it came,
    and the invariant takes the scratch buffers back at what the run left (its pieces cover each buffer). At an odd
    point the invariant hands them at what the even point before left, the last key tile's run applies, the result
    window's buffer comes back with the quotient stored (its piece covers it), and the scratch contents are forgotten.
    The core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3]
  rw [show (dats m 0 c).owesAt () t.succ = (dats m 0 c).owesAt () t.castSucc from rfl]
  rw [show (dats m 0 c).Φ t.succ = PhiS m c (t.val + 1) t.isLt from rfl, PhiS_castSucc]
  rw [show (dats m 0 c).leavesExact 0 t = owns (c : Thread nD τ) (ms0 t) fullShare ((dats m 0 c).after 0 t) from by
    unfold Dat.leavesExact; rw [live0 t], after0]
  rw [show (dats m 0 c).leavesExact 1 t = owns (c : Thread nD τ) (ms1 t) fullShare ((dats m 0 c).after 1 t) from by
    unfold Dat.leavesExact; rw [live1 t], after1]
  rw [show (dats m 0 c).leavesExact 2 t = owns (c : Thread nD τ) (ms2 t) fullShare ((dats m 0 c).after 2 t) from by
    unfold Dat.leavesExact; rw [live2 t], after2]
  rw [show (dats m 0 c).leavesExact 3 t = owns (c : Thread nD τ) (ms3 t) fullShare ((dats m 0 c).after 3 t) from by
    unfold Dat.leavesExact; rw [live3 t], after3]
  by_cases h0 : t.val % 2 = 0
  · rw [Dat.leavesExact_idle (dats m 0 c) 4 t (idle4_even t h0) (noFlush4_even t h0)]
    rw [PhiS_even m c _ _ h0]
    rw [show PhiS m c (t.val + 1) t.isLt = scrAfterEven m c t.val t.isLt h0 from by unfold PhiS; rw [dif_pos (by omega)]; rfl]
    unfold scrAny scrAfterEven maxEven denEven numEven qEven
    iintro ⟨⟨HS0, HS1, HS2, HS3⟩, Ho, ⟨%d0, H0⟩, ⟨%d1, H1⟩, ⟨%d2, H2⟩, ⟨%d3, H3⟩, ⟨%d4, H4⟩⟩
    iapply ((runEven m c t.val t.isLt h0).2.2.2.2 _ Set.univ _)
    isplitl [H0]; · iexact H0
    isplitl [H1]; · iexact H1
    isplitl [H2]; · iexact H2
    isplitl [H3]; · iexact H3
    isplitl [H4]; · iexact H4
    isplitl [HS0]; · iexact HS0
    isplitl [HS1]; · iexact HS1
    isplitl [HS2]; · iexact HS2
    isplitl [HS3]; · iexact HS3
    iintro ⟨H0, H1, H2, H3, H4, ⟨%e0, HS0⟩, ⟨%e1, HS1⟩, ⟨%e2, HS2⟩, ⟨%e3, HS3⟩⟩
    isplitl [HS0 HS1 HS2 HS3]
    · isplitl [HS0]
      · unfold owns; iexists _; isplitr
        swap; · iexact HS0
        ipureintro; exact View.read_writes_of_cover _ _ _ _ _ (coverMaxEven m c _ _ _)
      isplitl [HS1]
      · unfold owns; iexists _; isplitr
        swap; · iexact HS1
        ipureintro; exact View.read_writes_of_cover _ _ _ _ _ (coverDenEven m c _ _ _)
      isplitl [HS2]
      · unfold owns; iexists _; isplitr
        swap; · iexact HS2
        ipureintro; exact View.read_writes_of_cover _ _ _ _ _ (coverNumEven m c _ _ _)
      · unfold owns; iexists _; isplitr
        swap; · iexact HS3
        ipureintro; exact View.read_writes_of_cover _ _ _ _ _ (coverQEven m c _ _ _)
    isplitl [Ho]; · iexact Ho
    isplitl [H0]; · iexact H0
    isplitl [H1]; · iexact H1
    isplitl [H2]; · iexact H2
    isplitl [H3]; · iexact H3
    iexists _; iexact H4
  · have h1 : t.val % 2 = 1 := by omega
    rw [show (dats m 0 c).leavesExact 4 t = owns (c : Thread nD τ) (ms4 t) fullShare ((dats m 0 c).after 4 t) from by
      unfold Dat.leavesExact; rw [live4_odd t h1], after4_odd m c t h1]
    rw [PhiS_odd m c _ _ h1]
    rw [PhiS_even m c (t.val + 1) t.isLt (by omega)]
    unfold scrAny scrAfterEven outOdd
    iintro ⟨⟨HS0, HS1, HS2, HS3⟩, Ho, ⟨%d0, H0⟩, ⟨%d1, H1⟩, ⟨%d2, H2⟩, ⟨%d3, H3⟩, ⟨%d4, H4⟩⟩
    iapply ((runOdd m c t.val t.isLt h1).2.2.2.2 Set.univ _)
    isplitl [H0]; · iexact H0
    isplitl [H1]; · iexact H1
    isplitl [H2]; · iexact H2
    isplitl [H3]; · iexact H3
    isplitl [H4]; · iexists _; iexact H4
    isplitl [HS0]; · iexact HS0
    isplitl [HS1]; · iexact HS1
    isplitl [HS2]; · iexact HS2
    isplitl [HS3]; · iexact HS3
    iintro ⟨H0, H1, H2, H3, ⟨%e4, H4⟩, ⟨%e0, HS0⟩, ⟨%e1, HS1⟩, ⟨%e2, HS2⟩, HS3⟩
    isplitl [HS0 HS1 HS2 HS3]
    · isplitl [HS0]
      · iexists _; unfold owns; iexists _; isplitr
        swap; · iexact HS0
        ipureintro; rfl
      isplitl [HS1]
      · iexists _; unfold owns; iexists _; isplitr
        swap; · iexact HS1
        ipureintro; rfl
      isplitl [HS2]
      · iexists _; unfold owns; iexists _; isplitr
        swap; · iexact HS2
        ipureintro; rfl
      · iexists _; iexact HS3
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (coverOutOdd m c _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

/-- Before the first point the invariant is the scoped buffers the launch hands the region; -/
theorem hin (c : Dev nD) :
    (Pipeline.scopedRest (Ix := Unit) (Name := ℕ) (U := UR sig nD τ) (Lvl := ℕ) (Val := Elt F) spec0 c : sProp 𝕄) ⊢ (dats m 0 c).Φ 0 := by
  rw [show (dats m 0 c).Φ 0 = PhiS m c 0 (Nat.zero_le _) from rfl, PhiS_even m c 0 _ rfl, scrAny_eq]
  try exact Idealize.SL.BI.Entails.refl _

/-- and after the last point (the grid has an even number of points) it gives them back. -/
theorem hout (c : Dev nD) :
    (dats m 0 c).Φ (Fin.last cfg0.N) ⊢ (Pipeline.scopedRest (Ix := Unit) (Name := ℕ) (U := UR sig nD τ) (Lvl := ℕ) (Val := Elt F) spec0 c : sProp 𝕄) := by
  rw [show (dats m 0 c).Φ (Fin.last cfg0.N) = PhiS m c cfg0.N (le_refl _) from rfl,
    PhiS_even m c _ _ (by rw [show cfg0.N = 32 from N_0]), scrAny_eq]
  try exact Idealize.SL.BI.Entails.refl _

/-! ## The run -/

/-- THE RUN: every weakly fair execution of @main terminates without a fault; every window's array ends at what the
    library computes from the proof data, every buffer that bypasses the region as the host lines left it. -/
theorem run_main : θ_run defs (onTc (τ := τ) (main (F := F))) (s₀ m ρ) (Pipeline.FramePost cfgs (dats m) 0 (V m)) :=
  run_of_body m ρ (dats m) Variants.none (fun c => (body_obligation m c).loose) (fun _ _ => rfl)
    (fun _ => rfl) (fun _ => rfl) (fun _ => rfl) (fun _ => rfl) (A_eq m) (hin m) (hout m)

end Cert.KernelIdeal.Hand

end
-- ==== Proof.Spec.lean ====
/-
  Single-head self-attention without scaling or mask, as ONE function of the three argument arrays, index by index,
  over the extended reals.

  For batch `b` and positions `q`, `k`:  the projected query is  P(b,q,o) = Σ_h X(b,q,h)·W(o,h) + β(o);  the score is
  S(b,q,k) = Σ_h P(b,q,h)·X(b,k,h);  the row maximum is  M(b,q) = max_k S(b,q,k);  the weight is  e(b,q,k) = exp(S(b,q,k) − M(b,q));
  the denominator is  Z(b,q) = Σ_k e(b,q,k);  and the result is  O(b,q,h) = Σ_k (e(b,q,k) / Z(b,q)) · X(b,k,h).
  The inputs are also the keys and the values.
-/
import Idealize.ShloMosaic.PureOps.Ideal
import Idealize.ShloMosaic.Lib.ValueIdx

noncomputable section

namespace Cert.Attn

open Idealize.ShloMosaic Idealize.ShloMosaic.ValueIdx

/-- The inputs' shape, the weights' and the bias's. -/
abbrev SX : Shape := ⟨3, ![8, 2048, 1024]⟩
abbrev SW : Shape := ⟨2, ![1024, 1024]⟩
abbrev SB : Shape := ⟨1, ![1024]⟩

variable (X : SX.Idx → EReal) (W : SW.Idx → EReal) (β : SB.Idx → EReal)

/-- The projected query: a row of the inputs against a row of the weights, plus the bias. -/
def proj (b : Fin 8) (s : Fin 2048) (o : Fin 1024) : EReal :=
  (∑ h : Fin 1024, X (ix3 b s h) * W (ix2 o h)) + β (ix1 o)

/-- The score of query position `q` against key position `k`. -/
def score (b : Fin 8) (q k : Fin 2048) : EReal :=
  ∑ h : Fin 1024, proj X W β b q h * X (ix3 b k h)

/-- The row maximum of the scores, folded from the bottom element. -/
def rowMax (b : Fin 8) (q : Fin 2048) : EReal :=
  Finset.univ.fold max ⊥ (fun k : Fin 2048 => score X W β b q k)

/-- The unnormalised weight. -/
def weight (b : Fin 8) (q k : Fin 2048) : EReal :=
  Ideal.exp (score X W β b q k - rowMax X W β b q)

/-- The softmax denominator. -/
def denom (b : Fin 8) (q : Fin 2048) : EReal :=
  ∑ k : Fin 2048, weight X W β b q k

/-- The attention output, index by index. -/
def attend (i : SX.Idx) : EReal :=
  ∑ k : Fin 2048, Ideal.div (weight X W β (i 0) (i 1) k) (denom X W β (i 0) (i 1)) * X (ix3 (i 0) k (i 2))

end Cert.Attn

end
-- ==== Proof.IdealPieces.lean ====
/-
  What the two runs of the body leave, in the body's own named values.

  At an even point (first key tile), with `x`, `kv`, `w`, `β` the four input blocks there: the cached projection is
  q = k0_pay7 x w β; the running maximum, denominator and numerator are the body's update (k0_pay10, k0_pay13, k0_pay14)
  of the reset values (k0_pay4, k0_pay5, k0_pay6) by this key tile. At an odd point (last key tile) the result block is
  the quotient (k0_pay3) of the numerator and denominator updated once more, from what the even point before left, by
  that point's key tile. Every store of the body is of a whole buffer, so a buffer holds its last store's value and a
  load after a store reads that value back.
-/
import proofs.«152128_j19920058319181_2_alg».proof.Proof.IdealFrame
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ)

theorem hz1 : (![0] : Fin 1 → ℕ) = fun _ => 0 := by funext a; fin_cases a <;> rfl
theorem hz2 : (![0, 0] : Fin 2 → ℕ) = fun _ => 0 := by funext a; fin_cases a <;> rfl
theorem hz3 : (![0, 0, 0] : Fin 3 → ℕ) = fun _ => 0 := by funext a; fin_cases a <;> rfl

/-- The projected query tile an even point caches. -/
theorem qEven_eq (c : Dev nD) (n : ℕ) (hn : n < cfg0.N) (h0 : n % 2 = 0) :
    qEven m c n hn h0 = k0_pay7 (iblk m c 0 ⟨n, hn⟩) (iblk m c 2 ⟨n, hn⟩) (iblk m c 3 ⟨n, hn⟩) := by
  unfold qEven
  rw [View.read_writes_eq_canon _ _ _ (coverQEven m c n hn h0)]
  unfold runEven kernelRunA
  dsimp only
  sl_unfold_words
  rw [View.canon_cons_unit_zero hz2]
  simp only [View.readAt_eq_ld, Memref.IsWhole.read_unread, View.ld_unit_zero (S := S1024x1) hz2, View.ld_unit_zero (S := S1024x1024) hz2,
    View.ld_unit_zero (S := S1x1024x1024) hz3, View.ld_unit_zero (S := S1024) hz1,
    View.readCov_unit_zero (S := S1024x1) _ hz2, View.readCov_unit_zero (S := S1024x1024) _ hz2, View.readCov_unit_zero (S := S1x1024x1024) _ hz3]
  try rfl

/-- The running maximum after an even point. -/
theorem maxEven_eq (c : Dev nD) (n : ℕ) (hn : n < cfg0.N) (h0 : n % 2 = 0) :
    maxEven m c n hn h0
      = k0_pay2 (k0_pay10 (k0_pay7 (iblk m c 0 ⟨n, hn⟩) (iblk m c 2 ⟨n, hn⟩) (iblk m c 3 ⟨n, hn⟩)) (iblk m c 1 ⟨n, hn⟩) k0_pay4) := by
  unfold maxEven
  rw [View.read_writes_eq_canon _ _ _ (coverMaxEven m c n hn h0)]
  unfold runEven kernelRunA
  dsimp only
  sl_unfold_words
  rw [View.canon_cons_unit_zero hz2]
  simp only [View.readAt_eq_ld, Memref.IsWhole.read_unread, View.ld_unit_zero (S := S1024x1) hz2, View.ld_unit_zero (S := S1024x1024) hz2,
    View.ld_unit_zero (S := S1x1024x1024) hz3, View.ld_unit_zero (S := S1024) hz1,
    View.readCov_unit_zero (S := S1024x1) _ hz2, View.readCov_unit_zero (S := S1024x1024) _ hz2, View.readCov_unit_zero (S := S1x1024x1024) _ hz3]
  try rfl

/-- The running denominator after an even point. -/
theorem denEven_eq (c : Dev nD) (n : ℕ) (hn : n < cfg0.N) (h0 : n % 2 = 0) :
    denEven m c n hn h0
      = k0_pay13 (k0_pay7 (iblk m c 0 ⟨n, hn⟩) (iblk m c 2 ⟨n, hn⟩) (iblk m c 3 ⟨n, hn⟩)) (iblk m c 1 ⟨n, hn⟩) k0_pay4 k0_pay4 k0_pay5 := by
  unfold denEven
  rw [View.read_writes_eq_canon _ _ _ (coverDenEven m c n hn h0)]
  unfold runEven kernelRunA
  dsimp only
  sl_unfold_words
  rw [View.canon_cons_unit_zero hz2]
  simp only [View.readAt_eq_ld, Memref.IsWhole.read_unread, View.ld_unit_zero (S := S1024x1) hz2, View.ld_unit_zero (S := S1024x1024) hz2,
    View.ld_unit_zero (S := S1x1024x1024) hz3, View.ld_unit_zero (S := S1024) hz1,
    View.readCov_unit_zero (S := S1024x1) _ hz2, View.readCov_unit_zero (S := S1024x1024) _ hz2, View.readCov_unit_zero (S := S1x1024x1024) _ hz3]
  try rfl

/-- The running numerator after an even point. -/
theorem numEven_eq (c : Dev nD) (n : ℕ) (hn : n < cfg0.N) (h0 : n % 2 = 0) :
    numEven m c n hn h0
      = k0_pay1 (k0_pay14 (k0_pay7 (iblk m c 0 ⟨n, hn⟩) (iblk m c 2 ⟨n, hn⟩) (iblk m c 3 ⟨n, hn⟩)) (iblk m c 1 ⟨n, hn⟩) k0_pay4 k0_pay4 k0_pay6) := by
  unfold numEven
  rw [View.read_writes_eq_canon _ _ _ (coverNumEven m c n hn h0)]
  unfold runEven kernelRunA
  dsimp only
  sl_unfold_words
  rw [View.canon_cons_unit_zero hz2]
  simp only [View.readAt_eq_ld, Memref.IsWhole.read_unread, View.ld_unit_zero (S := S1024x1) hz2, View.ld_unit_zero (S := S1024x1024) hz2,
    View.ld_unit_zero (S := S1x1024x1024) hz3, View.ld_unit_zero (S := S1024) hz1,
    View.readCov_unit_zero (S := S1024x1) _ hz2, View.readCov_unit_zero (S := S1024x1024) _ hz2, View.readCov_unit_zero (S := S1x1024x1024) _ hz3]
  try rfl

/-- The result block the last key tile's run leaves, for ANY contents of the staging and scratch buffers: the quotient of
    the numerator and the denominator, each updated from the scratch contents by the key tile. -/
theorem coverRunB (c : Dev nD) (i : grid0.Coords) (arg3 : Memref sig .tc .vmem S1x1024x1024 .bf16) (harg3 : arg3.IsWhole) (arg4 : Memref sig .tc .vmem S1x1024x1024 .bf16) (harg4 : arg4.IsWhole) (arg5 : Memref sig .tc .vmem S1024x1024 .bf16) (harg5 : arg5.IsWhole) (arg6 : Memref sig .tc .vmem S1024 .f32) (harg6 : arg6.IsWhole) (arg7 : Memref sig .tc .vmem S1x1024x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1024 .f32) (harg10 : arg10.IsWhole) (arg11 : Memref sig .tc .vmem S1024x1024 .bf16) (harg11 : arg11.IsWhole) (hc0 : ¬condFirst i) (hc1 : condLast i)
    (x0 : Vec F S1x1024x1024 .bf16) (x1 : Vec F S1x1024x1024 .bf16) (x2 : Vec F S1024x1024 .bf16) (x3 : Vec F S1024 .f32)
    (xs0 : Vec F S1024x1 .f32) (xs1 : Vec F S1024x1 .f32) (xs2 : Vec F S1024x1024 .f32) (xs3 : Vec F S1024x1024 .bf16) (y : S1x1024x1024.Idx) :
    ∃ pc ∈ (kernelRunB (F := F) c i arg3 harg3 arg4 harg4 arg5 harg5 arg6 harg6 arg7 harg7 arg8 harg8 arg9 harg9 arg10 harg10 arg11 harg11 hc0 hc1 x0 x1 x2 x3 xs0 xs1 xs2 xs3).1, y ∈ pc.1.set :=
  View.cover_of_tiledL (kernelRunB (F := F) c i arg3 harg3 arg4 harg4 arg5 harg5 arg6 harg6 arg7 harg7 arg8 harg8 arg9 harg9 arg10 harg10 arg11 harg11 hc0 hc1 x0 x1 x2 x3 xs0 xs1 xs2 xs3).1 S1x1024x1024.size (by sl_kernel_rfl) y

set_option maxHeartbeats 1000000 in
theorem runB_out_eq (c : Dev nD) (i : grid0.Coords) (arg3 : Memref sig .tc .vmem S1x1024x1024 .bf16) (harg3 : arg3.IsWhole) (arg4 : Memref sig .tc .vmem S1x1024x1024 .bf16) (harg4 : arg4.IsWhole) (arg5 : Memref sig .tc .vmem S1024x1024 .bf16) (harg5 : arg5.IsWhole) (arg6 : Memref sig .tc .vmem S1024 .f32) (harg6 : arg6.IsWhole) (arg7 : Memref sig .tc .vmem S1x1024x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1024 .f32) (harg10 : arg10.IsWhole) (arg11 : Memref sig .tc .vmem S1024x1024 .bf16) (harg11 : arg11.IsWhole) (hc0 : ¬condFirst i) (hc1 : condLast i)
    (x0 : Vec F S1x1024x1024 .bf16) (x1 : Vec F S1x1024x1024 .bf16) (x2 : Vec F S1024x1024 .bf16) (x3 : Vec F S1024 .f32)
    (xs0 : Vec F S1024x1 .f32) (xs1 : Vec F S1024x1 .f32) (xs2 : Vec F S1024x1024 .f32) (xs3 : Vec F S1024x1024 .bf16) :
    VOut.read (Elt F) (VOut.writes (Elt F) VOut.junk (kernelRunB (F := F) c i arg3 harg3 arg4 harg4 arg5 harg5 arg6 harg6 arg7 harg7 arg8 harg8 arg9 harg9 arg10 harg10 arg11 harg11 hc0 hc1 x0 x1 x2 x3 xs0 xs1 xs2 xs3).1)
      = k0_pay3 (k0_pay1 (k0_pay14 xs3 x1 xs0 xs0 xs2)) (k0_pay13 xs3 x1 xs0 xs0 xs1) := by
  rw [View.read_writes_eq_canon _ _ _ (coverRunB c i arg3 harg3 arg4 harg4 arg5 harg5 arg6 harg6 arg7 harg7 arg8 harg8 arg9 harg9 arg10 harg10 arg11 harg11 hc0 hc1 x0 x1 x2 x3 xs0 xs1 xs2 xs3)]
  unfold kernelRunB
  dsimp only
  sl_unfold_words
  rw [View.canon_unit_zero hz3]
  simp only [View.readAt_eq_ld, Memref.IsWhole.read_unread, View.ld_unit_zero (S := S1024x1) hz2, View.ld_unit_zero (S := S1024x1024) hz2,
    View.ld_unit_zero (S := S1x1024x1024) hz3, View.ld_unit_zero (S := S1024) hz1,
    View.readCov_unit_zero (S := S1024x1) _ hz2, View.readCov_unit_zero (S := S1024x1024) _ hz2, View.readCov_unit_zero (S := S1x1024x1024) _ hz3]
  try rfl

/-- The result block after an odd point: the quotient of the numerator and the denominator, each updated by that point's
    key tile from what the even point before left. -/
theorem outOdd_eq (c : Dev nD) (n : ℕ) (hn : n < cfg0.N) (h1 : n % 2 = 1) :
    outOdd m c n hn h1
      = k0_pay3
          (k0_pay1 (k0_pay14 (qEven m c (n - 1) (by omega) (by omega)) (iblk m c 1 ⟨n, hn⟩)
            (maxEven m c (n - 1) (by omega) (by omega)) (maxEven m c (n - 1) (by omega) (by omega)) (numEven m c (n - 1) (by omega) (by omega))))
          (k0_pay13 (qEven m c (n - 1) (by omega) (by omega)) (iblk m c 1 ⟨n, hn⟩)
            (maxEven m c (n - 1) (by omega) (by omega)) (maxEven m c (n - 1) (by omega) (by omega)) (denEven m c (n - 1) (by omega) (by omega))) := by
  unfold outOdd runOdd
  exact runB_out_eq (F := F) c _ _ _ _ _ _ _ _ _ _ _ _ _ _ _ _ _ _ _ _ _ _ _ _ _ _ _ _ _

end Cert.KernelIdeal.Hand

end
-- ==== Proof.LibLane.lean ====
/-
  Lane operations of a two-axis array read at an index, over any extents `a × b`:

  * `ld_lanes`: a unit-stride load of `b` consecutive lanes from lane `off` of every row of an `a × n` block reads,
    at (r, j), the block at (r, off + j);
  * `lift_lane`: the index over row `r` of the lane-reduced shape `[a]` whose lane is `k` is (r, k);
  * `reduceAdd_lane_apply`: the sum over the lanes (`Ideal.reduceAdd` over axis 1) reads, at row `r`, the sum of the row;
  * `reduceFold_max_lane_apply`: the fold of `maximumf` over the lanes (`reduceFold` over axis 1) reads, at row `r`, the
    `Finset.fold max` of the row from the starting value;
  * `exp_apply`, `log_apply`, `absf_apply`, `cmpf_ideal_apply`: the entry-by-entry operations the library's index file
    does not list, at the extended reals.

  A `vector.multi_reduction <add>` over one axis is, by definition, `FloatOps.reduceAdd` of the source over that axis — at
  the extended reals `Ideal.reduceAdd` — and a `<maximumf>` one is `reduceFold` of `maximumf` from the accumulator's value:
  the sum lemma and the maximum lemma are stated over those two forms.
-/
import Idealize.ShloMosaic.Lib.Pipeline.FrameBody
import Idealize.ShloMosaic.Lib.Pipeline.Value
import Idealize.ShloMosaic.Lib.ValueIdx
import Idealize.ShloMosaic.PureOps.Ideal.Laws

noncomputable section

namespace Cert.LibLane

open Idealize.ShloMosaic Idealize.ShloMosaic.ValueIdx

/-! ## Entry-by-entry operations -/

theorem exp_apply {s : Shape} (v : FVec Ideal s .f32) (i : s.Idx) : exp v i = Ideal.exp (v i) := rfl
theorem log_apply {s : Shape} (v : FVec Ideal s .f32) (i : s.Idx) : log v i = Ideal.log (v i) := rfl
theorem absf_apply {s : Shape} (v : FVec Ideal s .f32) (i : s.Idx) : absf v i = max (v i) (-(v i)) := rfl
theorem cmpf_ideal_apply {s : Shape} (p : CmpFPredicate) (a b : FVec Ideal s .f32) (i : s.Idx) :
    cmpf p a b i = Ideal.cmp p (a i) (b i) := rfl

/-! ## A load of `b` consecutive lanes, from lane `off`, of every row of an `a × n` block -/

/-- The load reads, at row `r` and lane `j` of the piece, the block at row `r` and lane `off + j`. -/
theorem ld_lanes {α : Type} {a b n : ℕ} (X : (⟨2, ![a, n]⟩ : Shape).Idx → α) (off : ℕ)
    (inb : ∀ ax, (![0, off] : Fin 2 → ℕ) ax + (⟨2, ![a, b]⟩ : Shape).size ax ≤ (⟨2, ![a, n]⟩ : Shape).size ax)
    (r : Fin a) (j : Fin b) (hj : off + j.val < n) :
    (fun x => X ((Rect.unit (s := ⟨2, ![a, n]⟩) ![0, off] (⟨2, ![a, b]⟩ : Shape).size inb).idx x)) (ix2 r j)
      = X (ix2 r ⟨off + j.val, hj⟩) := by
  show X _ = X _
  congr 1
  funext ax
  apply Fin.ext
  match ax with
  | ⟨0, _⟩ => show 0 + 1 * r.val = r.val; omega
  | ⟨1, _⟩ => show off + 1 * j.val = off + j.val; omega

/-! ## A lane reduction kept as a column -/

/-- The index of an `a × b` array over row `r` whose lane is `k`. -/
theorem lift_lane {a b : ℕ} (h : (⟨2, ![a, b]⟩ : Shape).Reduces [1] (⟨1, ![a]⟩ : Shape)) (r : Fin a)
    (k : Fin ((⟨2, ![a, b]⟩ : Shape).size 1)) : h.lift (ix1 r) k = ix2 r (⟨k.val, k.isLt⟩ : Fin b) := by
  funext c; apply Fin.ext
  fin_cases c <;> rfl

/-- The sum over the lanes of an `a × b` array reads, at row `r`, the sum of the row. -/
theorem reduceAdd_lane_apply {a b : ℕ} (v : FVec Ideal ⟨2, ![a, b]⟩ .f32)
    (h : (⟨2, ![a, b]⟩ : Shape).Reduces [1] (⟨1, ![a]⟩ : Shape)) (r : Fin a) :
    Ideal.reduceAdd h v (ix1 r) = ∑ j : Fin b, v (ix2 r j) := by
  rw [Ideal.reduceAdd_single]
  exact Finset.sum_congr rfl fun k _ => congrArg v (lift_lane h r k)

/-- The maximum over the lanes likewise: at row `r` the fold of `max` over the row from the starting value. -/
theorem reduceFold_max_lane_apply {a b : ℕ} (v : FVec Ideal ⟨2, ![a, b]⟩ .f32)
    (h : (⟨2, ![a, b]⟩ : Shape).Reduces [1] (⟨1, ![a]⟩ : Shape)) (init : Ideal .f32) (r : Fin a) :
    reduceFold h (FloatOps.maximumf (F := Ideal) (φ := .f32)) init v (ix1 r)
      = (Finset.univ : Finset (Fin b)).fold max init fun j => v (ix2 r j) := by
  rw [reduceFold_eq_fold]
  refine (h.fold_filter_drop_single _ _ v (ix1 r)).trans ?_
  have hf : (v ∘ h.lift (ix1 r)) = fun k : Fin b => v (ix2 r k) := funext fun k => congrArg v (lift_lane h r k)
  exact congrArg (fun f => Finset.fold max init f (Finset.univ : Finset (Fin b))) hf

end Cert.LibLane

end
-- ==== Proof.LibPlainDot.lean ====
/-
  A plain matrix product read at an index, at the extended reals.

  For a rank-2 product `[M, K] · [K, N] → [M, N]` (one contracted axis: the left operand's columns against the right
  operand's rows, no batch axis) accumulated into the zero block, the entry at `(p, e)` is the finite sum over the
  contracted coordinate `k` of `lhs (p, k) · rhs (k, e)`. The product's dimension record enters only through four
  coordinate facts about its operand index maps (each is a one-line computation for a literal record), so the lemma
  serves any such record at any extents.
-/
import Idealize.ShloMosaic.Lib.ValueIdx
import Idealize.ShloMosaic.PureOps.Ideal.Laws

noncomputable section

namespace Cert.LibPlainDot

open Idealize.ShloMosaic Idealize.ShloMosaic.ValueIdx

/-- `[M, K] · [K, N]` into the zero accumulator, at `(p, e)`: `∑ₖ lhs (p, k) · rhs (k, e)`. The hypotheses say that the
    record contracts ONE axis of extent `K`, that the left operand is read at (output row, contracted coordinate) and the
    right operand at (contracted coordinate, output column). -/
theorem matmul_zero_apply {M K N : ℕ} {φ₁ φ₂ : FTy}
    (D : DotDims ⟨2, ![M, K]⟩ ⟨2, ![K, N]⟩ ⟨2, ![M, N]⟩) (hr : D.contr.rank = 1)
    (hs : D.contr.size ⟨0, by omega⟩ = K)
    (hl0 : ∀ i q, (D.lhsIdx i q 0).val = (i 0).val)
    (hl1 : ∀ i q, (D.lhsIdx i q 1).val = (q ⟨0, by omega⟩).val)
    (hr0 : ∀ i q, (D.rhsIdx i q 0).val = (q ⟨0, by omega⟩).val)
    (hr1 : ∀ i q, (D.rhsIdx i q 1).val = (i 1).val)
    (lhs : FVec Ideal ⟨2, ![M, K]⟩ φ₁) (rhs : FVec Ideal ⟨2, ![K, N]⟩ φ₂) (p : Fin M) (e : Fin N) :
    matmul D none lhs rhs (constant (F := Ideal) ⟨2, ![M, N]⟩ .f32 0x00000000#32) (ix2 p e)
      = ∑ k : Fin K, lhs (ix2 p k) * rhs (ix2 k e) := by
  simp only [matmul]
  rw [Ideal.matmul_constant_zero_apply, ← Equiv.sum_comp (contrEquiv1 D K hr hs).symm]
  refine Finset.sum_congr rfl fun k _ => ?_
  have hk := contrEquiv1_symm_val D K hr hs k
  have el : D.lhsIdx (ix2 p e) ((contrEquiv1 D K hr hs).symm k) = ix2 p k := funext fun a => Fin.ext (by
    match a with
    | ⟨0, _⟩ => exact hl0 _ _
    | ⟨1, _⟩ => exact (hl1 _ _).trans hk)
  have er : D.rhsIdx (ix2 p e) ((contrEquiv1 D K hr hs).symm k) = ix2 k e := funext fun a => Fin.ext (by
    match a with
    | ⟨0, _⟩ => exact (hr0 _ _).trans hk
    | ⟨1, _⟩ => exact hr1 _ _)
  rw [el, er]

end Cert.LibPlainDot

end
-- ==== Proof.LibColumn.lean ====
/-
  Two layout operations read at an index, for a sum kept as a column: a vector of `a` entries cast to an
  `a × 1` column reads, at (i, 0), the vector at `i`; and an `a × 1` column broadcast to `a × b` reads, at (p, c), the
  column's entry in row `p`, whatever the lane `c`. Both are stated over literal rank-2 indices built from their
  coordinates, so that they rewrite under a payload's other operations.
-/
import Idealize.ShloMosaic.Lib.Pipeline.Value
import Idealize.ShloMosaic.Lib.ValueIdx

namespace Cert.LibColumn

open Idealize.ShloMosaic Idealize.ShloMosaic.ValueIdx

variable {α : Type}

/-- An `[a]` array cast to `[a, 1]` reads, at `(i, u)`, the operand at `i`, whatever the unit coordinate `u`:
    both sit at row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry in row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColumn
-- ==== Proof.SoftmaxLaw.lean ====
import Mathlib
import Idealize.ShloMosaic.PureOps.Ideal
import Idealize.ShloMosaic.PureOps.Ideal.Laws

/-!
# Two-tile online softmax equals one-shot softmax (one row, one output column)

For real scores `s k` and real values `v k`, `k < 2048`, the online recurrence run over the two halves
`[0, 1024)` and `[1024, 2048)` — running maximum, rescaling factor `exp (m_old - m_new)`, running
denominator and running weighted sum — ends with the same quotient as the plain softmax-weighted sum
`∑ k, (exp (s k - M) / Z) * v k`, where `M` is the maximum of all the scores and `Z = ∑ k, exp (s k - M)`.
All quantities are extended reals; with real inputs every one of them is (the coercion of) a real, which the
intermediate theorems below record one quantity at a time.
-/

namespace Cert.Attn.Law

open Idealize.ShloMosaic
open scoped BigOperators

noncomputable section

/-- The index of key `k` of the first half. -/
abbrev lo (k : Fin 1024) : Fin 2048 := ⟨k.val, by omega⟩
/-- The index of key `k` of the second half. -/
abbrev hi (k : Fin 1024) : Fin 2048 := ⟨1024 + k.val, by omega⟩

/-! ### The quantities of the recurrence and of the reference -/

/-- Running maximum after the first half (the initial maximum is `⊥`). -/
def m1 (s : Fin 2048 → EReal) : EReal :=
  max ⊥ (Finset.univ.fold max ⊥ (fun k : Fin 1024 => s (lo k)))
/-- Rescaling factor of the first step. -/
def a1 (s : Fin 2048 → EReal) : EReal := Ideal.exp (⊥ - m1 s)
/-- Running denominator after the first half (the initial denominator is `0`). -/
def l1 (s : Fin 2048 → EReal) : EReal :=
  a1 s * 0 + ∑ k : Fin 1024, Ideal.exp (s (lo k) - m1 s)
/-- Running weighted sum after the first half (the initial sum is `0`). -/
def acc1 (s v : Fin 2048 → EReal) : EReal :=
  a1 s * 0 + ∑ k : Fin 1024, Ideal.exp (s (lo k) - m1 s) * v (lo k)
/-- Running maximum after the second half. -/
def m2 (s : Fin 2048 → EReal) : EReal :=
  max (m1 s) (Finset.univ.fold max ⊥ (fun k : Fin 1024 => s (hi k)))
/-- Rescaling factor of the second step. -/
def a2 (s : Fin 2048 → EReal) : EReal := Ideal.exp (m1 s - m2 s)
/-- Running denominator after the second half. -/
def l2 (s : Fin 2048 → EReal) : EReal :=
  a2 s * l1 s + ∑ k : Fin 1024, Ideal.exp (s (hi k) - m2 s)
/-- Running weighted sum after the second half. -/
def acc2 (s v : Fin 2048 → EReal) : EReal :=
  a2 s * acc1 s v + ∑ k : Fin 1024, Ideal.exp (s (hi k) - m2 s) * v (hi k)
/-- The maximum of all the scores. -/
def M (s : Fin 2048 → EReal) : EReal := Finset.univ.fold max ⊥ s
/-- The softmax denominator. -/
def Z (s : Fin 2048 → EReal) : EReal := ∑ k : Fin 2048, Ideal.exp (s k - M s)

/-! ### Folds of `max` and sums over the two halves -/

/-- A fold of `max` from `⊥` is the finite supremum. -/
theorem fold_max_eq_sup {ι : Type*} (t : Finset ι) (f : ι → EReal) : t.fold max ⊥ f = t.sup f := rfl

/-- The supremum of a nonempty family of reals, taken in the extended reals, is the real supremum. -/
theorem sup_coe {ι : Type*} (t : Finset ι) (H : t.Nonempty) (f : ι → ℝ) :
    t.sup (fun k => (f k : EReal)) = ((t.sup' H f : ℝ) : EReal) := by
  rw [← Finset.sup'_eq_sup H]
  exact (Finset.comp_sup'_eq_sup'_comp H (fun x : ℝ => (x : EReal))
    (fun x y => EReal.coe_strictMono.monotone.map_max)).symm

/-- A finite sum of reals, taken in the extended reals, is the real sum. -/
theorem coe_sum {ι : Type*} (t : Finset ι) (f : ι → ℝ) :
    ∑ k ∈ t, (f k : EReal) = ((∑ k ∈ t, f k : ℝ) : EReal) := by
  classical
  induction t using Finset.induction_on with
  | empty => simp
  | insert a t ha ih => rw [Finset.sum_insert ha, Finset.sum_insert ha, ih, EReal.coe_add]

/-- Every key lies in exactly one of the two halves; here: in at least one. -/
theorem univ_split :
    (Finset.univ : Finset (Fin 2048)) = Finset.univ.image lo ∪ Finset.univ.image hi := by
  ext k
  simp only [Finset.mem_univ, Finset.mem_union, Finset.mem_image, true_and, true_iff]
  by_cases h : k.val < 1024
  · exact Or.inl ⟨⟨k.val, h⟩, Fin.ext rfl⟩
  · exact Or.inr ⟨⟨k.val - 1024, by omega⟩, Fin.ext (by simp only [hi]; omega)⟩

/-- The supremum over all keys is the larger of the suprema over the halves. -/
theorem sup_split (s : Fin 2048 → EReal) :
    Finset.univ.sup s
      = max (Finset.univ.sup fun k : Fin 1024 => s (lo k)) (Finset.univ.sup fun k : Fin 1024 => s (hi k)) := by
  rw [univ_split, Finset.sup_union, Finset.sup_image, Finset.sup_image]
  rfl

/-- A sum over all keys is the sum of the sums over the halves. -/
theorem sum_split {A : Type*} [AddCommMonoid A] (g : Fin 2048 → A) :
    ∑ k, g k = ∑ k : Fin 1024, g (lo k) + ∑ k : Fin 1024, g (hi k) :=
  Fin.sum_univ_add (a := 1024) (b := 1024) g

/-! ### Facts that need no hypothesis on the scores -/

/-- The first rescaling factor is `exp ⊥ = 0`. -/
theorem a1_eq (s : Fin 2048 → EReal) : a1 s = 0 := by
  unfold a1
  rw [EReal.bot_sub, Ideal.exp_bot]

/-- The first running maximum is the supremum over the first half. -/
theorem m1_eq_sup (s : Fin 2048 → EReal) : m1 s = Finset.univ.sup fun k : Fin 1024 => s (lo k) := by
  unfold m1
  rw [max_eq_right bot_le, fold_max_eq_sup]

theorem l1_eq (s : Fin 2048 → EReal) : l1 s = ∑ k : Fin 1024, Ideal.exp (s (lo k) - m1 s) := by
  unfold l1
  rw [a1_eq, zero_mul, zero_add]

theorem acc1_eq (s v : Fin 2048 → EReal) :
    acc1 s v = ∑ k : Fin 1024, Ideal.exp (s (lo k) - m1 s) * v (lo k) := by
  unfold acc1
  rw [a1_eq, zero_mul, zero_add]

/-- The second running maximum is the maximum of all the scores. -/
theorem m2_eq_M (s : Fin 2048 → EReal) : m2 s = M s := by
  unfold m2 M
  rw [m1_eq_sup, fold_max_eq_sup, fold_max_eq_sup, sup_split]

/-! ### The real quantities -/

/-- The maximum of the first half of a real score row. -/
def rm1 (f : Fin 2048 → ℝ) : ℝ :=
  (Finset.univ : Finset (Fin 1024)).sup' ⟨0, Finset.mem_univ 0⟩ fun k => f (lo k)
/-- The maximum of a real score row. -/
def rM (f : Fin 2048 → ℝ) : ℝ :=
  (Finset.univ : Finset (Fin 2048)).sup' ⟨0, Finset.mem_univ 0⟩ f
/-- The denominator after the first half. -/
def rl1 (f : Fin 2048 → ℝ) : ℝ := ∑ k : Fin 1024, Real.exp (f (lo k) - rm1 f)
/-- The weighted sum after the first half. -/
def racc1 (f g : Fin 2048 → ℝ) : ℝ := ∑ k : Fin 1024, Real.exp (f (lo k) - rm1 f) * g (lo k)
/-- The softmax denominator of a real score row. -/
def rZ (f : Fin 2048 → ℝ) : ℝ := ∑ k : Fin 2048, Real.exp (f k - rM f)
/-- The unnormalised softmax-weighted sum of a real value row. -/
def rAcc (f g : Fin 2048 → ℝ) : ℝ := ∑ k : Fin 2048, Real.exp (f k - rM f) * g k

theorem rl1_pos (f : Fin 2048 → ℝ) : 0 < rl1 f :=
  Finset.sum_pos (fun _ _ => Real.exp_pos _) ⟨0, Finset.mem_univ 0⟩

theorem rZ_pos (f : Fin 2048 → ℝ) : 0 < rZ f :=
  Finset.sum_pos (fun _ _ => Real.exp_pos _) ⟨0, Finset.mem_univ 0⟩

/-- The rescaling identity: with any two real shifts `μ₁`, `μ`, rescaling the first half's sum shifted by
    `μ₁` by `exp (μ₁ - μ)` and adding the second half's sum shifted by `μ` gives the whole sum shifted by `μ`. -/
theorem real_online (f w : Fin 2048 → ℝ) (μ₁ μ : ℝ) :
    Real.exp (μ₁ - μ) * (∑ k : Fin 1024, Real.exp (f (lo k) - μ₁) * w (lo k))
        + ∑ k : Fin 1024, Real.exp (f (hi k) - μ) * w (hi k)
      = ∑ k : Fin 2048, Real.exp (f k - μ) * w k := by
  rw [sum_split (fun k => Real.exp (f k - μ) * w k), Finset.mul_sum]
  congr 1
  refine Finset.sum_congr rfl (fun k _ => ?_)
  rw [← mul_assoc, ← Real.exp_add]
  congr 2
  ring

/-- The same without weights. -/
theorem real_online_one (f : Fin 2048 → ℝ) (μ₁ μ : ℝ) :
    Real.exp (μ₁ - μ) * (∑ k : Fin 1024, Real.exp (f (lo k) - μ₁))
        + ∑ k : Fin 1024, Real.exp (f (hi k) - μ)
      = ∑ k : Fin 2048, Real.exp (f k - μ) := by
  simpa using real_online f (fun _ => 1) μ₁ μ

/-! ### Real scores and values: every quantity is a real -/

section Coe
variable (f g : Fin 2048 → ℝ)

/-- `exp` of a difference of two reals. -/
theorem exp_coe_sub (x y : ℝ) : Ideal.exp ((x : EReal) - (y : EReal)) = ((Real.exp (x - y) : ℝ) : EReal) := by
  rw [← EReal.coe_sub, Ideal.exp_coe]

theorem m1_coe : m1 (fun k => (f k : EReal)) = ((rm1 f : ℝ) : EReal) := by
  rw [m1_eq_sup]
  exact sup_coe _ _ _

theorem M_coe : M (fun k => (f k : EReal)) = ((rM f : ℝ) : EReal) := by
  unfold M
  rw [fold_max_eq_sup]
  exact sup_coe _ _ _

theorem m2_coe : m2 (fun k => (f k : EReal)) = ((rM f : ℝ) : EReal) := by
  rw [m2_eq_M, M_coe]

theorem l1_coe : l1 (fun k => (f k : EReal)) = ((rl1 f : ℝ) : EReal) := by
  rw [l1_eq, m1_coe]
  unfold rl1
  rw [← coe_sum]
  exact Finset.sum_congr rfl (fun k _ => exp_coe_sub _ _)

theorem acc1_coe :
    acc1 (fun k => (f k : EReal)) (fun k => (g k : EReal)) = ((racc1 f g : ℝ) : EReal) := by
  rw [acc1_eq, m1_coe]
  unfold racc1
  rw [← coe_sum]
  refine Finset.sum_congr rfl (fun k _ => ?_)
  rw [EReal.coe_mul, ← exp_coe_sub]

theorem a2_coe : a2 (fun k => (f k : EReal)) = ((Real.exp (rm1 f - rM f) : ℝ) : EReal) := by
  unfold a2
  rw [m2_coe, m1_coe, exp_coe_sub]

theorem l2_coe : l2 (fun k => (f k : EReal)) = ((rZ f : ℝ) : EReal) := by
  unfold l2
  rw [a2_coe, l1_coe, m2_coe]
  have h : ∀ k : Fin 1024, Ideal.exp ((fun k => (f k : EReal)) (hi k) - ((rM f : ℝ) : EReal))
      = ((Real.exp (f (hi k) - rM f) : ℝ) : EReal) := fun k => exp_coe_sub _ _
  rw [Finset.sum_congr rfl (fun k _ => h k), coe_sum, ← EReal.coe_mul, ← EReal.coe_add]
  congr 1
  exact real_online_one f (rm1 f) (rM f)

theorem Z_coe : Z (fun k => (f k : EReal)) = ((rZ f : ℝ) : EReal) := by
  unfold Z rZ
  rw [M_coe, ← coe_sum]
  exact Finset.sum_congr rfl (fun k _ => exp_coe_sub _ _)

theorem acc2_coe :
    acc2 (fun k => (f k : EReal)) (fun k => (g k : EReal)) = ((rAcc f g : ℝ) : EReal) := by
  unfold acc2
  rw [a2_coe, acc1_coe, m2_coe]
  have h : ∀ k : Fin 1024,
      Ideal.exp ((fun k => (f k : EReal)) (hi k) - ((rM f : ℝ) : EReal)) * (fun k => (g k : EReal)) (hi k)
        = ((Real.exp (f (hi k) - rM f) * g (hi k) : ℝ) : EReal) := fun k => by
    rw [EReal.coe_mul, ← exp_coe_sub]
  rw [Finset.sum_congr rfl (fun k _ => h k), coe_sum, ← EReal.coe_mul, ← EReal.coe_add]
  congr 1
  exact real_online f g (rm1 f) (rM f)

/-- The two-tile recurrence ends with the softmax-weighted sum (coerced real inputs). -/
theorem online_two_tiles_coe :
    Ideal.div (acc2 (fun k => (f k : EReal)) (fun k => (g k : EReal))) (l2 (fun k => (f k : EReal)))
      = ∑ k : Fin 2048, Ideal.div (Ideal.exp ((f k : EReal) - M (fun k => (f k : EReal))))
          (Z (fun k => (f k : EReal))) * (g k : EReal) := by
  rw [acc2_coe, l2_coe, Z_coe, M_coe, Ideal.div_coe (rZ_pos f).ne']
  have h : ∀ k : Fin 2048,
      Ideal.div (Ideal.exp ((f k : EReal) - ((rM f : ℝ) : EReal))) ((rZ f : ℝ) : EReal) * (g k : EReal)
        = ((Real.exp (f k - rM f) * (1 / rZ f) * g k : ℝ) : EReal) := fun k => by
    rw [Ideal.div_coe (rZ_pos f).ne', exp_coe_sub, ← EReal.coe_mul, ← EReal.coe_mul]
  rw [Finset.sum_congr rfl (fun k _ => h k), coe_sum, ← EReal.coe_mul]
  congr 1
  unfold rAcc
  rw [Finset.sum_mul]
  exact Finset.sum_congr rfl (fun k _ => by ring)

end Coe

/-! ### The same facts under the hypothesis that the scores and values are real -/

/-- A family of extended reals all of which are real is the coercion of a real family. -/
theorem exists_real_family {n : ℕ} {s : Fin n → EReal} (hs : ∀ k, ∃ r : ℝ, s k = r) :
    ∃ f : Fin n → ℝ, s = fun k => (f k : EReal) := by
  choose f hf using hs
  exact ⟨f, funext hf⟩

/-- The real family under a family of extended reals. -/
def re (s : Fin 2048 → EReal) : Fin 2048 → ℝ := fun k => (s k).toReal

theorem re_coe (f : Fin 2048 → ℝ) : re (fun k => (f k : EReal)) = f :=
  funext fun _ => EReal.toReal_coe _

section Real
variable {s v : Fin 2048 → EReal}

theorem m1_eq (hs : ∀ k, ∃ r : ℝ, s k = r) : m1 s = ((rm1 (re s) : ℝ) : EReal) := by
  obtain ⟨f, rfl⟩ := exists_real_family hs
  rw [re_coe, m1_coe]

theorem l1_real (hs : ∀ k, ∃ r : ℝ, s k = r) : l1 s = ((rl1 (re s) : ℝ) : EReal) := by
  obtain ⟨f, rfl⟩ := exists_real_family hs
  rw [re_coe, l1_coe]

theorem acc1_real (hs : ∀ k, ∃ r : ℝ, s k = r) (hv : ∀ k, ∃ r : ℝ, v k = r) :
    acc1 s v = ((racc1 (re s) (re v) : ℝ) : EReal) := by
  obtain ⟨f, rfl⟩ := exists_real_family hs
  obtain ⟨g, rfl⟩ := exists_real_family hv
  rw [re_coe, re_coe, acc1_coe]

theorem M_real (hs : ∀ k, ∃ r : ℝ, s k = r) : M s = ((rM (re s) : ℝ) : EReal) := by
  obtain ⟨f, rfl⟩ := exists_real_family hs
  rw [re_coe, M_coe]

theorem m2_real (hs : ∀ k, ∃ r : ℝ, s k = r) : m2 s = ((rM (re s) : ℝ) : EReal) := by
  rw [m2_eq_M, M_real hs]

theorem a2_real (hs : ∀ k, ∃ r : ℝ, s k = r) :
    a2 s = ((Real.exp (rm1 (re s) - rM (re s)) : ℝ) : EReal) := by
  obtain ⟨f, rfl⟩ := exists_real_family hs
  rw [re_coe, a2_coe]

theorem l2_real (hs : ∀ k, ∃ r : ℝ, s k = r) : l2 s = ((rZ (re s) : ℝ) : EReal) := by
  obtain ⟨f, rfl⟩ := exists_real_family hs
  rw [re_coe, l2_coe]

theorem Z_real (hs : ∀ k, ∃ r : ℝ, s k = r) : Z s = ((rZ (re s) : ℝ) : EReal) := by
  obtain ⟨f, rfl⟩ := exists_real_family hs
  rw [re_coe, Z_coe]

theorem acc2_real (hs : ∀ k, ∃ r : ℝ, s k = r) (hv : ∀ k, ∃ r : ℝ, v k = r) :
    acc2 s v = ((rAcc (re s) (re v) : ℝ) : EReal) := by
  obtain ⟨f, rfl⟩ := exists_real_family hs
  obtain ⟨g, rfl⟩ := exists_real_family hv
  rw [re_coe, re_coe, acc2_coe]

end Real

/-- **The two-tile online softmax equals the one-shot softmax**: for real scores and values, the quotient of
    the final running weighted sum by the final running denominator is the softmax-weighted sum of the values. -/
theorem online_two_tiles (s v : Fin 2048 → EReal) (hs : ∀ k, ∃ r : ℝ, s k = r) (hv : ∀ k, ∃ r : ℝ, v k = r) :
    Ideal.div (acc2 s v) (l2 s) = ∑ k : Fin 2048, Ideal.div (Ideal.exp (s k - M s)) (Z s) * v k := by
  obtain ⟨f, rfl⟩ := exists_real_family hs
  obtain ⟨g, rfl⟩ := exists_real_family hv
  exact online_two_tiles_coe f g

end

end Cert.Attn.Law
-- ==== Proof.IdealTile.lean ====
/-
  One (batch, query tile) of the fused attention kernel, read at an index over the extended reals.

  With `x` the query tile's source (1024 positions × 1024 features), `w` the transposed weights, `β` the bias and `kv` a
  key/value tile, the body's pure values are, entry by entry: the projected queries  q(r,o) = Σ_h x(r,h)·w(h,o) + β(o);
  the scores  s(r,k) = Σ_h q(r,h)·kv(k,h);  the new running maximum  max(m(r), max_k s(r,k));  the rescaling factor
  exp(m(r) − m'(r));  the weights  p(r,k) = exp(s(r,k) − m'(r));  the new denominator  a(r)·l(r) + Σ_k p(r,k);  the new
  numerator  a(r)·acc(r,h) + Σ_k p(r,k)·kv(k,h);  and at the end the quotient  acc(r,h) / l(r).  A change of float format
  is the identity here, and a product into the zero accumulator is the plain sum.
-/
import proofs.«152128_j19920058319181_2_alg».proof.Proof.Gen.KernelIdeal.Skeleton
import proofs.«152128_j19920058319181_2_alg».proof.Proof.LibLane
import proofs.«152128_j19920058319181_2_alg».proof.Proof.LibPlainDot
import proofs.«152128_j19920058319181_2_alg».proof.Proof.LibColumn
import proofs.«152128_j19920058319181_2_alg».proof.Proof.SoftmaxLaw
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Tile

open Cert.KernelIdeal Cert.KernelIdeal.Gen
open Idealize.ShloMosaic Idealize.ShloMosaic.ValueIdx

/-- The one contraction record of the body's three products: `[1024,1024] · [1024,1024]`, the left operand's second
    axis against the right operand's first. -/
abbrev DD : DotDims S1024x1024 S1024x1024 S1024x1024 := dot_S1024x1024_S1024x1024_S1024x1024_1_0_0_1_n_n

theorem dd_rank : DD.contr.rank = 1 := rfl
theorem dd_size : DD.contr.size ⟨0, by decide⟩ = 1024 := rfl
theorem dd_l0 (i : S1024x1024.Idx) (q : DD.contr.Idx) : (DD.lhsIdx i q 0).val = (i 0).val := by
  unfold DotDims.lhsIdx
  rw [dif_neg (show ¬(0 : Fin S1024x1024.rank) ∈ DD.lhsBatch by decide), dif_pos (show (0 : Fin S1024x1024.rank) ∈ DD.lhsNonContracting by decide)]
  rfl
theorem dd_l1 (i : S1024x1024.Idx) (q : DD.contr.Idx) : (DD.lhsIdx i q 1).val = (q ⟨0, by decide⟩).val :=
  DD.lhsIdx_val_of_single rfl i q
theorem dd_r0 (i : S1024x1024.Idx) (q : DD.contr.Idx) : (DD.rhsIdx i q 0).val = (q ⟨0, by decide⟩).val :=
  DD.rhsIdx_val_of_single rfl i q
theorem dd_r1 (i : S1024x1024.Idx) (q : DD.contr.Idx) : (DD.rhsIdx i q 1).val = (i 1).val := by
  unfold DotDims.rhsIdx
  rw [dif_neg (show ¬(1 : Fin S1024x1024.rank) ∈ DD.rhsBatch by decide), dif_pos (show (1 : Fin S1024x1024.rank) ∈ DD.rhsNonContracting by decide)]
  rfl

/-- A product of two 1024 × 1024 arrays into the zero accumulator, at `(p, e)`: the row against the column. -/
theorem mm_apply (lhs rhs : FVec Ideal S1024x1024 .bf16) (p e : Fin 1024) :
    matmul DD none lhs rhs (constant (F := Ideal) S1024x1024 .f32 0x00000000#32) (ix2 p e)
      = ∑ k : Fin 1024, lhs (ix2 p k) * rhs (ix2 k e) :=
  Cert.LibPlainDot.matmul_zero_apply DD dd_rank dd_size dd_l0 dd_l1 dd_r0 dd_r1 lhs rhs p e

theorem ofBits_negInf : Ideal.ofBits .f32 0xFF800000#32 = (⊥ : EReal) := by
  simp [Ideal.ofBits, Ideal.ieee]

variable (x kv : FVec Ideal S1x1024x1024 .bf16) (w q : FVec Ideal S1024x1024 .bf16) (β : FVec Ideal S1024 .f32)
  (mx mx' l : FVec Ideal S1024x1 .f32) (acc : FVec Ideal S1024x1024 .f32)

/-- The reset values: the running maximum −∞, the denominator and the numerator 0. -/
theorem pay4_apply (r : Fin 1024) (u : Fin 1) : k0_pay4 (F := Ideal) (ix2 r u) = (⊥ : EReal) := by
  unfold k0_pay4
  rw [shapeCast_self]
  exact ofBits_negInf
theorem pay5_apply (r : Fin 1024) (u : Fin 1) : k0_pay5 (F := Ideal) (ix2 r u) = (0 : EReal) := by
  unfold k0_pay5
  rw [shapeCast_self]
  exact Ideal.ofBits_zero_f32
theorem pay6_apply (r h : Fin 1024) : k0_pay6 (F := Ideal) (ix2 r h) = (0 : EReal) := by
  unfold k0_pay6
  rw [shapeCast_self]
  exact Ideal.ofBits_zero_f32

/-- A value stored through a cast to its own shape is itself. -/
theorem pay1_eq : k0_pay1 (F := Ideal) acc = acc := by unfold k0_pay1; rw [shapeCast_self]
theorem pay2_eq : k0_pay2 (F := Ideal) mx = mx := by unfold k0_pay2; rw [shapeCast_self]

/-- The projected queries. -/
theorem pay7_apply (r o : Fin 1024) :
    k0_pay7 (F := Ideal) x w β (ix2 r o) = (∑ h : Fin 1024, x (ix3 0 r h) * w (ix2 h o)) + β (ix1 o) := by
  unfold k0_pay7
  rw [shapeCast_self]
  show matmul DD none (shapeCast S1024x1024 x shapeCasts_S1x1024x1024_S1024x1024) (shapeCast S1024x1024 w shapeCasts_S1024x1024_S1024x1024)
        (constant (F := Ideal) S1024x1024 .f32 0x00000000#32) (ix2 r o)
      + broadcastTo S1024x1024 (shapeCast S1x1024 β shapeCasts_S1024_S1x1024) broadcasts_S1x1024_S1024x1024 (ix2 r o) = _
  rw [mm_apply, broadcastTo_1b_ab_apply, shapeCast_a_1a_apply, shapeCast_self]
  refine congrArg (· + β (ix1 o)) ?_
  exact Finset.sum_congr rfl fun h _ => by rw [shapeCast_1ab_ab_apply]

/-- The key/value tile as a matrix. -/
theorem pay8_apply (k h : Fin 1024) : k0_pay8 (F := Ideal) kv (ix2 k h) = kv (ix3 0 k h) := by
  unfold k0_pay8
  exact shapeCast_1ab_ab_apply kv _ k h

/-- The scores of the tile. -/
theorem pay9_apply (r k : Fin 1024) :
    k0_pay9 (F := Ideal) q kv (ix2 r k) = ∑ h : Fin 1024, q (ix2 r h) * kv (ix3 0 k h) := by
  unfold k0_pay9
  rw [mm_apply]
  exact Finset.sum_congr rfl fun h _ => by rw [transpose_ix2_apply, pay8_apply]

/-- A running maximum updated by the row maxima of an array of scores: at row `r`, the old value against the fold of
    `max` over the row from −∞. -/
theorem max_update_apply (S : FVec Ideal S1024x1024 .f32) (mx : FVec Ideal S1024x1 .f32) (r : Fin 1024) :
    maximumf mx (shapeCast S1024x1 (multiReduction .maximumf [1] S1024 S 0xFF800000#32 reduces_S1024x1024_S1024 (.inl rfl) rfl)
        shapeCasts_S1024_S1024x1) (ix2 r 0)
      = max (mx (ix2 r 0)) ((Finset.univ : Finset (Fin 1024)).fold max ⊥ fun k => S (ix2 r k)) := by
  show max (mx (ix2 r 0)) (shapeCast S1024x1 (multiReduction .maximumf [1] S1024 S 0xFF800000#32 reduces_S1024x1024_S1024 (.inl rfl) rfl)
      shapeCasts_S1024_S1024x1 (ix2 r 0)) = _
  rw [Cert.LibColumn.shapeCast_a_a1_apply]
  refine congrArg (max (mx (ix2 r 0))) ?_
  refine (Cert.LibLane.reduceFold_max_lane_apply S reduces_S1024x1024_S1024 (Ideal.ofBits .f32 0xFF800000#32) r).trans ?_
  rw [ofBits_negInf]

/-- The new running maximum. -/
theorem pay10_apply (r : Fin 1024) :
    k0_pay10 (F := Ideal) q kv mx (ix2 r 0)
      = max (mx (ix2 r 0)) ((Finset.univ : Finset (Fin 1024)).fold max ⊥ fun k => k0_pay9 (F := Ideal) q kv (ix2 r k)) := by
  unfold k0_pay10
  exact max_update_apply (k0_pay9 (F := Ideal) q kv) mx r

/-- The rescaling factor of what was accumulated under the old maximum. -/
theorem pay11_apply (r : Fin 1024) :
    k0_pay11 (F := Ideal) q kv mx mx' (ix2 r 0) = Ideal.exp (mx' (ix2 r 0) - k0_pay10 (F := Ideal) q kv mx (ix2 r 0)) := by
  unfold k0_pay11
  rfl

/-- The weights of the tile. -/
theorem pay12_apply (r k : Fin 1024) :
    k0_pay12 (F := Ideal) q kv mx (ix2 r k)
      = Ideal.exp (k0_pay9 (F := Ideal) q kv (ix2 r k) - k0_pay10 (F := Ideal) q kv mx (ix2 r 0)) := by
  unfold k0_pay12
  show Ideal.exp (k0_pay9 (F := Ideal) q kv (ix2 r k)
      - broadcastTo S1024x1024 (k0_pay10 (F := Ideal) q kv mx) broadcasts_S1024x1_S1024x1024 (ix2 r k)) = _
  rw [Cert.LibColumn.broadcastTo_a1_ab_apply]

/-- The new denominator. -/
theorem pay13_apply (r : Fin 1024) :
    k0_pay13 (F := Ideal) q kv mx mx' l (ix2 r 0)
      = k0_pay11 (F := Ideal) q kv mx mx' (ix2 r 0) * l (ix2 r 0) + ∑ k : Fin 1024, k0_pay12 (F := Ideal) q kv mx (ix2 r k) := by
  unfold k0_pay13
  rw [shapeCast_self]
  show k0_pay11 (F := Ideal) q kv mx mx' (ix2 r 0) * l (ix2 r 0)
      + shapeCast S1024x1 (multiReduction .add [1] S1024 (k0_pay12 (F := Ideal) q kv mx) 0x00000000#32 reduces_S1024x1024_S1024 (.inl rfl) rfl)
          shapeCasts_S1024_S1024x1 (ix2 r 0) = _
  rw [Cert.LibColumn.shapeCast_a_a1_apply]
  refine congrArg (k0_pay11 (F := Ideal) q kv mx mx' (ix2 r 0) * l (ix2 r 0) + ·) ?_
  refine (Ideal.multiReduction_add_single (k0_pay12 (F := Ideal) q kv mx) 0x00000000#32 reduces_S1024x1024_S1024 (.inl rfl) rfl (ix1 r)).trans ?_
  exact Finset.sum_congr rfl fun k _ => congrArg (k0_pay12 (F := Ideal) q kv mx) (Cert.LibLane.lift_lane reduces_S1024x1024_S1024 r k)

/-- The new numerator. -/
theorem pay14_apply (r h : Fin 1024) :
    k0_pay14 (F := Ideal) q kv mx mx' acc (ix2 r h)
      = k0_pay11 (F := Ideal) q kv mx mx' (ix2 r 0) * acc (ix2 r h)
        + ∑ k : Fin 1024, k0_pay12 (F := Ideal) q kv mx (ix2 r k) * kv (ix3 0 k h) := by
  unfold k0_pay14
  show broadcastTo S1024x1024 (k0_pay11 (F := Ideal) q kv mx mx') broadcasts_S1024x1_S1024x1024 (ix2 r h) * acc (ix2 r h)
      + matmul DD none (truncf .bf16 (k0_pay12 (F := Ideal) q kv mx) bitsLt_bf16_f32) (k0_pay8 (F := Ideal) kv)
          (constant (F := Ideal) S1024x1024 .f32 0x00000000#32) (ix2 r h) = _
  rw [Cert.LibColumn.broadcastTo_a1_ab_apply, mm_apply]
  refine congrArg (k0_pay11 (F := Ideal) q kv mx mx' (ix2 r 0) * acc (ix2 r h) + ·) ?_
  exact Finset.sum_congr rfl fun k _ => by rw [pay8_apply]; rfl

/-- The quotient written to the result. -/
theorem pay3_apply (r h : Fin 1024) :
    k0_pay3 (F := Ideal) acc l (ix3 0 r h) = Ideal.div (acc (ix2 r h)) (l (ix2 r 0)) := by
  unfold k0_pay3
  rw [shapeCast_ab_1ab_apply]
  show Ideal.div (acc (ix2 r h)) (broadcastTo S1024x1024 l broadcasts_S1024x1_S1024x1024 (ix2 r h)) = _
  rw [Cert.LibColumn.broadcastTo_a1_ab_apply]

end Cert.KernelIdeal.Tile

end
-- ==== Proof.IdealTileLaw.lean ====
/-
  One query row of one (batch, query tile), over both key tiles: the body's values ARE the online-softmax quantities.

  Glue the two key tiles' scores of row `r` into one family  s : 2048 keys → extended reals  (first tile on the lower
  half, second on the upper) and likewise the values of feature `h`. Then after the first key tile the running maximum,
  denominator and numerator are the law's m1, l1, acc1 of (s, v), after the second they are m2, l2, acc2, and the stored
  result is acc2 / l2.
-/
import proofs.«152128_j19920058319181_2_alg».proof.Proof.IdealTile

set_option maxRecDepth 16384

noncomputable section

namespace Cert.KernelIdeal.Tile

open Cert.KernelIdeal Cert.KernelIdeal.Gen Cert.Attn.Law
open Idealize.ShloMosaic Idealize.ShloMosaic.ValueIdx

/-- Two families over 1024 keys glued into one over 2048. -/
def glue (f g : Fin 1024 → EReal) : Fin 2048 → EReal :=
  fun k => if h : k.val < 1024 then f ⟨k.val, h⟩ else g ⟨k.val - 1024, by omega⟩

theorem glue_lo (f g : Fin 1024 → EReal) (k : Fin 1024) : glue f g (lo k) = f k := by
  unfold glue
  rw [dif_pos (show (lo k).val < 1024 from k.isLt)]

theorem glue_hi (f g : Fin 1024 → EReal) (k : Fin 1024) : glue f g (hi k) = g k := by
  unfold glue
  rw [dif_neg (show ¬(hi k).val < 1024 from by show ¬(1024 + k.val < 1024); omega)]
  exact congrArg g (Fin.ext (show 1024 + k.val - 1024 = k.val by omega))

variable (x kv0 kv1 : FVec Ideal S1x1024x1024 .bf16) (w : FVec Ideal S1024x1024 .bf16) (β : FVec Ideal S1024 .f32)

/-- The projected query tile, and what the scratch buffers hold after the first key tile. -/
def tq : FVec Ideal S1024x1024 .bf16 := k0_pay7 (F := Ideal) x w β
def tMax : FVec Ideal S1024x1 .f32 := k0_pay2 (F := Ideal) (k0_pay10 (F := Ideal) (tq x w β) kv0 (k0_pay4 (F := Ideal)))
def tDen : FVec Ideal S1024x1 .f32 := k0_pay13 (F := Ideal) (tq x w β) kv0 (k0_pay4 (F := Ideal)) (k0_pay4 (F := Ideal)) (k0_pay5 (F := Ideal))
def tNum : FVec Ideal S1024x1024 .f32 := k0_pay1 (F := Ideal) (k0_pay14 (F := Ideal) (tq x w β) kv0 (k0_pay4 (F := Ideal)) (k0_pay4 (F := Ideal)) (k0_pay6 (F := Ideal)))
/-- The result block after the second key tile. -/
def tOut : FVec Ideal S1x1024x1024 .f32 :=
  k0_pay3 (F := Ideal)
    (k0_pay1 (F := Ideal) (k0_pay14 (F := Ideal) (tq x w β) kv1 (tMax x kv0 w β) (tMax x kv0 w β) (tNum x kv0 w β)))
    (k0_pay13 (F := Ideal) (tq x w β) kv1 (tMax x kv0 w β) (tMax x kv0 w β) (tDen x kv0 w β))

/-- Row `r`'s scores against all 2048 keys, and feature `h` of all 2048 values. -/
def rowScores (r : Fin 1024) : Fin 2048 → EReal :=
  glue (fun k => k0_pay9 (F := Ideal) (tq x w β) kv0 (ix2 r k)) (fun k => k0_pay9 (F := Ideal) (tq x w β) kv1 (ix2 r k))
def colValues (h : Fin 1024) : Fin 2048 → EReal :=
  glue (fun k => kv0 (ix3 0 k h)) (fun k => kv1 (ix3 0 k h))

theorem tMax_apply (r : Fin 1024) : tMax x kv0 w β (ix2 r 0) = m1 (rowScores x kv0 kv1 w β r) := by
  unfold tMax m1 rowScores
  rw [pay2_eq, pay10_apply, pay4_apply]
  refine congrArg (max ⊥) (congrArg (fun f => Finset.fold max ⊥ f (Finset.univ : Finset (Fin 1024))) (funext fun k => ?_))
  rw [glue_lo]

theorem max2_apply (r : Fin 1024) :
    k0_pay10 (F := Ideal) (tq x w β) kv1 (tMax x kv0 w β) (ix2 r 0) = m2 (rowScores x kv0 kv1 w β r) := by
  unfold m2
  rw [pay10_apply, tMax_apply x kv0 kv1 w β r]
  refine congrArg (max (m1 (rowScores x kv0 kv1 w β r))) (congrArg (fun f => Finset.fold max ⊥ f (Finset.univ : Finset (Fin 1024))) (funext fun k => ?_))
  unfold rowScores; rw [glue_hi]

theorem a1_apply (r : Fin 1024) :
    k0_pay11 (F := Ideal) (tq x w β) kv0 (k0_pay4 (F := Ideal)) (k0_pay4 (F := Ideal)) (ix2 r 0) = a1 (rowScores x kv0 kv1 w β r) := by
  unfold a1
  rw [pay11_apply, pay4_apply]
  have h := tMax_apply x kv0 kv1 w β r
  unfold tMax at h; rw [pay2_eq] at h
  rw [h]

theorem p1_apply (r k : Fin 1024) :
    k0_pay12 (F := Ideal) (tq x w β) kv0 (k0_pay4 (F := Ideal)) (ix2 r k)
      = Ideal.exp (rowScores x kv0 kv1 w β r (lo k) - m1 (rowScores x kv0 kv1 w β r)) := by
  rw [pay12_apply]
  have h := tMax_apply x kv0 kv1 w β r
  unfold tMax at h; rw [pay2_eq] at h
  rw [h]
  unfold rowScores; rw [glue_lo]

theorem tDen_apply (r : Fin 1024) : tDen x kv0 w β (ix2 r 0) = l1 (rowScores x kv0 kv1 w β r) := by
  unfold tDen l1
  rw [pay13_apply, a1_apply x kv0 kv1 w β r, pay5_apply]
  refine congrArg (a1 (rowScores x kv0 kv1 w β r) * 0 + ·) (Finset.sum_congr rfl fun k _ => ?_)
  exact p1_apply x kv0 kv1 w β r k

theorem tNum_apply (r h : Fin 1024) :
    tNum x kv0 w β (ix2 r h) = acc1 (rowScores x kv0 kv1 w β r) (colValues kv0 kv1 h) := by
  unfold tNum acc1
  rw [pay1_eq, pay14_apply, a1_apply x kv0 kv1 w β r, pay6_apply]
  refine congrArg (a1 (rowScores x kv0 kv1 w β r) * 0 + ·) (Finset.sum_congr rfl fun k _ => ?_)
  rw [p1_apply x kv0 kv1 w β r k]
  unfold colValues; rw [glue_lo]

theorem a2_apply (r : Fin 1024) :
    k0_pay11 (F := Ideal) (tq x w β) kv1 (tMax x kv0 w β) (tMax x kv0 w β) (ix2 r 0) = a2 (rowScores x kv0 kv1 w β r) := by
  unfold a2
  rw [pay11_apply, max2_apply x kv0 kv1 w β r, tMax_apply x kv0 kv1 w β r]

theorem p2_apply (r k : Fin 1024) :
    k0_pay12 (F := Ideal) (tq x w β) kv1 (tMax x kv0 w β) (ix2 r k)
      = Ideal.exp (rowScores x kv0 kv1 w β r (hi k) - m2 (rowScores x kv0 kv1 w β r)) := by
  rw [pay12_apply, max2_apply x kv0 kv1 w β r]
  unfold rowScores; rw [glue_hi]

/-- THE TILE'S RESULT at row `r`, feature `h`: the online quotient of the glued scores and values. -/
theorem tOut_apply (r h : Fin 1024) :
    tOut x kv0 kv1 w β (ix3 0 r h)
      = Ideal.div (acc2 (rowScores x kv0 kv1 w β r) (colValues kv0 kv1 h)) (l2 (rowScores x kv0 kv1 w β r)) := by
  unfold tOut
  rw [pay3_apply, pay1_eq, pay14_apply, pay13_apply, a2_apply x kv0 kv1 w β r, tNum_apply x kv0 kv1 w β r h, tDen_apply x kv0 kv1 w β r]
  unfold acc2 l2
  refine congrArg₂ Ideal.div (congrArg (_ + ·) (Finset.sum_congr rfl fun k _ => ?_)) (congrArg (_ + ·) (Finset.sum_congr rfl fun k _ => ?_))
  · rw [p2_apply x kv0 kv1 w β r k]; unfold colValues; rw [glue_hi]
  · exact p2_apply x kv0 kv1 w β r k

end Cert.KernelIdeal.Tile

end
-- ==== Proof.FiniteInputs.lean ====
/-
  The precondition "every float input is finite", read back: if the printed predicate
  `Cert.Pre_finite_inputs.fn` evaluates to the all-ones bit on the three argument arrays (at the
  extended-real instance), then every entry of each array is a real number (neither `⊥` nor `⊤`).

  The predicate is, per array `x`: `|x| < +∞` elementwise, reduced by `and` over every axis; the three
  results are then `and`-ed. Reading it back: a conjunction of bits is 1 iff both are; a reduction by
  `and` from 1 that gives 1 met only 1s; the element bit is the order comparison `max x (-x) < ⊤` on
  the extended reals (the word `0x7F800000` denotes `⊤`); and an extended real whose absolute value is
  below `⊤` is a coerced real.
-/
import proofs.«152128_j19920058319181_2_alg».proof.Pre_finite_inputs
import proofs.«152128_j19920058319181_2_alg».proof.Proof.Gen.Pre_finite_inputs
import Idealize.ShloMosaic.PureOps.Ideal
import Idealize.ShloMosaic.Lib.ReduceAll
import Idealize.ShloMosaic.Lib.ValueIdx
import Idealize.ShloMosaic.Lib.IdealHost

namespace Cert.Attn.Finite

open Idealize.ShloMosaic Idealize.ShloMosaic.ValueIdx

/-- The scalar shape has a single index. -/
instance subsingleton_scalar_idx : Subsingleton Cert.Pre_finite_inputs.S_.Idx :=
  ⟨fun a b => funext fun d => d.elim0⟩

/-- The f32 word `0x7F800000` (sign 0, exponent all ones, fraction 0) denotes `+∞`. -/
theorem ofBits_pos_inf : Ideal.ofBits .f32 0x7F800000#32 = (⊤ : EReal) := by
  simp [Ideal.ofBits, Ideal.ieee]

/-- An extended real whose absolute value `max x (-x)` is below `⊤` is a real number:
    at `⊥` the absolute value is `-⊥ = ⊤`, at `⊤` it is `⊤` itself. -/
theorem real_of_abs_lt_top (x : EReal) (h : max x (-x) < ⊤) : ∃ r : ℝ, x = (r : EReal) := by
  induction x using EReal.rec with
  | bot => simp at h
  | coe r => exact ⟨r, rfl⟩
  | top => simp at h

/-- A Boolean's bit is 1 exactly when the Boolean is true. -/
theorem ofBool_eq_one {b : Bool} : BitVec.ofBool b = 1#1 ↔ b = true := by cases b <;> decide

/-- The element fact: the comparison bit `|x| < +∞` being 1 makes `x` a real number. -/
theorem real_of_cmp_abs_inf (x : EReal)
    (h : Ideal.cmp .olt (max x (-x)) (Ideal.ofBits .f32 0x7F800000#32) = 1#1) : ∃ r : ℝ, x = (r : EReal) := by
  rw [ofBits_pos_inf] at h
  have hb : BitVec.ofBool (decide (max x (-x) < (⊤ : EReal))) = 1#1 := h
  exact real_of_abs_lt_top x (of_decide_eq_true (ofBool_eq_one.1 hb))

/-- One array, any shape: if `|x| < +∞` elementwise, reduced by `and` over all axes into the scalar
    shape, is 1, then every entry of `x` is a real number. -/
theorem reals_of_reduce_all {s : Shape} {axes : List (Fin s.rank)} (x : FVec Ideal s .f32)
    (hb : Cert.Pre_finite_inputs.S_.BroadcastsInDim s (![] : Fin 0 → Fin s.rank))
    (hr : s.ReducesTo axes Cert.Pre_finite_inputs.S_) (hu : 0 < Cert.Pre_finite_inputs.S_.numel)
    (init : IVec Cert.Pre_finite_inputs.S_ 1) (j : Cert.Pre_finite_inputs.S_.Idx)
    (e : Host.reduce IntOp.andi
          (cmpf .olt (Host.absf x) (broadcastInDim s ![] hb (constant Cert.Pre_finite_inputs.S_ .f32 0x7F800000#32)))
          init hr hu j = 1#1) :
    ∀ i, ∃ r : ℝ, x i = (r : EReal) := by
  intro i
  have hi := Host.reduce_andi_all _ init hr hu j e i
  rw [cmpf_apply, broadcastInDim_scalar_apply, constant_apply] at hi
  exact real_of_cmp_abs_inf (x i) hi

/-- The precondition read back: all three argument arrays hold real numbers only. -/
theorem reals_of_finite (x0 : FVec Ideal Cert.Pre_finite_inputs.S8x2048x1024 .f32)
    (x1 : FVec Ideal Cert.Pre_finite_inputs.S1024x1024 .f32) (x2 : FVec Ideal Cert.Pre_finite_inputs.S1024 .f32)
    (h : Cert.Pre_finite_inputs.fn (F := Ideal) x0 x1 x2 = (fun _ => 1#1)) :
    (∀ i, ∃ r : ℝ, x0 i = (r : EReal)) ∧ (∀ i, ∃ r : ℝ, x1 i = (r : EReal)) ∧ (∀ i, ∃ r : ℝ, x2 i = (r : EReal)) := by
  have h0 := congrFun h ix0
  dsimp only [Cert.Pre_finite_inputs.fn] at h0
  obtain ⟨h01, h2⟩ := IntOp.andi_eq_one.1 h0
  obtain ⟨h0', h1⟩ := IntOp.andi_eq_one.1 h01
  exact ⟨reals_of_reduce_all x0 _ _ _ _ _ h0', reals_of_reduce_all x1 _ _ _ _ _ h1,
    reals_of_reduce_all x2 _ _ _ _ _ h2⟩

end Cert.Attn.Finite
-- ==== Proof.IdealValue.lean ====
/-
  The value of the fused attention kernel over the extended reals: after the run the result array is the
  specification's attention output of the three argument arrays, entry by entry, when these are finite.

  The region's arrays are the arguments up to a change of format (the identity here) and a transpose of the weights.
  Point `t` of the grid is batch `t / 4`, query tile `(t / 2) % 2`, key tile `t % 2`; the block an odd point writes
  back is the tile's result for both key tiles, whose rows are the online-softmax quotients of that row's scores
  against all 2048 positions; with real scores and values that quotient is the softmax-weighted sum of the values. The
  odd points' blocks tile the result array.
-/
import proofs.«152128_j19920058319181_2_alg».proof.Proof.IdealFrame
import proofs.«152128_j19920058319181_2_alg».proof.Proof.Spec
import Idealize.ShloMosaic.Lib.StableHlo.Run
import Idealize.ShloMosaic.Lib.Pipeline.Value
import Idealize.ShloMosaic.Lib.ValueIdx
import proofs.«152128_j19920058319181_2_alg».proof.Proof.IdealPieces
import proofs.«152128_j19920058319181_2_alg».proof.Proof.IdealTileLaw
import proofs.«152128_j19920058319181_2_alg».proof.Proof.FiniteInputs
set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx Idealize.ShloMosaic.StableHlo
open Idealize.SL Idealize.SL.Sem
open Idealize.ShloMosaic.Pipeline (Dat Cfg Window)

variable (m : (ℓ : Loc nD τ sig) → Buf (Elt Ideal) ℓ) (ρ : Dev nD → PrngReg)

/-! ## The arrays as the region finds them -/

/-- The bf16 copy of the inputs is the inputs (a change of format is the identity over the extended reals). -/
theorem V_v0 (c : Dev nD) : (V m c main_v0 : S8x2048x1024.Idx → EReal) = (m ((c.tc : Thread nD τ).loc main_arg0) : S8x2048x1024.Idx → EReal) := by
  dsimp only [V, hostOps0]; after_results; rfl

/-- The weights' operand is their transpose. -/
theorem V_v2 (c : Dev nD) : (V m c main_v2 : S1024x1024.Idx → EReal)
    = transpose S1024x1024 [1, 0] (m ((c.tc : Thread nD τ).loc main_arg1) : S1024x1024.Idx → EReal) transposes_S1024x1024_S1024x1024_1_0 := by
  dsimp only [V, hostOps0]; after_results; rfl

/-- The host lines before the region leave the three arguments as they were. -/
theorem V_arg0 (c : Dev nD) : V m c main_arg0 = m ((c.tc : Thread nD τ).loc main_arg0) := by
  dsimp only [V, hostOps0]; after_results; try rfl
theorem V_arg1 (c : Dev nD) : V m c main_arg1 = m ((c.tc : Thread nD τ).loc main_arg1) := by
  dsimp only [V, hostOps0]; after_results; try rfl
theorem V_arg2 (c : Dev nD) : V m c main_arg2 = m ((c.tc : Thread nD τ).loc main_arg2) := by
  dsimp only [V, hostOps0]; after_results; try rfl

/-- The three argument arrays on core `c`. -/
abbrev aX (c : Dev nD) : Cert.Attn.SX.Idx → EReal := m ((c.tc : Thread nD τ).loc main_arg0)
abbrev aW (c : Dev nD) : Cert.Attn.SW.Idx → EReal := m ((c.tc : Thread nD τ).loc main_arg1)
abbrev aB (c : Dev nD) : Cert.Attn.SB.Idx → EReal := m ((c.tc : Thread nD τ).loc main_arg2)

/-! ## The index maps and the blocks -/

/-- The printed index maps in closed form over the grid: point `t` is batch `t / 4`, query tile `(t / 2) % 2`, key tile `t % 2`. -/
theorem idx_facts : ∀ t : Fin cfg0.N,
    win0_0.index t (0 : Fin 3) = t.val / 4 ∧ win0_0.index t (1 : Fin 3) = (t.val / 2) % 2 ∧ win0_0.index t (2 : Fin 3) = 0
    ∧ win0_1.index t (0 : Fin 3) = t.val / 4 ∧ win0_1.index t (1 : Fin 3) = t.val % 2 ∧ win0_1.index t (2 : Fin 3) = 0
    ∧ win0_2.index t (0 : Fin 2) = 0 ∧ win0_2.index t (1 : Fin 2) = 0
    ∧ win0_3.index t (0 : Fin 1) = 0
    ∧ win0_4.index t (0 : Fin 3) = t.val / 4 ∧ win0_4.index t (1 : Fin 3) = (t.val / 2) % 2 ∧ win0_4.index t (2 : Fin 3) = 0 :=
  (by decide +kernel : ∀ t : Fin grid0.N, _)

/-- The query tile's source block at point `t`: position `r` of the tile is position `(t / 2 % 2)·1024 + r` of batch `t / 4`. -/
theorem iblk0_apply (c : Dev nD) (t : Fin cfg0.N) (r h : Fin 1024) (b : Fin 8) (s : Fin 2048)
    (hb : b.val = t.val / 4) (hs : s.val = (t.val / 2) % 2 * 1024 + r.val) :
    (iblk m c 0 t : Vec Ideal S1x1024x1024 .bf16) (ix3 0 r h) = aX m c (ix3 b s h) := by
  obtain ⟨e0, e1, e2, -⟩ := idx_facts t
  show (V m c main_v0 : S8x2048x1024.Idx → EReal) (((cfg0.win 0).blk t).view.emb (ix3 0 r h)) = _
  rw [V_v0]
  refine congrArg _ (funext fun a => Fin.ext ?_)
  match a with
  | ⟨0, _⟩ => show win0_0.index t (0 : Fin 3) * 1 + 1 * 0 = b.val; omega
  | ⟨1, _⟩ => show win0_0.index t (1 : Fin 3) * 1024 + 1 * r.val = s.val; omega
  | ⟨2, _⟩ => show win0_0.index t (2 : Fin 3) * 1024 + 1 * h.val = h.val; omega

/-- The key/value block at point `t`: position `k` of the tile is position `(t % 2)·1024 + k` of batch `t / 4`. -/
theorem iblk1_apply (c : Dev nD) (t : Fin cfg0.N) (k h : Fin 1024) (b : Fin 8) (s : Fin 2048)
    (hb : b.val = t.val / 4) (hs : s.val = t.val % 2 * 1024 + k.val) :
    (iblk m c 1 t : Vec Ideal S1x1024x1024 .bf16) (ix3 0 k h) = aX m c (ix3 b s h) := by
  obtain ⟨-, -, -, e0, e1, e2, -⟩ := idx_facts t
  show (V m c main_v0 : S8x2048x1024.Idx → EReal) (((cfg0.win 1).blk t).view.emb (ix3 0 k h)) = _
  rw [V_v0]
  refine congrArg _ (funext fun a => Fin.ext ?_)
  match a with
  | ⟨0, _⟩ => show win0_1.index t (0 : Fin 3) * 1 + 1 * 0 = b.val; omega
  | ⟨1, _⟩ => show win0_1.index t (1 : Fin 3) * 1024 + 1 * k.val = s.val; omega
  | ⟨2, _⟩ => show win0_1.index t (2 : Fin 3) * 1024 + 1 * h.val = h.val; omega

/-- The weights' block is the whole transposed array: entry `(h, o)` is the weights' entry `(o, h)`. -/
theorem iblk2_apply (c : Dev nD) (t : Fin cfg0.N) (h o : Fin 1024) :
    (iblk m c 2 t : Vec Ideal S1024x1024 .bf16) (ix2 h o) = aW m c (ix2 o h) := by
  obtain ⟨-, -, -, -, -, -, e0, e1, -⟩ := idx_facts t
  show (V m c main_v2 : S1024x1024.Idx → EReal) (((cfg0.win 2).blk t).view.emb (ix2 h o)) = _
  rw [V_v2]
  have e : ((cfg0.win 2).blk t).view.emb (ix2 h o) = ix2 h o := funext fun a => Fin.ext (by
    match a with
    | ⟨0, _⟩ => show win0_2.index t (0 : Fin 2) * 1024 + 1 * h.val = h.val; omega
    | ⟨1, _⟩ => show win0_2.index t (1 : Fin 2) * 1024 + 1 * o.val = o.val; omega)
  rw [e]
  exact transpose_ix2_apply _ _ h o

/-- The bias's block is the whole bias. -/
theorem iblk3_apply (c : Dev nD) (t : Fin cfg0.N) (o : Fin 1024) :
    (iblk m c 3 t : Vec Ideal S1024 .f32) (ix1 o) = aB m c (ix1 o) := by
  obtain ⟨-, -, -, -, -, -, -, -, e0, -⟩ := idx_facts t
  show V m c main_arg2 (((cfg0.win 3).blk t).view.emb (ix1 o)) = _
  rw [V_arg2]
  refine congrArg _ (funext fun a => Fin.ext ?_)
  match a with
  | ⟨0, _⟩ => show win0_3.index t (0 : Fin 1) * 1024 + 1 * o.val = o.val; omega

/-! ## Reals stay real -/

theorem real_add {a b : EReal} (ha : ∃ r : ℝ, a = r) (hb : ∃ r : ℝ, b = r) : ∃ r : ℝ, a + b = r := by
  obtain ⟨x, rfl⟩ := ha; obtain ⟨y, rfl⟩ := hb; exact ⟨x + y, (EReal.coe_add x y).symm⟩
theorem real_mul {a b : EReal} (ha : ∃ r : ℝ, a = r) (hb : ∃ r : ℝ, b = r) : ∃ r : ℝ, a * b = r := by
  obtain ⟨x, rfl⟩ := ha; obtain ⟨y, rfl⟩ := hb; exact ⟨x * y, (EReal.coe_mul x y).symm⟩
theorem real_sum {ι : Type} (t : Finset ι) (f : ι → EReal) (h : ∀ k, ∃ r : ℝ, f k = r) : ∃ r : ℝ, ∑ k ∈ t, f k = r := by
  choose g hg using h
  exact ⟨∑ k ∈ t, g k, by rw [← Cert.Attn.Law.coe_sum]; exact Finset.sum_congr rfl fun k _ => hg k⟩

/-- With real inputs, weights and bias every score is real. -/
theorem score_real (X : Cert.Attn.SX.Idx → EReal) (W : Cert.Attn.SW.Idx → EReal) (β : Cert.Attn.SB.Idx → EReal)
    (hX : ∀ i, ∃ r : ℝ, X i = r) (hW : ∀ i, ∃ r : ℝ, W i = r) (hB : ∀ i, ∃ r : ℝ, β i = r) (b : Fin 8) (q k : Fin 2048) :
    ∃ r : ℝ, Cert.Attn.score X W β b q k = r := by
  unfold Cert.Attn.score Cert.Attn.proj
  exact real_sum _ _ fun h => real_mul (real_add (real_sum _ _ fun h' => real_mul (hX _) (hW _)) (hB _)) (hX _)

/-! ## One point's result block -/

/-- The projected query tile of the (batch, query tile) of point `t`, entry `(r, o)`: the specification's projection
    of position `(t / 2 % 2)·1024 + r` of batch `t / 4`. -/
theorem tq_apply (c : Dev nD) (t : Fin cfg0.N) (r o : Fin 1024) (b : Fin 8) (q : Fin 2048)
    (hb : b.val = t.val / 4) (hq : q.val = (t.val / 2) % 2 * 1024 + r.val) :
    Tile.tq (iblk m c 0 t : Vec Ideal S1x1024x1024 .bf16) (iblk m c 2 t : Vec Ideal S1024x1024 .bf16) (iblk m c 3 t : Vec Ideal S1024 .f32) (ix2 r o)
      = Cert.Attn.proj (aX m c) (aW m c) (aB m c) b q o := by
  unfold Tile.tq Cert.Attn.proj
  rw [Tile.pay7_apply, iblk3_apply]
  refine congrArg (· + aB m c (ix1 o)) (Finset.sum_congr rfl fun h _ => ?_)
  rw [iblk0_apply m c t r h b q hb hq, iblk2_apply]

set_option maxHeartbeats 1000000 in
/-- THE RESULT BLOCK of an odd point, entry by entry: the specification's output at position
    `(t / 2 % 2)·1024 + r` of batch `t / 4`, for real inputs, weights and bias. The glued scores of the two key tiles
    are the row of scores against all 2048 positions, the glued values are feature `h` of all positions, and the online
    quotient of real scores and values is the softmax-weighted sum. -/
theorem outOdd_apply (c : Dev nD)
    (hX : ∀ i, ∃ r : ℝ, aX m c i = r) (hW : ∀ i, ∃ r : ℝ, aW m c i = r) (hB : ∀ i, ∃ r : ℝ, aB m c i = r)
    (t : Fin cfg0.N) (h1 : t.val % 2 = 1) (r h : Fin 1024) (b : Fin 8) (q : Fin 2048)
    (hb : b.val = t.val / 4) (hq : q.val = (t.val / 2) % 2 * 1024 + r.val) :
    outOdd m c t.val t.isLt h1 (ix3 0 r h) = Cert.Attn.attend (aX m c) (aW m c) (aB m c) (ix3 b q h) := by
  have hN : t.val < 32 := lt_of_lt_of_eq t.isLt N_0
  have hb' : b.val = (t.val - 1) / 4 := by omega
  have hq' : q.val = ((t.val - 1) / 2) % 2 * 1024 + r.val := by omega
  have e : outOdd m c t.val t.isLt h1
      = Tile.tOut (iblk m c 0 ⟨t.val - 1, by omega⟩ : Vec Ideal S1x1024x1024 .bf16) (iblk m c 1 ⟨t.val - 1, by omega⟩ : Vec Ideal S1x1024x1024 .bf16)
          (iblk m c 1 t : Vec Ideal S1x1024x1024 .bf16) (iblk m c 2 ⟨t.val - 1, by omega⟩ : Vec Ideal S1024x1024 .bf16)
          (iblk m c 3 ⟨t.val - 1, by omega⟩ : Vec Ideal S1024 .f32) := by
    rw [outOdd_eq, qEven_eq, maxEven_eq, denEven_eq, numEven_eq]
    rfl
  rw [e, Tile.tOut_apply]
  have hS : Tile.rowScores (iblk m c 0 ⟨t.val - 1, by omega⟩ : Vec Ideal S1x1024x1024 .bf16) (iblk m c 1 ⟨t.val - 1, by omega⟩ : Vec Ideal S1x1024x1024 .bf16)
      (iblk m c 1 t : Vec Ideal S1x1024x1024 .bf16) (iblk m c 2 ⟨t.val - 1, by omega⟩ : Vec Ideal S1024x1024 .bf16)
      (iblk m c 3 ⟨t.val - 1, by omega⟩ : Vec Ideal S1024 .f32) r
      = fun k => Cert.Attn.score (aX m c) (aW m c) (aB m c) b q k := by
    funext k
    unfold Tile.rowScores Tile.glue Cert.Attn.score
    by_cases hk : k.val < 1024
    · rw [dif_pos hk]
      beta_reduce
      rw [Tile.pay9_apply]
      refine Finset.sum_congr rfl fun hh _ => ?_
      rw [tq_apply m c ⟨t.val - 1, by omega⟩ r hh b q hb' hq',
        iblk1_apply m c ⟨t.val - 1, by omega⟩ ⟨k.val, hk⟩ hh b k hb' (by show k.val = (t.val - 1) % 2 * 1024 + k.val; omega)]
    · rw [dif_neg hk]
      beta_reduce
      rw [Tile.pay9_apply]
      refine Finset.sum_congr rfl fun hh _ => ?_
      rw [tq_apply m c ⟨t.val - 1, by omega⟩ r hh b q hb' hq',
        iblk1_apply m c t ⟨k.val - 1024, by omega⟩ hh b k hb (by show k.val = t.val % 2 * 1024 + (k.val - 1024); omega)]
  have hV : Tile.colValues (iblk m c 1 ⟨t.val - 1, by omega⟩ : Vec Ideal S1x1024x1024 .bf16) (iblk m c 1 t : Vec Ideal S1x1024x1024 .bf16) h
      = fun k => aX m c (ix3 b k h) := by
    funext k
    unfold Tile.colValues Tile.glue
    by_cases hk : k.val < 1024
    · rw [dif_pos hk]
      exact iblk1_apply m c ⟨t.val - 1, by omega⟩ ⟨k.val, hk⟩ h b k hb' (by show k.val = (t.val - 1) % 2 * 1024 + k.val; omega)
    · rw [dif_neg hk]
      exact iblk1_apply m c t ⟨k.val - 1024, by omega⟩ h b k hb (by show k.val = t.val % 2 * 1024 + (k.val - 1024); omega)
  rw [hS, hV, Cert.Attn.Law.online_two_tiles _ _ (fun k => score_real _ _ _ hX hW hB b q k) (fun k => hX _)]
  rfl

/-! ## From blocks to the array -/

/-- An index of the result array is in point `t`'s block iff each coordinate is in the block's range on its axis. -/
theorem mem_blk4 (t : Fin cfg0.N) (i : S8x2048x1024.Idx) :
    i ∈ ((cfg0.win 4).blk t).view.set ↔ ∀ a : Fin 3, win0_4.index t a * S1x1024x1024.size a ≤ (i a).val
      ∧ (i a).val < win0_4.index t a * S1x1024x1024.size a + S1x1024x1024.size a := by
  show i ∈ ((View.whole main_v3).slice (win0_4.rect t)).set ↔ _
  rw [View.set_slice_whole, Rect.mem_set_unit]
  exact Iff.rfl

/-- WHAT A POINT WRITES BACK is its block of the specification's output of the argument arrays. -/
theorem flushed4_eq (c : Dev nD)
    (hX : ∀ i, ∃ r : ℝ, aX m c i = r) (hW : ∀ i, ∃ r : ℝ, aW m c i = r) (hB : ∀ i, ∃ r : ℝ, aB m c i = r)
    (t : Fin cfg0.N) (hf : (cfg0.win 4).flush t = true) :
    (dats m 0 c).flushed 4 t = ((cfg0.win 4).blk t).view.read (Elt Ideal) (Cert.Attn.attend (aX m c) (aW m c) (aB m c)) := by
  have h1 : t.val % 2 = 1 := (flush0_4 t).mp hf
  have hN : t.val < 32 := lt_of_lt_of_eq t.isLt N_0
  obtain ⟨-, -, -, -, -, -, -, -, -, e0, e1, e2⟩ := idx_facts t
  show (cfg0.win 4).cut (grid0.coords t) ((dats m 0 c).after 4 t) = _
  rw [after4_odd m c t h1]
  funext j
  have hj0 : (j 0).val = 0 := by have hlt : (j 0).val < 1 := (j 0).isLt; omega
  have hj1 : (j 1).val < 1024 := (j 1).isLt
  show outOdd m c t.val t.isLt h1 j = Cert.Attn.attend (aX m c) (aW m c) (aB m c) (((cfg0.win 4).blk t).view.emb j)
  have ej : j = ix3 (0 : Fin 1) (j 1) (j 2) := funext fun a => by
    match a with
    | ⟨0, _⟩ => exact Fin.ext hj0
    | ⟨1, _⟩ => rfl
    | ⟨2, _⟩ => rfl
  have eb : ((cfg0.win 4).blk t).view.emb j
      = ix3 (⟨t.val / 4, by omega⟩ : Fin 8) (⟨(t.val / 2) % 2 * 1024 + (j 1).val, by omega⟩ : Fin 2048) (j 2) := funext fun a => Fin.ext (by
    match a with
    | ⟨0, _⟩ => show win0_4.index t (0 : Fin 3) * 1 + 1 * (j 0).val = t.val / 4; omega
    | ⟨1, _⟩ => show win0_4.index t (1 : Fin 3) * 1024 + 1 * (j 1).val = (t.val / 2) % 2 * 1024 + (j 1).val; omega
    | ⟨2, _⟩ => show win0_4.index t (2 : Fin 3) * 1024 + 1 * (j 2).val = (j 2).val; omega)
  rw [eb]
  refine (congrArg (outOdd m c t.val t.isLt h1) ej).trans ?_
  exact outOdd_apply m c hX hW hB t h1 (j 1) (j 2) _ _ rfl rfl

/-- Every index of the result array is in the block of the odd point of its batch and query tile. -/
theorem cover4 (i : S8x2048x1024.Idx) : ∃ t : Fin cfg0.N, (cfg0.win 4).flush t = true ∧ i ∈ ((cfg0.win 4).blk t).view.set := by
  have hi0 : (i 0).val < 8 := (i 0).isLt
  have hi1 : (i 1).val < 2048 := (i 1).isLt
  have hi2 : (i 2).val < 1024 := (i 2).isLt
  have hN : cfg0.N = 32 := N_0
  obtain ⟨t, ht⟩ : ∃ t : Fin cfg0.N, t.val = 4 * (i 0).val + 2 * ((i 1).val / 1024) + 1 :=
    ⟨⟨4 * (i 0).val + 2 * ((i 1).val / 1024) + 1, by omega⟩, rfl⟩
  obtain ⟨-, -, -, -, -, -, -, -, -, e0, e1, e2⟩ := idx_facts t
  refine ⟨t, (flush0_4 t).mpr (by omega), ?_⟩
  rw [mem_blk4]
  intro a
  match a with
  | ⟨0, _⟩ => show win0_4.index t (0 : Fin 3) * 1 ≤ (i 0).val ∧ (i 0).val < win0_4.index t (0 : Fin 3) * 1 + 1; omega
  | ⟨1, _⟩ => show win0_4.index t (1 : Fin 3) * 1024 ≤ (i 1).val ∧ (i 1).val < win0_4.index t (1 : Fin 3) * 1024 + 1024; omega
  | ⟨2, _⟩ => show win0_4.index t (2 : Fin 3) * 1024 ≤ (i 2).val ∧ (i 2).val < win0_4.index t (2 : Fin 3) * 1024 + 1024; omega

/-- THE RESULT ARRAY after the run: the specification's output of the argument arrays. -/
theorem final4 (c : Dev nD)
    (hX : ∀ i, ∃ r : ℝ, aX m c i = r) (hW : ∀ i, ∃ r : ℝ, aW m c i = r) (hB : ∀ i, ∃ r : ℝ, aB m c i = r) :
    (dats m 0 c).arrAt 4 cfg0.N = Cert.Attn.attend (aX m c) (aW m c) (aB m c) :=
  (dats m 0 c).arrAt_eq_of_cover 4 _ (fun t hf => flushed4_eq m c hX hW hB t hf) cover4

/-! ## The run, read -/

/-- The run re-posted, for inputs, weights and bias that are finite on every core: the result array is the
    specification's output of the argument arrays, and the arguments are unchanged. -/
theorem run_value
    (hpre : ∀ c : Dev nD, Cert.Pre_finite_inputs.fn (F := Ideal) (m ((c.tc : Thread nD τ).loc main_arg0)) (m ((c.tc : Thread nD τ).loc main_arg1))
      (m ((c.tc : Thread nD τ).loc main_arg2)) = (fun _ => 1#1)) :
    θ_run defs (onTc (τ := τ) (main (F := Ideal))) ⟨m, fun _ => 0, ρ⟩ fun r => ∀ c : Dev nD,
      r.2.mem ((c.tc : Thread nD τ).loc main_v3) = Cert.Attn.attend (aX m c) (aW m c) (aB m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c => by
    obtain ⟨hX, hW, hB⟩ := Cert.Attn.Finite.reals_of_finite _ _ _ (hpre c)
    exact ⟨((h c).1 4).trans (final4 m c hX hW hB),
      ((h c).2 main_arg0 (Pipeline.mem_restRefs_of main_arg0 rfl (by decide))).trans (V_arg0 m c),
      ((h c).2 main_arg1 (Pipeline.mem_restRefs_of main_arg1 rfl (by decide))).trans (V_arg1 m c),
      ((h c).1 3).trans (((dats m 0 c).arrAt_in 3 rfl _).trans ((A_eq m c 3).trans (V_arg2 m c)))⟩)
    (run_main m ρ)

end Cert.KernelIdeal.Hand

end
-- ==== Proof.RefValue.lean ====
/-
  The reference program's result, read at an index, is the specification function.

  Each intermediate array of the reference is read at an index and identified with one function of the specification:
  the biased projection with proj, the first contraction with score, the reduction by maximum (joined with the
  array of −∞) with rowMax, the exponential of the shifted score with weight, the reduction by sum with denom,
  the quotient with the normalised weight, and the last contraction with attend.
-/
import proofs.«152128_j19920058319181_2_alg».proof.Proof.Gen.ReferenceIdeal.Read
import proofs.«152128_j19920058319181_2_alg».proof.Proof.Spec
import Idealize.ShloMosaic.Lib.ValueIdx
import Idealize.ShloMosaic.Lib.Pipeline.Value
import Idealize.ShloMosaic.PureOps.Ideal.Laws
import Idealize.ShloMosaic.Lib.StableHlo.Run

noncomputable section

namespace Cert.ReferenceIdeal.RefValue

open Cert.ReferenceIdeal Cert.ReferenceIdeal.Gen Cert.ReferenceIdeal.Read Idealize.ShloMosaic Idealize.ShloMosaic.ValueIdx
  Idealize.ShloMosaic.TcCoe Idealize.SL.Sem Idealize.ShloMosaic.StableHlo

/-- The word of −∞ is the bottom element of the extended reals. -/
theorem ofBits_negInf : Ideal.ofBits .f32 0xFF800000#32 = (⊥ : EReal) := by
  simp [Ideal.ofBits, Ideal.ieee]

variable (x0 : (⟨S8x2048x1024, .f32⟩ : BufTy).Contents (Elt Ideal))
  (x1 : (⟨S1024x1024, .f32⟩ : BufTy).Contents (Elt Ideal))
  (x2 : (⟨S1024, .f32⟩ : BufTy).Contents (Elt Ideal))

/-- The biased projection, at (b, s, o), is proj. -/
theorem v3_apply (b : Fin 8) (s : Fin 2048) (o : Fin 1024) :
    val_main_v3 (F := Ideal) x0 x1 x2 (ix3 b s o) = Cert.Attn.proj x0 x1 x2 b s o := by
  rw [val_main_v3_apply, val_main_v0_apply, val_main_v2_apply, val_main_v1_apply]
  have e1 : idx_main_v1 (idx_main_v2 (ix3 b s o)) = ix1 o :=
    funext fun a => Fin.ext (by match a with | ⟨0, _⟩ => rfl)
  have el : ∀ k : Fin 1024, lidx_main_v0 (ix3 b s o) k = ix3 b s k := fun k =>
    funext fun a => Fin.ext (by match a with | ⟨0, _⟩ => rfl | ⟨1, _⟩ => rfl | ⟨2, _⟩ => rfl)
  have er : ∀ k : Fin 1024, ridx_main_v0 (ix3 b s o) k = ix2 o k := fun k =>
    funext fun a => Fin.ext (by match a with | ⟨0, _⟩ => rfl | ⟨1, _⟩ => rfl)
  simp only [e1, el, er, Ideal.addf_def]
  rfl

/-- The first contraction, at (b, q, k), is score. -/
theorem v4_apply (b : Fin 8) (q k : Fin 2048) :
    val_main_v4 (F := Ideal) x0 x1 x2 (ix3 b q k) = Cert.Attn.score x0 x1 x2 b q k := by
  rw [val_main_v4_apply]
  unfold Cert.Attn.score
  refine Finset.sum_congr rfl fun h _ => ?_
  have el : lidx_main_v4 (ix3 b q k) h = ix3 b q h :=
    funext fun a => Fin.ext (by match a with | ⟨0, _⟩ => rfl | ⟨1, _⟩ => rfl | ⟨2, _⟩ => rfl)
  have er : ridx_main_v4 (ix3 b q k) h = ix3 b k h :=
    funext fun a => Fin.ext (by match a with | ⟨0, _⟩ => rfl | ⟨1, _⟩ => rfl | ⟨2, _⟩ => rfl)
  rw [el, er, v3_apply]

/-- The reduced index (b, q) with coordinate k put back on the last axis is (b, q, k). -/
theorem lift_ix2 (h : S8x2048x2048.Reduces [2] S8x2048) (b : Fin 8) (q : Fin 2048) (k : Fin (S8x2048x2048.size 2)) :
    h.lift (ix2 b q) k = ix3 b q (⟨k.val, k.isLt⟩ : Fin 2048) := by
  funext c; apply Fin.ext
  fin_cases c <;> rfl

/-- The reduction by maximum from −∞, at (b, q), is the fold of the scores from the bottom element. -/
theorem v5_apply (b : Fin 8) (q : Fin 2048) :
    val_main_v5 (F := Ideal) x0 x1 x2 (ix2 b q) = Cert.Attn.rowMax x0 x1 x2 b q := by
  have h : S8x2048x2048.Reduces [2] S8x2048 := by decide
  unfold val_main_v5
  rw [Host.reduce_eq_fold_single FloatOps.maximumf _ _ reducesTo_S8x2048x2048_S8x2048_d2 h h_S_]
  rw [val_main_cst_apply, Ideal.ofBits_def, ofBits_negInf]
  unfold Cert.Attn.rowMax
  have hf : (val_main_v4 (F := Ideal) x0 x1 x2 ∘ h.lift (ix2 b q)) = fun k : Fin 2048 => Cert.Attn.score x0 x1 x2 b q k :=
    funext fun k => by
      show val_main_v4 (F := Ideal) x0 x1 x2 (h.lift (ix2 b q) k) = _
      rw [lift_ix2 h b q k, v4_apply]
      rfl
  rw [hf]
  rfl

/-- Joined with −∞, the reduction by maximum is still the row maximum. -/
theorem v7_apply (b : Fin 8) (q : Fin 2048) :
    val_main_v7 (F := Ideal) x0 x1 x2 (ix2 b q) = Cert.Attn.rowMax x0 x1 x2 b q := by
  rw [val_main_v7_apply, val_main_v6_apply, val_main_cst_0_apply, v5_apply, Ideal.maximumf_def, Ideal.ofBits_def,
    ofBits_negInf]
  exact max_eq_right bot_le

/-- The exponential of the shifted score, at (b, q, k), is weight. -/
theorem v11_apply (b : Fin 8) (q k : Fin 2048) :
    val_main_v11 (F := Ideal) x0 x1 x2 (ix3 b q k) = Cert.Attn.weight x0 x1 x2 b q k := by
  rw [val_main_v11_apply, val_main_v10_apply, val_main_v9_apply, val_main_v8_apply]
  have e : idx_main_v8 (idx_main_v9 (ix3 b q k)) = ix2 b q :=
    funext fun a => Fin.ext (by match a with | ⟨0, _⟩ => rfl | ⟨1, _⟩ => rfl)
  rw [e, v4_apply, v7_apply, Ideal.hostUnary_exp_def, Ideal.subf_def]
  rfl

/-- The reduction by sum from zero, at (b, q), is denom. -/
theorem v12_apply (b : Fin 8) (q : Fin 2048) :
    val_main_v12 (F := Ideal) x0 x1 x2 (ix2 b q) = Cert.Attn.denom x0 x1 x2 b q := by
  rw [val_main_v12_apply, val_main_cst_1_apply, Ideal.ofBits_def, Ideal.ofBits_zero_f32, zero_add]
  unfold Cert.Attn.denom
  refine Finset.sum_congr rfl fun k _ => ?_
  have e : idx_main_v12 (ix2 b q) k = ix3 b q k :=
    funext fun a => Fin.ext (by match a with | ⟨0, _⟩ => rfl | ⟨1, _⟩ => rfl | ⟨2, _⟩ => rfl)
  rw [e, v11_apply]

/-- The quotient, at (b, q, k), is the weight over the denominator. -/
theorem v15_apply (b : Fin 8) (q k : Fin 2048) :
    val_main_v15 (F := Ideal) x0 x1 x2 (ix3 b q k)
      = Ideal.div (Cert.Attn.weight x0 x1 x2 b q k) (Cert.Attn.denom x0 x1 x2 b q) := by
  rw [val_main_v15_apply, val_main_v14_apply, val_main_v13_apply]
  have e : idx_main_v13 (idx_main_v14 (ix3 b q k)) = ix2 b q :=
    funext fun a => Fin.ext (by match a with | ⟨0, _⟩ => rfl | ⟨1, _⟩ => rfl)
  rw [e, v11_apply, v12_apply, Ideal.hostDivf_def]

/-- The reference's result is the specification function. -/
theorem ref_eq_attend :
    Cert.ReferenceIdeal.Read.val_main_v16 (F := Ideal) x0 x1 x2 = Cert.Attn.attend x0 x1 x2 := by
  funext i
  obtain ⟨b, s, o, rfl⟩ : ∃ (b : Fin 8) (s : Fin 2048) (o : Fin 1024), i = ix3 b s o := ⟨i 0, i 1, i 2, eq_ix3 i⟩
  rw [val_main_v16_apply]
  show _ = ∑ k : Fin 2048, Ideal.div (Cert.Attn.weight x0 x1 x2 b s k) (Cert.Attn.denom x0 x1 x2 b s) * x0 (ix3 b k o)
  refine Finset.sum_congr rfl fun k _ => ?_
  have el : lidx_main_v16 (ix3 b s o) k = ix3 b s k :=
    funext fun a => Fin.ext (by match a with | ⟨0, _⟩ => rfl | ⟨1, _⟩ => rfl | ⟨2, _⟩ => rfl)
  have er : ridx_main_v16 (ix3 b s o) k = ix3 b k o :=
    funext fun a => Fin.ext (by match a with | ⟨0, _⟩ => rfl | ⟨1, _⟩ => rfl | ⟨2, _⟩ => rfl)
  rw [el, er, v15_apply]

/-- Every weakly fair execution of the reference terminates with its result buffer holding the specification function
    of the three argument arrays' launch contents, the arguments unchanged. -/
theorem run_attend (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v16)
          = Cert.Attn.attend (m ((c.tc : Thread nD τ).loc main_arg0) : (⟨S8x2048x1024, .f32⟩ : BufTy).Contents (Elt Ideal))
              (m ((c.tc : Thread nD τ).loc main_arg1) : (⟨S1024x1024, .f32⟩ : BufTy).Contents (Elt Ideal))
              (m ((c.tc : Thread nD τ).loc main_arg2) : (⟨S1024, .f32⟩ : BufTy).Contents (Elt Ideal))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
      ⟨(h c).1.trans ((val_main_v16_eq _ _ _).trans (ref_eq_attend _ _ _)), (h c).2⟩)
    (Cert.ReferenceIdeal.Value.run (F := Ideal) m ρ)

end Cert.ReferenceIdeal.RefValue

end
-- ==== Proof.lean ====
/-
  Single-head self-attention as one fused kernel against its plain reference, over the extended reals.

  The kernel tiles the 2048 positions of each batch into two query tiles and two key tiles of 1024 and walks
  (batch, query tile, key tile) in order. At the first key tile it projects the query tile (inputs · weightsᵀ + bias) and
  caches it, and starts the online softmax: running maximum, denominator and numerator of that tile; at the second key
  tile it rescales them by exp(old maximum − new maximum), folds the tile in and writes numerator / denominator. The
  reference projects all positions, takes all scores, one softmax per row and the weighted sum of the values. Over the
  extended reals a change of float format is the identity and a product into the zero accumulator is a plain sum, so
  both programs compute, for finite inputs, weights and bias, the SAME function of the three argument arrays:
  `Cert.Attn.attend`. The law that joins them is that for real scores and values the online quotient over two tiles is
  the softmax-weighted sum over all positions (exp(a)·exp(b) = exp(a + b), a sum split in halves, and
  (Σ eₖ vₖ) / Z = Σ (eₖ / Z) vₖ for Z ≠ 0); it needs the inputs finite, which is the precondition.

  The kernel's region is handed the bf16 copy of the inputs through two windows (query source and key/value source);
  both only read it, and they hold it in halves. The frames of both printed kernels are that run with the value
  forgotten; the reference's frame is its run with the result forgotten. The idealization rewrote no operation.
-/
import proofs.«152128_j19920058319181_2_alg».proof.Defs
import proofs.«152128_j19920058319181_2_alg».proof.Proof.Gen.Kernel
import proofs.«152128_j19920058319181_2_alg».proof.Proof.Gen.KernelIdeal
import proofs.«152128_j19920058319181_2_alg».proof.Proof.Gen.ReferenceIdeal
import proofs.«152128_j19920058319181_2_alg».proof.Proof.Gen.ReferenceIdeal.Read
import proofs.«152128_j19920058319181_2_alg».proof.Proof.Gen.Pre_finite_inputs
import proofs.«152128_j19920058319181_2_alg».proof.Proof.BitsFrameClaim
import proofs.«152128_j19920058319181_2_alg».proof.Proof.IdealValue
import proofs.«152128_j19920058319181_2_alg».proof.Proof.RefValue
import Idealize.ShloMosaic.Adequacy
import Idealize.ShloMosaic.Init

noncomputable section

namespace Cert.Proof

open Idealize.ShloMosaic Idealize.ShloMosaic.TcCoe Idealize.SL.Sem

/-- The word-level kernel runs and leaves its arguments as they were. -/
theorem frame_kernel : Cert.frame_Kernel := fun m ρ _ => Cert.Kernel.Hand.frame m ρ

/-- So does the kernel read over the extended reals: its value run with the result forgotten. -/
theorem frame_kernelIdeal : Cert.frame_KernelIdeal := fun m ρ hpre =>
  (θ_run Cert.KernelIdeal.defs _ _).mono (fun _ h c => (h c).2) (Cert.KernelIdeal.Hand.run_value m ρ hpre)

/-- And the reference: its run with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories that agree on the arguments both programs end with the specification's attention output of them. -/
theorem algebraic : Cert.algebraic_KernelIdeal_ReferenceIdeal := by
  intro m ρ m' ρ' hpre hagree
  refine ⟨fun c => Cert.Attn.attend (Cert.KernelIdeal.Hand.aX m c) (Cert.KernelIdeal.Hand.aW m c) (Cert.KernelIdeal.Hand.aB m c),
    Cert.KernelIdeal.Hand.run_value m ρ hpre, ?_⟩
  refine (θ_run Cert.ReferenceIdeal.defs _ _).mono (fun r h c => ?_) (Cert.ReferenceIdeal.RefValue.run_attend m' ρ')
  obtain ⟨h0, h1, h2, h3⟩ := h c
  refine ⟨?_, h1, h2, h3⟩
  rw [h0, (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
